-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x160x320 : Shape := ⟨4, ![8, 64, 160, 320]⟩
abbrev S_ : Shape := ⟨0, ![]⟩

class Facts : Prop where
  bcast_S_S8x64x160x320 : S_.BroadcastsInDim S8x64x160x320 (![] : Fin 0 → Fin S8x64x160x320.rank)
  reducesTo_S8x64x160x320_S_d0_1_2_3 : S8x64x160x320.ReducesTo [0, 1, 2, 3] S_
  h_S_ : 0 < S_.numel

variable [Facts]

def fn {F : FTy → Type} [FloatOps F] (main_arg0 : FVec F S8x64x160x320 .f32) (main_arg1 : FVec F S8x64x160x320 .f32) : IVec S_ 1 :=
  let main_v0 : FVec F S8x64x160x320 .f32 := Host.absf main_arg0
  let main_cst : FVec F S_ .f32 := constant S_ .f32 0x7F800000#32
  let main_v1 : FVec F S8x64x160x320 .f32 := broadcastInDim S8x64x160x320 ![] bcast_S_S8x64x160x320 main_cst
  let main_v2 : IVec S8x64x160x320 1 := cmpf .olt main_v0 main_v1
  let main_c : IVec S_ 1 := constantI S_ 1 1#1
  let main_v3 : IVec S_ 1 := (fun x v => Host.reduce IntOp.andi x v reducesTo_S8x64x160x320_S_d0_1_2_3 h_S_) main_v2 main_c
  let main_v4 : FVec F S8x64x160x320 .f32 := Host.absf main_arg1
  let main_cst_0 : FVec F S_ .f32 := constant S_ .f32 0x7F800000#32
  let main_v5 : FVec F S8x64x160x320 .f32 := broadcastInDim S8x64x160x320 ![] bcast_S_S8x64x160x320 main_cst_0
  let main_v6 : IVec S8x64x160x320 1 := cmpf .olt main_v4 main_v5
  let main_c_1 : IVec S_ 1 := constantI S_ 1 1#1
  let main_v7 : IVec S_ 1 := (fun x v => Host.reduce IntOp.andi x v reducesTo_S8x64x160x320_S_d0_1_2_3 h_S_) main_v6 main_c_1
  let main_v8 : IVec S_ 1 := andi main_v3 main_v7
  main_v8
-- ==== Kernel.lean ====
abbrev S8x64x160x320 : Shape := ⟨4, ![8, 64, 160, 320]⟩
abbrev S8x53x160x320 : Shape := ⟨4, ![8, 53, 160, 320]⟩
abbrev S1x16x160x320 : Shape := ⟨4, ![1, 16, 160, 320]⟩
abbrev S1x53x160x320 : Shape := ⟨4, ![1, 53, 160, 320]⟩
abbrev S53x160x320 : Shape := ⟨3, ![53, 160, 320]⟩
abbrev S16x160x320 : Shape := ⟨3, ![16, 160, 320]⟩
abbrev S16x4x320 : Shape := ⟨3, ![16, 4, 320]⟩
abbrev S16x164x320 : Shape := ⟨3, ![16, 164, 320]⟩
abbrev S16x168x320 : Shape := ⟨3, ![16, 168, 320]⟩
abbrev S16x168x4 : Shape := ⟨3, ![16, 168, 4]⟩
abbrev S16x168x324 : Shape := ⟨3, ![16, 168, 324]⟩
abbrev S16x168x328 : Shape := ⟨3, ![16, 168, 328]⟩
abbrev S160x320 : Shape := ⟨2, ![160, 320]⟩
abbrev S1x1x160x320 : Shape := ⟨4, ![1, 1, 160, 320]⟩

abbrev nBuf : Space → Nat
  | .hbm => 3
  | .vmem => 6
  | .smem => 0
  | _ => 0

abbrev bufTy : (tb : Table) → Fin (tcTables nBuf tb) → BufTy
  | .hbm, ⟨0, _⟩ => ⟨S8x64x160x320, .f32⟩
  | .hbm, ⟨1, _⟩ => ⟨S8x64x160x320, .f32⟩
  | .hbm, ⟨2, _⟩ => ⟨S8x53x160x320, .f32⟩
  | .local _ .vmem, ⟨0, _⟩ => ⟨S1x16x160x320, .f32⟩
  | .local _ .vmem, ⟨1, _⟩ => ⟨S1x16x160x320, .f32⟩
  | .local _ .vmem, ⟨2, _⟩ => ⟨S1x16x160x320, .f32⟩
  | .local _ .vmem, ⟨3, _⟩ => ⟨S1x16x160x320, .f32⟩
  | .local _ .vmem, ⟨4, _⟩ => ⟨S1x53x160x320, .f32⟩
  | .local _ .vmem, ⟨5, _⟩ => ⟨S1x53x160x320, .f32⟩
  | _, _ => ⟨S8x64x160x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x160x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x160x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x53x160x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x53x160x320_S1x53x160x320_0_0_0_0 : ∀ a, (![0, 0, 0, 0] : Fin 4 → Nat) a + S1x53x160x320.size a ≤ S1x53x160x320.size a
  h_S1x53x160x320 : 0 < S1x53x160x320.numel
  shapeCasts_S1x53x160x320_S53x160x320 : S1x53x160x320.ShapeCasts S53x160x320
  shapeCasts_S53x160x320_S1x53x160x320 : S53x160x320.ShapeCasts S1x53x160x320
  inb_S1x16x160x320_S1x16x160x320_0_0_0_0 : ∀ a, (![0, 0, 0, 0] : Fin 4 → Nat) a + S1x16x160x320.size a ≤ S1x16x160x320.size a
  h_S1x16x160x320 : 0 < S1x16x160x320.numel
  shapeCasts_S1x16x160x320_S16x160x320 : S1x16x160x320.ShapeCasts S16x160x320
  concatenates_S16x4x320_S16x160x320_S16x164x320_d1 : Shape.Concatenates [S16x4x320, S16x160x320] S16x164x320 1
  concatenates_S16x164x320_S16x4x320_S16x168x320_d1 : Shape.Concatenates [S16x164x320, S16x4x320] S16x168x320 1
  concatenates_S16x168x4_S16x168x320_S16x168x324_d2 : Shape.Concatenates [S16x168x4, S16x168x320] S16x168x324 2
  concatenates_S16x168x324_S16x168x4_S16x168x328_d2 : Shape.Concatenates [S16x168x324, S16x168x4] S16x168x328 2
  slices_S16x168x328_o0_0_0_S16x160x320 : S16x168x328.Slices ![0, 0, 0] S16x160x320
  reduces_S16x160x320_S160x320 : S16x160x320.Reduces [0] S160x320
  inb_S1x53x160x320_S1x1x160x320_0_0_0_0 : ∀ a, (![0, 0, 0, 0] : Fin 4 → Nat) a + S1x1x160x320.size a ≤ S1x53x160x320.size a
  h_S1x1x160x320 : 0 < S1x1x160x320.numel
  shapeCasts_S1x1x160x320_S160x320 : S1x1x160x320.ShapeCasts S160x320
  shapeCasts_S160x320_S1x1x160x320 : S160x320.ShapeCasts S1x1x160x320
  slices_S16x168x328_o0_0_2_S16x160x320 : S16x168x328.Slices ![0, 0, 2] S16x160x320
  inb_S1x53x160x320_S1x1x160x320_0_1_0_0 : ∀ a, (![0, 1, 0, 0] : Fin 4 → Nat) a + S1x1x160x320.size a ≤ S1x53x160x320.size a
  slices_S16x168x328_o0_0_4_S16x160x320 : S16x168x328.Slices ![0, 0, 4] S16x160x320
  inb_S1x53x160x320_S1x1x160x320_0_2_0_0 : ∀ a, (![0, 2, 0, 0] : Fin 4 → Nat) a + S1x1x160x320.size a ≤ S1x53x160x320.size a
  slices_S16x168x328_o0_0_6_S16x160x320 : S16x168x328.Slices ![0, 0, 6] S16x160x320
  inb_S1x53x160x320_S1x1x160x320_0_3_0_0 : ∀ a, (![0, 3, 0, 0] : Fin 4 → Nat) a + S1x1x160x320.size a ≤ S1x53x160x320.size a
  slices_S16x168x328_o0_0_8_S16x160x320 : S16x168x328.Slices ![0, 0, 8] S16x160x320
  inb_S1x53x160x320_S1x1x160x320_0_4_0_0 : ∀ a, (![0, 4, 0, 0] : Fin 4 → Nat) a + S1x1x160x320.size a ≤ S1x53x160x320.size a
  slices_S16x168x328_o0_1_1_S16x160x320 : S16x168x328.Slices ![0, 1, 1] S16x160x320
  inb_S1x53x160x320_S1x1x160x320_0_5_0_0 : ∀ a, (![0, 5, 0, 0] : Fin 4 → Nat) a + S1x1x160x320.size a ≤ S1x53x160x320.size a
  slices_S16x168x328_o0_1_3_S16x160x320 : S16x168x328.Slices ![0, 1, 3] S16x160x320
  inb_S1x53x160x320_S1x1x160x320_0_6_0_0 : ∀ a, (![0, 6, 0, 0] : Fin 4 → Nat) a + S1x1x160x320.size a ≤ S1x53x160x320.size a
  slices_S16x168x328_o0_1_5_S16x160x320 : S16x168x328.Slices ![0, 1, 5] S16x160x320
  inb_S1x53x160x320_S1x1x160x320_0_7_0_0 : ∀ a, (![0, 7, 0, 0] : Fin 4 → Nat) a + S1x1x160x320.size a ≤ S1x53x160x320.size a
  slices_S16x168x328_o0_1_7_S16x160x320 : S16x168x328.Slices ![0, 1, 7] S16x160x320
  inb_S1x53x160x320_S1x1x160x320_0_8_0_0 : ∀ a, (![0, 8, 0, 0] : Fin 4 → Nat) a + S1x1x160x320.size a ≤ S1x53x160x320.size a
  slices_S16x168x328_o0_2_0_S16x160x320 : S16x168x328.Slices ![0, 2, 0] S16x160x320
  inb_S1x53x160x320_S1x1x160x320_0_9_0_0 : ∀ a, (![0, 9, 0, 0] : Fin 4 → Nat) a + S1x1x160x320.size a ≤ S1x53x160x320.size a
  slices_S16x168x328_o0_2_2_S16x160x320 : S16x168x328.Slices ![0, 2, 2] S16x160x320
  inb_S1x53x160x320_S1x1x160x320_0_10_0_0 : ∀ a, (![0, 10, 0, 0] : Fin 4 → Nat) a + S1x1x160x320.size a ≤ S1x53x160x320.size a
  slices_S16x168x328_o0_2_3_S16x160x320 : S16x168x328.Slices ![0, 2, 3] S16x160x320
  inb_S1x53x160x320_S1x1x160x320_0_11_0_0 : ∀ a, (![0, 11, 0, 0] : Fin 4 → Nat) a + S1x1x160x320.size a ≤ S1x53x160x320.size a
  slices_S16x168x328_o0_2_4_S16x160x320 : S16x168x328.Slices ![0, 2, 4] S16x160x320
  inb_S1x53x160x320_S1x1x160x320_0_12_0_0 : ∀ a, (![0, 12, 0, 0] : Fin 4 → Nat) a + S1x1x160x320.size a ≤ S1x53x160x320.size a
  slices_S16x168x328_o0_2_5_S16x160x320 : S16x168x328.Slices ![0, 2, 5] S16x160x320
  inb_S1x53x160x320_S1x1x160x320_0_13_0_0 : ∀ a, (![0, 13, 0, 0] : Fin 4 → Nat) a + S1x1x160x320.size a ≤ S1x53x160x320.size a
  slices_S16x168x328_o0_2_6_S16x160x320 : S16x168x328.Slices ![0, 2, 6] S16x160x320
  inb_S1x53x160x320_S1x1x160x320_0_14_0_0 : ∀ a, (![0, 14, 0, 0] : Fin 4 → Nat) a + S1x1x160x320.size a ≤ S1x53x160x320.size a
  slices_S16x168x328_o0_2_8_S16x160x320 : S16x168x328.Slices ![0, 2, 8] S16x160x320
  inb_S1x53x160x320_S1x1x160x320_0_15_0_0 : ∀ a, (![0, 15, 0, 0] : Fin 4 → Nat) a + S1x1x160x320.size a ≤ S1x53x160x320.size a
  slices_S16x168x328_o0_3_1_S16x160x320 : S16x168x328.Slices ![0, 3, 1] S16x160x320
  inb_S1x53x160x320_S1x1x160x320_0_16_0_0 : ∀ a, (![0, 16, 0, 0] : Fin 4 → Nat) a + S1x1x160x320.size a ≤ S1x53x160x320.size a
  slices_S16x168x328_o0_3_2_S16x160x320 : S16x168x328.Slices ![0, 3, 2] S16x160x320
  inb_S1x53x160x320_S1x1x160x320_0_17_0_0 : ∀ a, (![0, 17, 0, 0] : Fin 4 → Nat) a + S1x1x160x320.size a ≤ S1x53x160x320.size a
  slices_S16x168x328_o0_3_3_S16x160x320 : S16x168x328.Slices ![0, 3, 3] S16x160x320
  inb_S1x53x160x320_S1x1x160x320_0_18_0_0 : ∀ a, (![0, 18, 0, 0] : Fin 4 → Nat) a + S1x1x160x320.size a ≤ S1x53x160x320.size a
  slices_S16x168x328_o0_3_4_S16x160x320 : S16x168x328.Slices ![0, 3, 4] S16x160x320
  inb_S1x53x160x320_S1x1x160x320_0_19_0_0 : ∀ a, (![0, 19, 0, 0] : Fin 4 → Nat) a + S1x1x160x320.size a ≤ S1x53x160x320.size a
  slices_S16x168x328_o0_3_5_S16x160x320 : S16x168x328.Slices ![0, 3, 5] S16x160x320
  inb_S1x53x160x320_S1x1x160x320_0_20_0_0 : ∀ a, (![0, 20, 0, 0] : Fin 4 → Nat) a + S1x1x160x320.size a ≤ S1x53x160x320.size a
  slices_S16x168x328_o0_3_6_S16x160x320 : S16x168x328.Slices ![0, 3, 6] S16x160x320
  inb_S1x53x160x320_S1x1x160x320_0_21_0_0 : ∀ a, (![0, 21, 0, 0] : Fin 4 → Nat) a + S1x1x160x320.size a ≤ S1x53x160x320.size a
  slices_S16x168x328_o0_3_7_S16x160x320 : S16x168x328.Slices ![0, 3, 7] S16x160x320
  inb_S1x53x160x320_S1x1x160x320_0_22_0_0 : ∀ a, (![0, 22, 0, 0] : Fin 4 → Nat) a + S1x1x160x320.size a ≤ S1x53x160x320.size a
  slices_S16x168x328_o0_4_0_S16x160x320 : S16x168x328.Slices ![0, 4, 0] S16x160x320
  inb_S1x53x160x320_S1x1x160x320_0_23_0_0 : ∀ a, (![0, 23, 0, 0] : Fin 4 → Nat) a + S1x1x160x320.size a ≤ S1x53x160x320.size a
  slices_S16x168x328_o0_4_2_S16x160x320 : S16x168x328.Slices ![0, 4, 2] S16x160x320
  inb_S1x53x160x320_S1x1x160x320_0_24_0_0 : ∀ a, (![0, 24, 0, 0] : Fin 4 → Nat) a + S1x1x160x320.size a ≤ S1x53x160x320.size a
  slices_S16x168x328_o0_4_3_S16x160x320 : S16x168x328.Slices ![0, 4, 3] S16x160x320
  inb_S1x53x160x320_S1x1x160x320_0_25_0_0 : ∀ a, (![0, 25, 0, 0] : Fin 4 → Nat) a + S1x1x160x320.size a ≤ S1x53x160x320.size a
  slices_S16x168x328_o0_4_4_S16x160x320 : S16x168x328.Slices ![0, 4, 4] S16x160x320
  inb_S1x53x160x320_S1x1x160x320_0_26_0_0 : ∀ a, (![0, 26, 0, 0] : Fin 4 → Nat) a + S1x1x160x320.size a ≤ S1x53x160x320.size a
  slices_S16x168x328_o0_4_5_S16x160x320 : S16x168x328.Slices ![0, 4, 5] S16x160x320
  inb_S1x53x160x320_S1x1x160x320_0_27_0_0 : ∀ a, (![0, 27, 0, 0] : Fin 4 → Nat) a + S1x1x160x320.size a ≤ S1x53x160x320.size a
  slices_S16x168x328_o0_4_6_S16x160x320 : S16x168x328.Slices ![0, 4, 6] S16x160x320
  inb_S1x53x160x320_S1x1x160x320_0_28_0_0 : ∀ a, (![0, 28, 0, 0] : Fin 4 → Nat) a + S1x1x160x320.size a ≤ S1x53x160x320.size a
  slices_S16x168x328_o0_4_8_S16x160x320 : S16x168x328.Slices ![0, 4, 8] S16x160x320
  inb_S1x53x160x320_S1x1x160x320_0_29_0_0 : ∀ a, (![0, 29, 0, 0] : Fin 4 → Nat) a + S1x1x160x320.size a ≤ S1x53x160x320.size a
  slices_S16x168x328_o0_5_1_S16x160x320 : S16x168x328.Slices ![0, 5, 1] S16x160x320
  inb_S1x53x160x320_S1x1x160x320_0_30_0_0 : ∀ a, (![0, 30, 0, 0] : Fin 4 → Nat) a + S1x1x160x320.size a ≤ S1x53x160x320.size a
  slices_S16x168x328_o0_5_2_S16x160x320 : S16x168x328.Slices ![0, 5, 2] S16x160x320
  inb_S1x53x160x320_S1x1x160x320_0_31_0_0 : ∀ a, (![0, 31, 0, 0] : Fin 4 → Nat) a + S1x1x160x320.size a ≤ S1x53x160x320.size a
  slices_S16x168x328_o0_5_3_S16x160x320 : S16x168x328.Slices ![0, 5, 3] S16x160x320
  inb_S1x53x160x320_S1x1x160x320_0_32_0_0 : ∀ a, (![0, 32, 0, 0] : Fin 4 → Nat) a + S1x1x160x320.size a ≤ S1x53x160x320.size a
  slices_S16x168x328_o0_5_4_S16x160x320 : S16x168x328.Slices ![0, 5, 4] S16x160x320
  inb_S1x53x160x320_S1x1x160x320_0_33_0_0 : ∀ a, (![0, 33, 0, 0] : Fin 4 → Nat) a + S1x1x160x320.size a ≤ S1x53x160x320.size a
  slices_S16x168x328_o0_5_5_S16x160x320 : S16x168x328.Slices ![0, 5, 5] S16x160x320
  inb_S1x53x160x320_S1x1x160x320_0_34_0_0 : ∀ a, (![0, 34, 0, 0] : Fin 4 → Nat) a + S1x1x160x320.size a ≤ S1x53x160x320.size a
  slices_S16x168x328_o0_5_6_S16x160x320 : S16x168x328.Slices ![0, 5, 6] S16x160x320
  inb_S1x53x160x320_S1x1x160x320_0_35_0_0 : ∀ a, (![0, 35, 0, 0] : Fin 4 → Nat) a + S1x1x160x320.size a ≤ S1x53x160x320.size a
  slices_S16x168x328_o0_5_7_S16x160x320 : S16x168x328.Slices ![0, 5, 7] S16x160x320
  inb_S1x53x160x320_S1x1x160x320_0_36_0_0 : ∀ a, (![0, 36, 0, 0] : Fin 4 → Nat) a + S1x1x160x320.size a ≤ S1x53x160x320.size a
  slices_S16x168x328_o0_6_0_S16x160x320 : S16x168x328.Slices ![0, 6, 0] S16x160x320
  inb_S1x53x160x320_S1x1x160x320_0_37_0_0 : ∀ a, (![0, 37, 0, 0] : Fin 4 → Nat) a + S1x1x160x320.size a ≤ S1x53x160x320.size a
  slices_S16x168x328_o0_6_2_S16x160x320 : S16x168x328.Slices ![0, 6, 2] S16x160x320
  inb_S1x53x160x320_S1x1x160x320_0_38_0_0 : ∀ a, (![0, 38, 0, 0] : Fin 4 → Nat) a + S1x1x160x320.size a ≤ S1x53x160x320.size a
  slices_S16x168x328_o0_6_3_S16x160x320 : S16x168x328.Slices ![0, 6, 3] S16x160x320
  inb_S1x53x160x320_S1x1x160x320_0_39_0_0 : ∀ a, (![0, 39, 0, 0] : Fin 4 → Nat) a + S1x1x160x320.size a ≤ S1x53x160x320.size a
  slices_S16x168x328_o0_6_4_S16x160x320 : S16x168x328.Slices ![0, 6, 4] S16x160x320
  inb_S1x53x160x320_S1x1x160x320_0_40_0_0 : ∀ a, (![0, 40, 0, 0] : Fin 4 → Nat) a + S1x1x160x320.size a ≤ S1x53x160x320.size a
  slices_S16x168x328_o0_6_5_S16x160x320 : S16x168x328.Slices ![0, 6, 5] S16x160x320
  inb_S1x53x160x320_S1x1x160x320_0_41_0_0 : ∀ a, (![0, 41, 0, 0] : Fin 4 → Nat) a + S1x1x160x320.size a ≤ S1x53x160x320.size a
  slices_S16x168x328_o0_6_6_S16x160x320 : S16x168x328.Slices ![0, 6, 6] S16x160x320
  inb_S1x53x160x320_S1x1x160x320_0_42_0_0 : ∀ a, (![0, 42, 0, 0] : Fin 4 → Nat) a + S1x1x160x320.size a ≤ S1x53x160x320.size a
  slices_S16x168x328_o0_6_8_S16x160x320 : S16x168x328.Slices ![0, 6, 8] S16x160x320
  inb_S1x53x160x320_S1x1x160x320_0_43_0_0 : ∀ a, (![0, 43, 0, 0] : Fin 4 → Nat) a + S1x1x160x320.size a ≤ S1x53x160x320.size a
  slices_S16x168x328_o0_7_1_S16x160x320 : S16x168x328.Slices ![0, 7, 1] S16x160x320
  inb_S1x53x160x320_S1x1x160x320_0_44_0_0 : ∀ a, (![0, 44, 0, 0] : Fin 4 → Nat) a + S1x1x160x320.size a ≤ S1x53x160x320.size a
  slices_S16x168x328_o0_7_3_S16x160x320 : S16x168x328.Slices ![0, 7, 3] S16x160x320
  inb_S1x53x160x320_S1x1x160x320_0_45_0_0 : ∀ a, (![0, 45, 0, 0] : Fin 4 → Nat) a + S1x1x160x320.size a ≤ S1x53x160x320.size a
  slices_S16x168x328_o0_7_5_S16x160x320 : S16x168x328.Slices ![0, 7, 5] S16x160x320
  inb_S1x53x160x320_S1x1x160x320_0_46_0_0 : ∀ a, (![0, 46, 0, 0] : Fin 4 → Nat) a + S1x1x160x320.size a ≤ S1x53x160x320.size a
  slices_S16x168x328_o0_7_7_S16x160x320 : S16x168x328.Slices ![0, 7, 7] S16x160x320
  inb_S1x53x160x320_S1x1x160x320_0_47_0_0 : ∀ a, (![0, 47, 0, 0] : Fin 4 → Nat) a + S1x1x160x320.size a ≤ S1x53x160x320.size a
  slices_S16x168x328_o0_8_0_S16x160x320 : S16x168x328.Slices ![0, 8, 0] S16x160x320
  inb_S1x53x160x320_S1x1x160x320_0_48_0_0 : ∀ a, (![0, 48, 0, 0] : Fin 4 → Nat) a + S1x1x160x320.size a ≤ S1x53x160x320.size a
  slices_S16x168x328_o0_8_2_S16x160x320 : S16x168x328.Slices ![0, 8, 2] S16x160x320
  inb_S1x53x160x320_S1x1x160x320_0_49_0_0 : ∀ a, (![0, 49, 0, 0] : Fin 4 → Nat) a + S1x1x160x320.size a ≤ S1x53x160x320.size a
  slices_S16x168x328_o0_8_4_S16x160x320 : S16x168x328.Slices ![0, 8, 4] S16x160x320
  inb_S1x53x160x320_S1x1x160x320_0_50_0_0 : ∀ a, (![0, 50, 0, 0] : Fin 4 → Nat) a + S1x1x160x320.size a ≤ S1x53x160x320.size a
  slices_S16x168x328_o0_8_6_S16x160x320 : S16x168x328.Slices ![0, 8, 6] S16x160x320
  inb_S1x53x160x320_S1x1x160x320_0_51_0_0 : ∀ a, (![0, 51, 0, 0] : Fin 4 → Nat) a + S1x1x160x320.size a ≤ S1x53x160x320.size a
  slices_S16x168x328_o0_8_8_S16x160x320 : S16x168x328.Slices ![0, 8, 8] S16x160x320
  inb_S1x53x160x320_S1x1x160x320_0_52_0_0 : ∀ a, (![0, 52, 0, 0] : Fin 4 → Nat) a + S1x1x160x320.size a ≤ S1x53x160x320.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x160x320.size a ≤ S8x64x160x320.size a
  hwx0_0 : ∀ i : grid0.Coords, EltTy.bits .f32 = 32 ∨ (Rect.block (s := S8x64x160x320) S1x16x160x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x160x320.size a ≤ S8x64x160x320.size a
  hwx0_1 : ∀ i : grid0.Coords, EltTy.bits .f32 = 32 ∨ (Rect.block (s := S8x64x160x320) S1x16x160x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x53x160x320.size a ≤ S8x53x160x320.size a
  hwx0_2 : ∀ i : grid0.Coords, EltTy.bits .f32 = 32 ∨ (Rect.block (s := S8x53x160x320) S1x53x160x320.size (cc0_transform_2 i) (hinb0_2 i)).WholeWords (EltTy.packing .f32)

variable [Facts₀]

abbrev win0_0 : Pipeline.Window sig grid0 :=
  Pipeline.Window.ofSpec (Memref.whole main_arg0) S1x16x160x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x160x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x53x160x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x160x320 : Shape := ⟨4, ![8, 64, 160, 320]⟩
abbrev S_ : Shape := ⟨0, ![]⟩
abbrev S8x64x168x328 : Shape := ⟨4, ![8, 64, 168, 328]⟩
abbrev S8x160x320 : Shape := ⟨3, ![8, 160, 320]⟩
abbrev S8x1x160x320 : Shape := ⟨4, ![8, 1, 160, 320]⟩
abbrev S8x16x160x320 : Shape := ⟨4, ![8, 16, 160, 320]⟩
abbrev S8x5x160x320 : Shape := ⟨4, ![8, 5, 160, 320]⟩
abbrev S8x53x160x320 : Shape := ⟨4, ![8, 53, 160, 320]⟩

abbrev nBuf : Space → Nat
  | .hbm => 434
  | .vmem => 0
  | .smem => 0
  | _ => 0

abbrev hbmTy0_0 (i : Nat) : BufTy := match i % 128 with
  | 0 => ⟨S8x64x160x320, .f32⟩
  | 1 => ⟨S8x64x160x320, .f32⟩
  | 2 => ⟨S_, .i32⟩
  | 3 => ⟨S_, .f32⟩
  | 4 => ⟨S8x64x168x328, .f32⟩
  | 5 => ⟨S8x64x160x320, .f32⟩
  | 6 => ⟨S8x64x160x320, .f32⟩
  | 7 => ⟨S_, .f32⟩
  | 8 => ⟨S8x160x320, .f32⟩
  | 9 => ⟨S_, .f32⟩
  | 10 => ⟨S8x160x320, .f32⟩
  | 11 => ⟨S8x160x320, .f32⟩
  | 12 => ⟨S8x64x160x320, .f32⟩
  | 13 => ⟨S8x64x160x320, .f32⟩
  | 14 => ⟨S_, .f32⟩
  | 15 => ⟨S8x160x320, .f32⟩
  | 16 => ⟨S_, .f32⟩
  | 17 => ⟨S8x160x320, .f32⟩
  | 18 => ⟨S8x160x320, .f32⟩
  | 19 => ⟨S8x64x160x320, .f32⟩
  | 20 => ⟨S8x64x160x320, .f32⟩
  | 21 => ⟨S_, .f32⟩
  | 22 => ⟨S8x160x320, .f32⟩
  | 23 => ⟨S_, .f32⟩
  | 24 => ⟨S8x160x320, .f32⟩
  | 25 => ⟨S8x160x320, .f32⟩
  | 26 => ⟨S8x64x160x320, .f32⟩
  | 27 => ⟨S8x64x160x320, .f32⟩
  | 28 => ⟨S_, .f32⟩
  | 29 => ⟨S8x160x320, .f32⟩
  | 30 => ⟨S_, .f32⟩
  | 31 => ⟨S8x160x320, .f32⟩
  | 32 => ⟨S8x160x320, .f32⟩
  | 33 => ⟨S8x64x160x320, .f32⟩
  | 34 => ⟨S8x64x160x320, .f32⟩
  | 35 => ⟨S_, .f32⟩
  | 36 => ⟨S8x160x320, .f32⟩
  | 37 => ⟨S_, .f32⟩
  | 38 => ⟨S8x160x320, .f32⟩
  | 39 => ⟨S8x160x320, .f32⟩
  | 40 => ⟨S8x64x160x320, .f32⟩
  | 41 => ⟨S8x64x160x320, .f32⟩
  | 42 => ⟨S_, .f32⟩
  | 43 => ⟨S8x160x320, .f32⟩
  | 44 => ⟨S_, .f32⟩
  | 45 => ⟨S8x160x320, .f32⟩
  | 46 => ⟨S8x160x320, .f32⟩
  | 47 => ⟨S8x64x160x320, .f32⟩
  | 48 => ⟨S8x64x160x320, .f32⟩
  | 49 => ⟨S_, .f32⟩
  | 50 => ⟨S8x160x320, .f32⟩
  | 51 => ⟨S_, .f32⟩
  | 52 => ⟨S8x160x320, .f32⟩
  | 53 => ⟨S8x160x320, .f32⟩
  | 54 => ⟨S8x64x160x320, .f32⟩
  | 55 => ⟨S8x64x160x320, .f32⟩
  | 56 => ⟨S_, .f32⟩
  | 57 => ⟨S8x160x320, .f32⟩
  | 58 => ⟨S_, .f32⟩
  | 59 => ⟨S8x160x320, .f32⟩
  | 60 => ⟨S8x160x320, .f32⟩
  | 61 => ⟨S8x64x160x320, .f32⟩
  | 62 => ⟨S8x64x160x320, .f32⟩
  | 63 => ⟨S_, .f32⟩
  | 64 => ⟨S8x160x320, .f32⟩
  | 65 => ⟨S_, .f32⟩
  | 66 => ⟨S8x160x320, .f32⟩
  | 67 => ⟨S8x160x320, .f32⟩
  | 68 => ⟨S8x64x160x320, .f32⟩
  | 69 => ⟨S8x64x160x320, .f32⟩
  | 70 => ⟨S_, .f32⟩
  | 71 => ⟨S8x160x320, .f32⟩
  | 72 => ⟨S_, .f32⟩
  | 73 => ⟨S8x160x320, .f32⟩
  | 74 => ⟨S8x160x320, .f32⟩
  | 75 => ⟨S8x64x160x320, .f32⟩
  | 76 => ⟨S8x64x160x320, .f32⟩
  | 77 => ⟨S_, .f32⟩
  | 78 => ⟨S8x160x320, .f32⟩
  | 79 => ⟨S_, .f32⟩
  | 80 => ⟨S8x160x320, .f32⟩
  | 81 => ⟨S8x160x320, .f32⟩
  | 82 => ⟨S8x64x160x320, .f32⟩
  | 83 => ⟨S8x64x160x320, .f32⟩
  | 84 => ⟨S_, .f32⟩
  | 85 => ⟨S8x160x320, .f32⟩
  | 86 => ⟨S_, .f32⟩
  | 87 => ⟨S8x160x320, .f32⟩
  | 88 => ⟨S8x160x320, .f32⟩
  | 89 => ⟨S8x64x160x320, .f32⟩
  | 90 => ⟨S8x64x160x320, .f32⟩
  | 91 => ⟨S_, .f32⟩
  | 92 => ⟨S8x160x320, .f32⟩
  | 93 => ⟨S_, .f32⟩
  | 94 => ⟨S8x160x320, .f32⟩
  | 95 => ⟨S8x160x320, .f32⟩
  | 96 => ⟨S8x64x160x320, .f32⟩
  | 97 => ⟨S8x64x160x320, .f32⟩
  | 98 => ⟨S_, .f32⟩
  | 99 => ⟨S8x160x320, .f32⟩
  | 100 => ⟨S_, .f32⟩
  | 101 => ⟨S8x160x320, .f32⟩
  | 102 => ⟨S8x160x320, .f32⟩
  | 103 => ⟨S8x64x160x320, .f32⟩
  | 104 => ⟨S8x64x160x320, .f32⟩
  | 105 => ⟨S_, .f32⟩
  | 106 => ⟨S8x160x320, .f32⟩
  | 107 => ⟨S_, .f32⟩
  | 108 => ⟨S8x160x320, .f32⟩
  | 109 => ⟨S8x160x320, .f32⟩
  | 110 => ⟨S8x64x160x320, .f32⟩
  | 111 => ⟨S8x64x160x320, .f32⟩
  | 112 => ⟨S_, .f32⟩
  | 113 => ⟨S8x160x320, .f32⟩
  | 114 => ⟨S_, .f32⟩
  | 115 => ⟨S8x160x320, .f32⟩
  | 116 => ⟨S8x160x320, .f32⟩
  | 117 => ⟨S8x64x160x320, .f32⟩
  | 118 => ⟨S8x64x160x320, .f32⟩
  | 119 => ⟨S_, .f32⟩
  | 120 => ⟨S8x160x320, .f32⟩
  | 121 => ⟨S_, .f32⟩
  | 122 => ⟨S8x160x320, .f32⟩
  | 123 => ⟨S8x160x320, .f32⟩
  | 124 => ⟨S8x64x160x320, .f32⟩
  | 125 => ⟨S8x64x160x320, .f32⟩
  | 126 => ⟨S_, .f32⟩
  | 127 => ⟨S8x160x320, .f32⟩
  | _ => ⟨S8x64x160x320, .f32⟩

abbrev hbmTy0_1 (i : Nat) : BufTy := match i % 128 with
  | 0 => ⟨S_, .f32⟩
  | 1 => ⟨S8x160x320, .f32⟩
  | 2 => ⟨S8x160x320, .f32⟩
  | 3 => ⟨S8x64x160x320, .f32⟩
  | 4 => ⟨S8x64x160x320, .f32⟩
  | 5 => ⟨S_, .f32⟩
  | 6 => ⟨S8x160x320, .f32⟩
  | 7 => ⟨S_, .f32⟩
  | 8 => ⟨S8x160x320, .f32⟩
  | 9 => ⟨S8x160x320, .f32⟩
  | 10 => ⟨S8x64x160x320, .f32⟩
  | 11 => ⟨S8x64x160x320, .f32⟩
  | 12 => ⟨S_, .f32⟩
  | 13 => ⟨S8x160x320, .f32⟩
  | 14 => ⟨S_, .f32⟩
  | 15 => ⟨S8x160x320, .f32⟩
  | 16 => ⟨S8x160x320, .f32⟩
  | 17 => ⟨S8x64x160x320, .f32⟩
  | 18 => ⟨S8x64x160x320, .f32⟩
  | 19 => ⟨S_, .f32⟩
  | 20 => ⟨S8x160x320, .f32⟩
  | 21 => ⟨S_, .f32⟩
  | 22 => ⟨S8x160x320, .f32⟩
  | 23 => ⟨S8x160x320, .f32⟩
  | 24 => ⟨S8x64x160x320, .f32⟩
  | 25 => ⟨S8x64x160x320, .f32⟩
  | 26 => ⟨S_, .f32⟩
  | 27 => ⟨S8x160x320, .f32⟩
  | 28 => ⟨S_, .f32⟩
  | 29 => ⟨S8x160x320, .f32⟩
  | 30 => ⟨S8x160x320, .f32⟩
  | 31 => ⟨S8x64x160x320, .f32⟩
  | 32 => ⟨S8x64x160x320, .f32⟩
  | 33 => ⟨S_, .f32⟩
  | 34 => ⟨S8x160x320, .f32⟩
  | 35 => ⟨S_, .f32⟩
  | 36 => ⟨S8x160x320, .f32⟩
  | 37 => ⟨S8x160x320, .f32⟩
  | 38 => ⟨S8x64x160x320, .f32⟩
  | 39 => ⟨S8x64x160x320, .f32⟩
  | 40 => ⟨S_, .f32⟩
  | 41 => ⟨S8x160x320, .f32⟩
  | 42 => ⟨S_, .f32⟩
  | 43 => ⟨S8x160x320, .f32⟩
  | 44 => ⟨S8x160x320, .f32⟩
  | 45 => ⟨S8x64x160x320, .f32⟩
  | 46 => ⟨S8x64x160x320, .f32⟩
  | 47 => ⟨S_, .f32⟩
  | 48 => ⟨S8x160x320, .f32⟩
  | 49 => ⟨S_, .f32⟩
  | 50 => ⟨S8x160x320, .f32⟩
  | 51 => ⟨S8x160x320, .f32⟩
  | 52 => ⟨S8x64x160x320, .f32⟩
  | 53 => ⟨S8x64x160x320, .f32⟩
  | 54 => ⟨S_, .f32⟩
  | 55 => ⟨S8x160x320, .f32⟩
  | 56 => ⟨S_, .f32⟩
  | 57 => ⟨S8x160x320, .f32⟩
  | 58 => ⟨S8x160x320, .f32⟩
  | 59 => ⟨S8x64x160x320, .f32⟩
  | 60 => ⟨S8x64x160x320, .f32⟩
  | 61 => ⟨S_, .f32⟩
  | 62 => ⟨S8x160x320, .f32⟩
  | 63 => ⟨S_, .f32⟩
  | 64 => ⟨S8x160x320, .f32⟩
  | 65 => ⟨S8x160x320, .f32⟩
  | 66 => ⟨S8x64x160x320, .f32⟩
  | 67 => ⟨S8x64x160x320, .f32⟩
  | 68 => ⟨S_, .f32⟩
  | 69 => ⟨S8x160x320, .f32⟩
  | 70 => ⟨S_, .f32⟩
  | 71 => ⟨S8x160x320, .f32⟩
  | 72 => ⟨S8x160x320, .f32⟩
  | 73 => ⟨S8x64x160x320, .f32⟩
  | 74 => ⟨S8x64x160x320, .f32⟩
  | 75 => ⟨S_, .f32⟩
  | 76 => ⟨S8x160x320, .f32⟩
  | 77 => ⟨S_, .f32⟩
  | 78 => ⟨S8x160x320, .f32⟩
  | 79 => ⟨S8x160x320, .f32⟩
  | 80 => ⟨S8x64x160x320, .f32⟩
  | 81 => ⟨S8x64x160x320, .f32⟩
  | 82 => ⟨S_, .f32⟩
  | 83 => ⟨S8x160x320, .f32⟩
  | 84 => ⟨S_, .f32⟩
  | 85 => ⟨S8x160x320, .f32⟩
  | 86 => ⟨S8x160x320, .f32⟩
  | 87 => ⟨S8x64x160x320, .f32⟩
  | 88 => ⟨S8x64x160x320, .f32⟩
  | 89 => ⟨S_, .f32⟩
  | 90 => ⟨S8x160x320, .f32⟩
  | 91 => ⟨S_, .f32⟩
  | 92 => ⟨S8x160x320, .f32⟩
  | 93 => ⟨S8x160x320, .f32⟩
  | 94 => ⟨S8x64x160x320, .f32⟩
  | 95 => ⟨S8x64x160x320, .f32⟩
  | 96 => ⟨S_, .f32⟩
  | 97 => ⟨S8x160x320, .f32⟩
  | 98 => ⟨S_, .f32⟩
  | 99 => ⟨S8x160x320, .f32⟩
  | 100 => ⟨S8x160x320, .f32⟩
  | 101 => ⟨S8x64x160x320, .f32⟩
  | 102 => ⟨S8x64x160x320, .f32⟩
  | 103 => ⟨S_, .f32⟩
  | 104 => ⟨S8x160x320, .f32⟩
  | 105 => ⟨S_, .f32⟩
  | 106 => ⟨S8x160x320, .f32⟩
  | 107 => ⟨S8x160x320, .f32⟩
  | 108 => ⟨S8x64x160x320, .f32⟩
  | 109 => ⟨S8x64x160x320, .f32⟩
  | 110 => ⟨S_, .f32⟩
  | 111 => ⟨S8x160x320, .f32⟩
  | 112 => ⟨S_, .f32⟩
  | 113 => ⟨S8x160x320, .f32⟩
  | 114 => ⟨S8x160x320, .f32⟩
  | 115 => ⟨S8x64x160x320, .f32⟩
  | 116 => ⟨S8x64x160x320, .f32⟩
  | 117 => ⟨S_, .f32⟩
  | 118 => ⟨S8x160x320, .f32⟩
  | 119 => ⟨S_, .f32⟩
  | 120 => ⟨S8x160x320, .f32⟩
  | 121 => ⟨S8x160x320, .f32⟩
  | 122 => ⟨S8x64x160x320, .f32⟩
  | 123 => ⟨S8x64x160x320, .f32⟩
  | 124 => ⟨S_, .f32⟩
  | 125 => ⟨S8x160x320, .f32⟩
  | 126 => ⟨S_, .f32⟩
  | 127 => ⟨S8x160x320, .f32⟩
  | _ => ⟨S8x64x160x320, .f32⟩

abbrev hbmTy0_2 (i : Nat) : BufTy := match i % 128 with
  | 0 => ⟨S8x160x320, .f32⟩
  | 1 => ⟨S8x64x160x320, .f32⟩
  | 2 => ⟨S8x64x160x320, .f32⟩
  | 3 => ⟨S_, .f32⟩
  | 4 => ⟨S8x160x320, .f32⟩
  | 5 => ⟨S_, .f32⟩
  | 6 => ⟨S8x160x320, .f32⟩
  | 7 => ⟨S8x160x320, .f32⟩
  | 8 => ⟨S8x64x160x320, .f32⟩
  | 9 => ⟨S8x64x160x320, .f32⟩
  | 10 => ⟨S_, .f32⟩
  | 11 => ⟨S8x160x320, .f32⟩
  | 12 => ⟨S_, .f32⟩
  | 13 => ⟨S8x160x320, .f32⟩
  | 14 => ⟨S8x160x320, .f32⟩
  | 15 => ⟨S8x64x160x320, .f32⟩
  | 16 => ⟨S8x64x160x320, .f32⟩
  | 17 => ⟨S_, .f32⟩
  | 18 => ⟨S8x160x320, .f32⟩
  | 19 => ⟨S_, .f32⟩
  | 20 => ⟨S8x160x320, .f32⟩
  | 21 => ⟨S8x160x320, .f32⟩
  | 22 => ⟨S8x64x160x320, .f32⟩
  | 23 => ⟨S8x64x160x320, .f32⟩
  | 24 => ⟨S_, .f32⟩
  | 25 => ⟨S8x160x320, .f32⟩
  | 26 => ⟨S_, .f32⟩
  | 27 => ⟨S8x160x320, .f32⟩
  | 28 => ⟨S8x160x320, .f32⟩
  | 29 => ⟨S8x64x160x320, .f32⟩
  | 30 => ⟨S8x64x160x320, .f32⟩
  | 31 => ⟨S_, .f32⟩
  | 32 => ⟨S8x160x320, .f32⟩
  | 33 => ⟨S_, .f32⟩
  | 34 => ⟨S8x160x320, .f32⟩
  | 35 => ⟨S8x160x320, .f32⟩
  | 36 => ⟨S8x64x160x320, .f32⟩
  | 37 => ⟨S8x64x160x320, .f32⟩
  | 38 => ⟨S_, .f32⟩
  | 39 => ⟨S8x160x320, .f32⟩
  | 40 => ⟨S_, .f32⟩
  | 41 => ⟨S8x160x320, .f32⟩
  | 42 => ⟨S8x160x320, .f32⟩
  | 43 => ⟨S8x64x160x320, .f32⟩
  | 44 => ⟨S8x64x160x320, .f32⟩
  | 45 => ⟨S_, .f32⟩
  | 46 => ⟨S8x160x320, .f32⟩
  | 47 => ⟨S_, .f32⟩
  | 48 => ⟨S8x160x320, .f32⟩
  | 49 => ⟨S8x160x320, .f32⟩
  | 50 => ⟨S8x64x160x320, .f32⟩
  | 51 => ⟨S8x64x160x320, .f32⟩
  | 52 => ⟨S_, .f32⟩
  | 53 => ⟨S8x160x320, .f32⟩
  | 54 => ⟨S_, .f32⟩
  | 55 => ⟨S8x160x320, .f32⟩
  | 56 => ⟨S8x160x320, .f32⟩
  | 57 => ⟨S8x64x160x320, .f32⟩
  | 58 => ⟨S8x64x160x320, .f32⟩
  | 59 => ⟨S_, .f32⟩
  | 60 => ⟨S8x160x320, .f32⟩
  | 61 => ⟨S_, .f32⟩
  | 62 => ⟨S8x160x320, .f32⟩
  | 63 => ⟨S8x160x320, .f32⟩
  | 64 => ⟨S8x64x160x320, .f32⟩
  | 65 => ⟨S8x64x160x320, .f32⟩
  | 66 => ⟨S_, .f32⟩
  | 67 => ⟨S8x160x320, .f32⟩
  | 68 => ⟨S_, .f32⟩
  | 69 => ⟨S8x160x320, .f32⟩
  | 70 => ⟨S8x160x320, .f32⟩
  | 71 => ⟨S8x64x160x320, .f32⟩
  | 72 => ⟨S8x64x160x320, .f32⟩
  | 73 => ⟨S_, .f32⟩
  | 74 => ⟨S8x160x320, .f32⟩
  | 75 => ⟨S_, .f32⟩
  | 76 => ⟨S8x160x320, .f32⟩
  | 77 => ⟨S8x160x320, .f32⟩
  | 78 => ⟨S8x64x160x320, .f32⟩
  | 79 => ⟨S8x64x160x320, .f32⟩
  | 80 => ⟨S_, .f32⟩
  | 81 => ⟨S8x160x320, .f32⟩
  | 82 => ⟨S_, .f32⟩
  | 83 => ⟨S8x160x320, .f32⟩
  | 84 => ⟨S8x160x320, .f32⟩
  | 85 => ⟨S8x64x160x320, .f32⟩
  | 86 => ⟨S8x64x160x320, .f32⟩
  | 87 => ⟨S_, .f32⟩
  | 88 => ⟨S8x160x320, .f32⟩
  | 89 => ⟨S_, .f32⟩
  | 90 => ⟨S8x160x320, .f32⟩
  | 91 => ⟨S8x160x320, .f32⟩
  | 92 => ⟨S8x64x160x320, .f32⟩
  | 93 => ⟨S8x64x160x320, .f32⟩
  | 94 => ⟨S_, .f32⟩
  | 95 => ⟨S8x160x320, .f32⟩
  | 96 => ⟨S_, .f32⟩
  | 97 => ⟨S8x160x320, .f32⟩
  | 98 => ⟨S8x160x320, .f32⟩
  | 99 => ⟨S8x64x160x320, .f32⟩
  | 100 => ⟨S8x64x160x320, .f32⟩
  | 101 => ⟨S_, .f32⟩
  | 102 => ⟨S8x160x320, .f32⟩
  | 103 => ⟨S_, .f32⟩
  | 104 => ⟨S8x160x320, .f32⟩
  | 105 => ⟨S8x160x320, .f32⟩
  | 106 => ⟨S8x64x160x320, .f32⟩
  | 107 => ⟨S8x64x160x320, .f32⟩
  | 108 => ⟨S_, .f32⟩
  | 109 => ⟨S8x160x320, .f32⟩
  | 110 => ⟨S_, .f32⟩
  | 111 => ⟨S8x160x320, .f32⟩
  | 112 => ⟨S8x160x320, .f32⟩
  | 113 => ⟨S8x64x160x320, .f32⟩
  | 114 => ⟨S8x64x160x320, .f32⟩
  | 115 => ⟨S_, .f32⟩
  | 116 => ⟨S8x160x320, .f32⟩
  | 117 => ⟨S_, .f32⟩
  | 118 => ⟨S8x160x320, .f32⟩
  | 119 => ⟨S8x160x320, .f32⟩
  | 120 => ⟨S8x1x160x320, .f32⟩
  | 121 => ⟨S8x1x160x320, .f32⟩
  | 122 => ⟨S8x1x160x320, .f32⟩
  | 123 => ⟨S8x1x160x320, .f32⟩
  | 124 => ⟨S8x1x160x320, .f32⟩
  | 125 => ⟨S8x1x160x320, .f32⟩
  | 126 => ⟨S8x1x160x320, .f32⟩
  | 127 => ⟨S8x1x160x320, .f32⟩
  | _ => ⟨S8x64x160x320, .f32⟩

abbrev hbmTy0_3 (i : Nat) : BufTy := match i % 128 with
  | 0 => ⟨S8x1x160x320, .f32⟩
  | 1 => ⟨S8x1x160x320, .f32⟩
  | 2 => ⟨S8x1x160x320, .f32⟩
  | 3 => ⟨S8x1x160x320, .f32⟩
  | 4 => ⟨S8x1x160x320, .f32⟩
  | 5 => ⟨S8x1x160x320, .f32⟩
  | 6 => ⟨S8x1x160x320, .f32⟩
  | 7 => ⟨S8x1x160x320, .f32⟩
  | 8 => ⟨S8x1x160x320, .f32⟩
  | 9 => ⟨S8x1x160x320, .f32⟩
  | 10 => ⟨S8x1x160x320, .f32⟩
  | 11 => ⟨S8x1x160x320, .f32⟩
  | 12 => ⟨S8x1x160x320, .f32⟩
  | 13 => ⟨S8x1x160x320, .f32⟩
  | 14 => ⟨S8x1x160x320, .f32⟩
  | 15 => ⟨S8x1x160x320, .f32⟩
  | 16 => ⟨S8x1x160x320, .f32⟩
  | 17 => ⟨S8x1x160x320, .f32⟩
  | 18 => ⟨S8x1x160x320, .f32⟩
  | 19 => ⟨S8x1x160x320, .f32⟩
  | 20 => ⟨S8x1x160x320, .f32⟩
  | 21 => ⟨S8x1x160x320, .f32⟩
  | 22 => ⟨S8x1x160x320, .f32⟩
  | 23 => ⟨S8x1x160x320, .f32⟩
  | 24 => ⟨S8x1x160x320, .f32⟩
  | 25 => ⟨S8x1x160x320, .f32⟩
  | 26 => ⟨S8x1x160x320, .f32⟩
  | 27 => ⟨S8x1x160x320, .f32⟩
  | 28 => ⟨S8x1x160x320, .f32⟩
  | 29 => ⟨S8x1x160x320, .f32⟩
  | 30 => ⟨S8x1x160x320, .f32⟩
  | 31 => ⟨S8x1x160x320, .f32⟩
  | 32 => ⟨S8x1x160x320, .f32⟩
  | 33 => ⟨S8x1x160x320, .f32⟩
  | 34 => ⟨S8x1x160x320, .f32⟩
  | 35 => ⟨S8x1x160x320, .f32⟩
  | 36 => ⟨S8x1x160x320, .f32⟩
  | 37 => ⟨S8x1x160x320, .f32⟩
  | 38 => ⟨S8x1x160x320, .f32⟩
  | 39 => ⟨S8x1x160x320, .f32⟩
  | 40 => ⟨S8x1x160x320, .f32⟩
  | 41 => ⟨S8x1x160x320, .f32⟩
  | 42 => ⟨S8x1x160x320, .f32⟩
  | 43 => ⟨S8x1x160x320, .f32⟩
  | 44 => ⟨S8x1x160x320, .f32⟩
  | 45 => ⟨S8x16x160x320, .f32⟩
  | 46 => ⟨S8x16x160x320, .f32⟩
  | 47 => ⟨S8x16x160x320, .f32⟩
  | 48 => ⟨S8x5x160x320, .f32⟩
  | 49 => ⟨S8x53x160x320, .f32⟩
  | _ => ⟨S8x64x160x320, .f32⟩

abbrev hbmTy (i : Nat) : BufTy := match i / 128 with
  | 0 => hbmTy0_0 i
  | 1 => hbmTy0_1 i
  | 2 => hbmTy0_2 i
  | 3 => hbmTy0_3 i
  | _ => ⟨S8x64x160x320, .f32⟩

abbrev bufTy : (tb : Table) → Fin (tcTables nBuf tb) → BufTy
  | .hbm, ⟨i, _⟩ => hbmTy i
  | _, _ => ⟨S8x64x160x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_17 : Ref sig .tc := ⟨.hbm, 70, rfl⟩
abbrev main_v48 : Ref sig .tc := ⟨.hbm, 71, rfl⟩
abbrev main_cst_18 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_19 : Ref sig .tc := ⟨.hbm, 77, rfl⟩
abbrev main_v53 : Ref sig .tc := ⟨.hbm, 78, rfl⟩
abbrev main_cst_20 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_21 : Ref sig .tc := ⟨.hbm, 84, rfl⟩
abbrev main_v58 : Ref sig .tc := ⟨.hbm, 85, rfl⟩
abbrev main_cst_22 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_23 : Ref sig .tc := ⟨.hbm, 91, rfl⟩
abbrev main_v63 : Ref sig .tc := ⟨.hbm, 92, rfl⟩
abbrev main_cst_24 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_25 : Ref sig .tc := ⟨.hbm, 98, rfl⟩
abbrev main_v68 : Ref sig .tc := ⟨.hbm, 99, rfl⟩
abbrev main_cst_26 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_27 : Ref sig .tc := ⟨.hbm, 105, rfl⟩
abbrev main_v73 : Ref sig .tc := ⟨.hbm, 106, rfl⟩
abbrev main_cst_28 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_29 : Ref sig .tc := ⟨.hbm, 112, rfl⟩
abbrev main_v78 : Ref sig .tc := ⟨.hbm, 113, rfl⟩
abbrev main_cst_30 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_31 : Ref sig .tc := ⟨.hbm, 119, rfl⟩
abbrev main_v83 : Ref sig .tc := ⟨.hbm, 120, rfl⟩
abbrev main_cst_32 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_33 : Ref sig .tc := ⟨.hbm, 126, rfl⟩
abbrev main_v88 : Ref sig .tc := ⟨.hbm, 127, rfl⟩
abbrev main_cst_34 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_35 : Ref sig .tc := ⟨.hbm, 133, rfl⟩
abbrev main_v93 : Ref sig .tc := ⟨.hbm, 134, rfl⟩
abbrev main_cst_36 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_37 : Ref sig .tc := ⟨.hbm, 140, rfl⟩
abbrev main_v98 : Ref sig .tc := ⟨.hbm, 141, rfl⟩
abbrev main_cst_38 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_39 : Ref sig .tc := ⟨.hbm, 147, rfl⟩
abbrev main_v103 : Ref sig .tc := ⟨.hbm, 148, rfl⟩
abbrev main_cst_40 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_41 : Ref sig .tc := ⟨.hbm, 154, rfl⟩
abbrev main_v108 : Ref sig .tc := ⟨.hbm, 155, rfl⟩
abbrev main_cst_42 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_43 : Ref sig .tc := ⟨.hbm, 161, rfl⟩
abbrev main_v113 : Ref sig .tc := ⟨.hbm, 162, rfl⟩
abbrev main_cst_44 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_45 : Ref sig .tc := ⟨.hbm, 168, rfl⟩
abbrev main_v118 : Ref sig .tc := ⟨.hbm, 169, rfl⟩
abbrev main_cst_46 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_47 : Ref sig .tc := ⟨.hbm, 175, rfl⟩
abbrev main_v123 : Ref sig .tc := ⟨.hbm, 176, rfl⟩
abbrev main_cst_48 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_49 : Ref sig .tc := ⟨.hbm, 182, rfl⟩
abbrev main_v128 : Ref sig .tc := ⟨.hbm, 183, rfl⟩
abbrev main_cst_50 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_51 : Ref sig .tc := ⟨.hbm, 189, rfl⟩
abbrev main_v133 : Ref sig .tc := ⟨.hbm, 190, rfl⟩
abbrev main_cst_52 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_53 : Ref sig .tc := ⟨.hbm, 196, rfl⟩
abbrev main_v138 : Ref sig .tc := ⟨.hbm, 197, rfl⟩
abbrev main_cst_54 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_55 : Ref sig .tc := ⟨.hbm, 203, rfl⟩
abbrev main_v143 : Ref sig .tc := ⟨.hbm, 204, rfl⟩
abbrev main_cst_56 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_57 : Ref sig .tc := ⟨.hbm, 210, rfl⟩
abbrev main_v148 : Ref sig .tc := ⟨.hbm, 211, rfl⟩
abbrev main_cst_58 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_59 : Ref sig .tc := ⟨.hbm, 217, rfl⟩
abbrev main_v153 : Ref sig .tc := ⟨.hbm, 218, rfl⟩
abbrev main_cst_60 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_61 : Ref sig .tc := ⟨.hbm, 224, rfl⟩
abbrev main_v158 : Ref sig .tc := ⟨.hbm, 225, rfl⟩
abbrev main_cst_62 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_63 : Ref sig .tc := ⟨.hbm, 231, rfl⟩
abbrev main_v163 : Ref sig .tc := ⟨.hbm, 232, rfl⟩
abbrev main_cst_64 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_65 : Ref sig .tc := ⟨.hbm, 238, rfl⟩
abbrev main_v168 : Ref sig .tc := ⟨.hbm, 239, rfl⟩
abbrev main_cst_66 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_67 : Ref sig .tc := ⟨.hbm, 245, rfl⟩
abbrev main_v173 : Ref sig .tc := ⟨.hbm, 246, rfl⟩
abbrev main_cst_68 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_69 : Ref sig .tc := ⟨.hbm, 252, rfl⟩
abbrev main_v178 : Ref sig .tc := ⟨.hbm, 253, rfl⟩
abbrev main_cst_70 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_71 : Ref sig .tc := ⟨.hbm, 259, rfl⟩
abbrev main_v183 : Ref sig .tc := ⟨.hbm, 260, rfl⟩
abbrev main_cst_72 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_cst_73 : Ref sig .tc := ⟨.hbm, 266, rfl⟩
abbrev main_v188 : Ref sig .tc := ⟨.hbm, 267, rfl⟩
abbrev main_cst_74 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_cst_75 : Ref sig .tc := ⟨.hbm, 273, rfl⟩
abbrev main_v193 : Ref sig .tc := ⟨.hbm, 274, rfl⟩
abbrev main_cst_76 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_cst_77 : Ref sig .tc := ⟨.hbm, 280, rfl⟩
abbrev main_v198 : Ref sig .tc := ⟨.hbm, 281, rfl⟩
abbrev main_cst_78 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_79 : Ref sig .tc := ⟨.hbm, 287, rfl⟩
abbrev main_v203 : Ref sig .tc := ⟨.hbm, 288, rfl⟩
abbrev main_cst_80 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_cst_81 : Ref sig .tc := ⟨.hbm, 294, rfl⟩
abbrev main_v208 : Ref sig .tc := ⟨.hbm, 295, rfl⟩
abbrev main_cst_82 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_83 : Ref sig .tc := ⟨.hbm, 301, rfl⟩
abbrev main_v213 : Ref sig .tc := ⟨.hbm, 302, rfl⟩
abbrev main_cst_84 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_cst_85 : Ref sig .tc := ⟨.hbm, 308, rfl⟩
abbrev main_v218 : Ref sig .tc := ⟨.hbm, 309, rfl⟩
abbrev main_cst_86 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_cst_87 : Ref sig .tc := ⟨.hbm, 315, rfl⟩
abbrev main_v223 : Ref sig .tc := ⟨.hbm, 316, rfl⟩
abbrev main_cst_88 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_cst_89 : Ref sig .tc := ⟨.hbm, 322, rfl⟩
abbrev main_v228 : Ref sig .tc := ⟨.hbm, 323, rfl⟩
abbrev main_cst_90 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_cst_91 : Ref sig .tc := ⟨.hbm, 329, rfl⟩
abbrev main_v233 : Ref sig .tc := ⟨.hbm, 330, rfl⟩
abbrev main_cst_92 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_cst_93 : Ref sig .tc := ⟨.hbm, 336, rfl⟩
abbrev main_v238 : Ref sig .tc := ⟨.hbm, 337, rfl⟩
abbrev main_cst_94 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_cst_95 : Ref sig .tc := ⟨.hbm, 343, rfl⟩
abbrev main_v243 : Ref sig .tc := ⟨.hbm, 344, rfl⟩
abbrev main_cst_96 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_cst_97 : Ref sig .tc := ⟨.hbm, 350, rfl⟩
abbrev main_v248 : Ref sig .tc := ⟨.hbm, 351, rfl⟩
abbrev main_cst_98 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_cst_99 : Ref sig .tc := ⟨.hbm, 357, rfl⟩
abbrev main_v253 : Ref sig .tc := ⟨.hbm, 358, rfl⟩
abbrev main_cst_100 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_cst_101 : Ref sig .tc := ⟨.hbm, 364, rfl⟩
abbrev main_v258 : Ref sig .tc := ⟨.hbm, 365, rfl⟩
abbrev main_cst_102 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_cst_103 : Ref sig .tc := ⟨.hbm, 371, rfl⟩
abbrev main_v263 : Ref sig .tc := ⟨.hbm, 372, rfl⟩
abbrev main_cst_104 : Ref sig .tc := ⟨.hbm, 373, rfl⟩
abbrev main_v264 : Ref sig .tc := ⟨.hbm, 374, rfl⟩
abbrev main_v265 : Ref sig .tc := ⟨.hbm, 375, rfl⟩
abbrev main_v266 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩
abbrev main_v302 : Ref sig .tc := ⟨.hbm, 412, rfl⟩
abbrev main_v303 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_v308 : Ref sig .tc := ⟨.hbm, 418, rfl⟩
abbrev main_v309 : Ref sig .tc := ⟨.hbm, 419, rfl⟩
abbrev main_v310 : Ref sig .tc := ⟨.hbm, 420, rfl⟩
abbrev main_v311 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_v318 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩

abbrev nD : Nat := 1
abbrev τ : Topo := Topo.v7x

variable {F : FTy → Type} [FloatOps F]

class Facts₀ : Prop where
  pads_S8x64x160x320_S8x64x168x328_000_000_440_440 : S8x64x160x320.Pads (![0, 0, 4, 4] : Fin 4 → Nat) ![0, 0, 4, 4] ![0, 0, 0, 0] S8x64x168x328
  h_S_ : 0 < S_.numel
  slices_S8x64x168x328_S8x64x160x320_0_0_0_0 : S8x64x168x328.Slices ![0, 0, 0, 0] S8x64x160x320
  reducesTo_S8x64x160x320_S8x160x320_d1 : S8x64x160x320.ReducesTo [1] S8x160x320
  bcast_S_S8x160x320 : S_.BroadcastsInDim S8x160x320 (![] : Fin 0 → Fin S8x160x320.rank)
  slices_S8x64x168x328_S8x64x160x320_0_0_0_2 : S8x64x168x328.Slices ![0, 0, 0, 2] S8x64x160x320
  slices_S8x64x168x328_S8x64x160x320_0_0_0_4 : S8x64x168x328.Slices ![0, 0, 0, 4] S8x64x160x320
  slices_S8x64x168x328_S8x64x160x320_0_0_0_6 : S8x64x168x328.Slices ![0, 0, 0, 6] S8x64x160x320
  slices_S8x64x168x328_S8x64x160x320_0_0_0_8 : S8x64x168x328.Slices ![0, 0, 0, 8] S8x64x160x320
  slices_S8x64x168x328_S8x64x160x320_0_0_1_1 : S8x64x168x328.Slices ![0, 0, 1, 1] S8x64x160x320
  slices_S8x64x168x328_S8x64x160x320_0_0_1_3 : S8x64x168x328.Slices ![0, 0, 1, 3] S8x64x160x320
  slices_S8x64x168x328_S8x64x160x320_0_0_1_5 : S8x64x168x328.Slices ![0, 0, 1, 5] S8x64x160x320
  slices_S8x64x168x328_S8x64x160x320_0_0_1_7 : S8x64x168x328.Slices ![0, 0, 1, 7] S8x64x160x320
  slices_S8x64x168x328_S8x64x160x320_0_0_2_0 : S8x64x168x328.Slices ![0, 0, 2, 0] S8x64x160x320
  slices_S8x64x168x328_S8x64x160x320_0_0_2_2 : S8x64x168x328.Slices ![0, 0, 2, 2] S8x64x160x320
  slices_S8x64x168x328_S8x64x160x320_0_0_2_3 : S8x64x168x328.Slices ![0, 0, 2, 3] S8x64x160x320
  slices_S8x64x168x328_S8x64x160x320_0_0_2_4 : S8x64x168x328.Slices ![0, 0, 2, 4] S8x64x160x320
  slices_S8x64x168x328_S8x64x160x320_0_0_2_5 : S8x64x168x328.Slices ![0, 0, 2, 5] S8x64x160x320
  slices_S8x64x168x328_S8x64x160x320_0_0_2_6 : S8x64x168x328.Slices ![0, 0, 2, 6] S8x64x160x320
  slices_S8x64x168x328_S8x64x160x320_0_0_2_8 : S8x64x168x328.Slices ![0, 0, 2, 8] S8x64x160x320
  slices_S8x64x168x328_S8x64x160x320_0_0_3_1 : S8x64x168x328.Slices ![0, 0, 3, 1] S8x64x160x320
  slices_S8x64x168x328_S8x64x160x320_0_0_3_2 : S8x64x168x328.Slices ![0, 0, 3, 2] S8x64x160x320
  slices_S8x64x168x328_S8x64x160x320_0_0_3_3 : S8x64x168x328.Slices ![0, 0, 3, 3] S8x64x160x320
  slices_S8x64x168x328_S8x64x160x320_0_0_3_4 : S8x64x168x328.Slices ![0, 0, 3, 4] S8x64x160x320
  slices_S8x64x168x328_S8x64x160x320_0_0_3_5 : S8x64x168x328.Slices ![0, 0, 3, 5] S8x64x160x320
  slices_S8x64x168x328_S8x64x160x320_0_0_3_6 : S8x64x168x328.Slices ![0, 0, 3, 6] S8x64x160x320
  slices_S8x64x168x328_S8x64x160x320_0_0_3_7 : S8x64x168x328.Slices ![0, 0, 3, 7] S8x64x160x320
  slices_S8x64x168x328_S8x64x160x320_0_0_4_0 : S8x64x168x328.Slices ![0, 0, 4, 0] S8x64x160x320
  slices_S8x64x168x328_S8x64x160x320_0_0_4_2 : S8x64x168x328.Slices ![0, 0, 4, 2] S8x64x160x320
  slices_S8x64x168x328_S8x64x160x320_0_0_4_3 : S8x64x168x328.Slices ![0, 0, 4, 3] S8x64x160x320
  slices_S8x64x168x328_S8x64x160x320_0_0_4_4 : S8x64x168x328.Slices ![0, 0, 4, 4] S8x64x160x320
  slices_S8x64x168x328_S8x64x160x320_0_0_4_5 : S8x64x168x328.Slices ![0, 0, 4, 5] S8x64x160x320
  slices_S8x64x168x328_S8x64x160x320_0_0_4_6 : S8x64x168x328.Slices ![0, 0, 4, 6] S8x64x160x320
  slices_S8x64x168x328_S8x64x160x320_0_0_4_8 : S8x64x168x328.Slices ![0, 0, 4, 8] S8x64x160x320
  slices_S8x64x168x328_S8x64x160x320_0_0_5_1 : S8x64x168x328.Slices ![0, 0, 5, 1] S8x64x160x320
  slices_S8x64x168x328_S8x64x160x320_0_0_5_2 : S8x64x168x328.Slices ![0, 0, 5, 2] S8x64x160x320
  slices_S8x64x168x328_S8x64x160x320_0_0_5_3 : S8x64x168x328.Slices ![0, 0, 5, 3] S8x64x160x320
  slices_S8x64x168x328_S8x64x160x320_0_0_5_4 : S8x64x168x328.Slices ![0, 0, 5, 4] S8x64x160x320
  slices_S8x64x168x328_S8x64x160x320_0_0_5_5 : S8x64x168x328.Slices ![0, 0, 5, 5] S8x64x160x320
  slices_S8x64x168x328_S8x64x160x320_0_0_5_6 : S8x64x168x328.Slices ![0, 0, 5, 6] S8x64x160x320
  slices_S8x64x168x328_S8x64x160x320_0_0_5_7 : S8x64x168x328.Slices ![0, 0, 5, 7] S8x64x160x320
  slices_S8x64x168x328_S8x64x160x320_0_0_6_0 : S8x64x168x328.Slices ![0, 0, 6, 0] S8x64x160x320
  slices_S8x64x168x328_S8x64x160x320_0_0_6_2 : S8x64x168x328.Slices ![0, 0, 6, 2] S8x64x160x320
  slices_S8x64x168x328_S8x64x160x320_0_0_6_3 : S8x64x168x328.Slices ![0, 0, 6, 3] S8x64x160x320
  slices_S8x64x168x328_S8x64x160x320_0_0_6_4 : S8x64x168x328.Slices ![0, 0, 6, 4] S8x64x160x320
  slices_S8x64x168x328_S8x64x160x320_0_0_6_5 : S8x64x168x328.Slices ![0, 0, 6, 5] S8x64x160x320
  slices_S8x64x168x328_S8x64x160x320_0_0_6_6 : S8x64x168x328.Slices ![0, 0, 6, 6] S8x64x160x320
  slices_S8x64x168x328_S8x64x160x320_0_0_6_8 : S8x64x168x328.Slices ![0, 0, 6, 8] S8x64x160x320
  slices_S8x64x168x328_S8x64x160x320_0_0_7_1 : S8x64x168x328.Slices ![0, 0, 7, 1] S8x64x160x320
  slices_S8x64x168x328_S8x64x160x320_0_0_7_3 : S8x64x168x328.Slices ![0, 0, 7, 3] S8x64x160x320
  slices_S8x64x168x328_S8x64x160x320_0_0_7_5 : S8x64x168x328.Slices ![0, 0, 7, 5] S8x64x160x320
  slices_S8x64x168x328_S8x64x160x320_0_0_7_7 : S8x64x168x328.Slices ![0, 0, 7, 7] S8x64x160x320
  slices_S8x64x168x328_S8x64x160x320_0_0_8_0 : S8x64x168x328.Slices ![0, 0, 8, 0] S8x64x160x320
  slices_S8x64x168x328_S8x64x160x320_0_0_8_2 : S8x64x168x328.Slices ![0, 0, 8, 2] S8x64x160x320
  slices_S8x64x168x328_S8x64x160x320_0_0_8_4 : S8x64x168x328.Slices ![0, 0, 8, 4] S8x64x160x320
  slices_S8x64x168x328_S8x64x160x320_0_0_8_6 : S8x64x168x328.Slices ![0, 0, 8, 6] S8x64x160x320
  slices_S8x64x168x328_S8x64x160x320_0_0_8_8 : S8x64x168x328.Slices ![0, 0, 8, 8] S8x64x160x320
  bcast_S8x160x320_S8x1x160x320_0_2_3 : S8x160x320.BroadcastsInDim S8x1x160x320 (![0, 2, 3] : Fin 3 → Fin S8x1x160x320.rank)
  concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1 : Shape.Concatenates [S8x1x160x320, S8x1x160x320, S8x1x160x320, S8x1x160x320, S8x1x160x320, S8x1x160x320, S8x1x160x320, S8x1x160x320, S8x1x160x320, S8x1x160x320, S8x1x160x320, S8x1x160x320, S8x1x160x320, S8x1x160x320, S8x1x160x320, S8x1x160x320] S8x16x160x320 1
  concatenates_S8x1x160x320_S8x1x160x320_S8x1x160x320_S8x1x160x320_S8x1x160x320_S8x5x160x320_d1 : Shape.Concatenates [S8x1x160x320, S8x1x160x320, S8x1x160x320, S8x1x160x320, S8x1x160x320] S8x5x160x320 1
  concatenates_S8x16x160x320_S8x16x160x320_S8x16x160x320_S8x5x160x320_S8x53x160x320_d1 : Shape.Concatenates [S8x16x160x320, S8x16x160x320, S8x16x160x320, S8x5x160x320] S8x53x160x320 1

variable [Facts₀]

class Facts : Prop extends Facts₀ where

variable [Facts]
-- ==== Proof.Shift.lean ====
/-
  The mathematics both programs share, over the extended reals, with no program in sight.

  A COST VOLUME over a sparse set of 53 displacements. For a batch entry `n`, a displacement `j` with offsets
  `(dy j, dx j)` in the 9 × 9 window, and a pixel `(r, s)` of the 160 × 320 map, the result is the mean over the 64
  channels `c` of

      pad(X)[n, c, r + dy j, s + dx j] · Y[n, c, r, s],

  where `pad(X)` is `X` with a border of four entries of a constant `z` on each side of the last two axes.
  One program sums the 64 channels at once and DIVIDES by 64; the other sums them sixteen at a time into a running
  total and MULTIPLIES the total by 2⁻⁶. The two agree on every extended real: addition there is commutative and
  associative (so a sum may be taken in consecutive stretches), and dividing by the real 64 is multiplying by the
  real 1/64 — no finiteness of the entries is used.
-/
import Idealize.ShloMosaic.PureOps.Ideal
import Idealize.ShloMosaic.PureOps.Ideal.Laws
import Idealize.ShloMosaic.Lib.ValueIdx
import Mathlib.Data.List.GetD

noncomputable section

namespace Cert.Shift

open Idealize.ShloMosaic

/-! ## The displacements -/

/-- The 53 displacements, each as its row-major position in the 9 × 9 window. -/
def offs : List ℕ :=
  [0, 2, 4, 6, 8, 10, 12, 14, 16, 18, 20, 21, 22, 23, 24, 26, 28, 29, 30, 31, 32, 33, 34, 36, 38, 39, 40, 41, 42, 44,
   46, 47, 48, 49, 50, 51, 52, 54, 56, 57, 58, 59, 60, 62, 64, 66, 68, 70, 72, 74, 76, 78, 80]

/-- Displacement `j`'s row offset into the padded map (0 … 8; the unpadded shift is this less 4). -/
def dy (j : ℕ) : ℕ := offs.getD j 0 / 9
/-- Displacement `j`'s column offset into the padded map. -/
def dx (j : ℕ) : ℕ := offs.getD j 0 % 9

theorem offs_le : ∀ v ∈ offs, v ≤ 80 := by decide

theorem dy_le (j : ℕ) : dy j ≤ 8 := by
  unfold dy
  have h : offs.getD j 0 ≤ 80 := by
    by_cases hj : j < offs.length
    · rw [List.getD_eq_getElem _ _ hj]; exact offs_le _ (List.getElem_mem hj)
    · rw [List.getD_eq_default _ _ (Nat.le_of_not_lt hj)]; exact Nat.zero_le _
  omega

theorem dx_le (j : ℕ) : dx j ≤ 8 := by
  unfold dx
  have := Nat.mod_lt (offs.getD j 0) (by decide : 0 < 9)
  omega

/-! ## The padded read -/

/-- A 160 × 320 map read at position `(u, v)` of its padding by four entries of `z` on every side:
    the entry at `(u − 4, v − 4)` when that is inside the map, `z` otherwise. -/
def pad2 (z : EReal) (a : Fin 160 → Fin 320 → EReal) (u v : ℕ) : EReal :=
  if h : (4 ≤ u ∧ u < 164) ∧ (4 ≤ v ∧ v < 324) then a ⟨u - 4, by omega⟩ ⟨v - 4, by omega⟩ else z

theorem pad2_inside (z : EReal) (a : Fin 160 → Fin 320 → EReal) {u v : ℕ} (hu : 4 ≤ u ∧ u < 164) (hv : 4 ≤ v ∧ v < 324)
    (p : Fin 160) (q : Fin 320) (hp : p.val = u - 4) (hq : q.val = v - 4) : pad2 z a u v = a p q := by
  unfold pad2
  rw [dif_pos ⟨hu, hv⟩]
  congr 1 <;> exact Fin.ext (by simp [hp, hq])

theorem pad2_outside (z : EReal) (a : Fin 160 → Fin 320 → EReal) {u v : ℕ} (h : ¬((4 ≤ u ∧ u < 164) ∧ (4 ≤ v ∧ v < 324))) :
    pad2 z a u v = z := by
  unfold pad2
  rw [dif_neg h]

/-! ## Sums in stretches of sixteen -/

/-- A sum over the first `n + 16` naturals is the sum over the first `n` plus the next sixteen terms. -/
theorem sum_next_tile (g : ℕ → EReal) (n : ℕ) :
    (∑ c ∈ Finset.range (n + 16), g c) = (∑ c ∈ Finset.range n, g c) + ∑ k : Fin 16, g (n + k.val) := by
  rw [Finset.sum_range_add, Fin.sum_univ_eq_sum_range (fun k => g (n + k)) 16]

/-- The first sixteen terms, as a sum over `Fin 16`. -/
theorem sum_first_tile (g : ℕ → EReal) : (∑ c ∈ Finset.range 16, g c) = ∑ k : Fin 16, g (0 + k.val) := by
  rw [Fin.sum_univ_eq_sum_range (fun k => g (0 + k)) 16]
  exact Finset.sum_congr rfl fun c _ => by rw [Nat.zero_add]

/-- A sum over `Fin 64` of a function of the index's value is the sum over the first 64 naturals. -/
theorem sum_all (g : ℕ → EReal) : (∑ c : Fin 64, g c.val) = ∑ c ∈ Finset.range 64, g c :=
  Fin.sum_univ_eq_sum_range g 64

/-! ## The two scalings -/

/-- The pattern `0x3C800000` denotes the real `1/64`. -/
theorem ofBits_inv64 : Ideal.ofBits .f32 0x3C800000#32 = ((1 / 64 : ℝ) : EReal) := by
  simp [Ideal.ofBits, Ideal.ieee, -EReal.coe_mul]; norm_num

/-- The pattern `0x42800000` denotes the real `64`. -/
theorem ofBits_64 : Ideal.ofBits .f32 0x42800000#32 = ((64 : ℝ) : EReal) := by
  simp [Ideal.ofBits, Ideal.ieee, -EReal.coe_mul]; norm_num

/-- Multiplying by the first pattern is dividing by the second, on every extended real. -/
theorem scale_eq (x : EReal) :
    x * Ideal.ofBits .f32 0x3C800000#32 = Ideal.div x (Ideal.ofBits .f32 0x42800000#32) := by
  rw [ofBits_inv64, ofBits_64, Ideal.div_coe (by norm_num : (64 : ℝ) ≠ 0)]

end Cert.Shift

end
-- ==== Proof.KernelTile.lean ====
/-
  One tile of sixteen channels, one displacement: what the kernel adds to a 160 × 320 row-block of its output block.

  The body holds the tile of the first operand padded to 168 × 328 (`P`) and the tile of the second operand (`Y`).
  For displacement `j` it takes the window of `P` at offsets `(dy j, dx j)`, multiplies by `Y` entry by entry and sums
  over the sixteen channels (`contrib`); it adds that to what row-block `j` of the output block held and stores the
  sum back (`bump`). Read at an index over the extended reals, the row-block's new entry at `(r, s)` is its old entry
  plus  Σₖ P[k, dy j + r, dx j + s] · Y[k, r, s].
-/
import proofs.«170128_j88175678587309_1_alg».proof.KernelIdeal
import proofs.«170128_j88175678587309_1_alg».proof.Proof.Gen.KernelIdeal
import proofs.«170128_j88175678587309_1_alg».proof.Proof.Gen.KernelIdeal.Skeleton
import proofs.«170128_j88175678587309_1_alg».proof.Proof.Shift
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Shift

variable {F : FTy → Type} [FloatOps F]

/-- A 160 × 320 window of the padded 168 × 328 tile at offsets of at most 8 lies inside it. -/
theorem slices_ok (a b : ℕ) (ha : a ≤ 8) (hb : b ≤ 8) : S16x168x328.Slices ![0, a, b] S16x160x320 :=
  ⟨rfl, fun i => by
    match i with
    | ⟨0, _⟩ => show 0 + 16 ≤ 16; omega
    | ⟨1, _⟩ => show a + 160 ≤ 168; omega
    | ⟨2, _⟩ => show b + 320 ≤ 328; omega⟩

/-- Displacement `j`'s sum over the tile's sixteen channels of the displaced products. -/
def contrib (j : ℕ) (P : FVec F S16x168x328 .f32) (Y : FVec F S16x160x320 .f32) : FVec F S160x320 .f32 :=
  multiReduction .add [0] S160x320
    (mulf (extractStridedSlice S16x160x320 ![0, dy j, dx j] P (slices_ok _ _ (dy_le j) (dx_le j))) Y)
    0x00000000#32 reduces_S16x160x320_S160x320 (.inl rfl) rfl

/-- What is stored back to row-block `j`: what it held (`ld`) plus displacement `j`'s sum. -/
def bump (j : ℕ) (P : FVec F S16x168x328 .f32) (Y : FVec F S16x160x320 .f32) (ld : Vec F S1x1x160x320 .f32) :
    FVec F S1x1x160x320 .f32 :=
  shapeCast S1x1x160x320 (addf (shapeCast S160x320 ld shapeCasts_S1x1x160x320_S160x320) (contrib j P Y))
    shapeCasts_S160x320_S1x1x160x320

/-- The window's entry `(k, r, s)` in the padded tile. -/
abbrev win (j : ℕ) (k : Fin 16) (r : Fin 160) (s : Fin 320) : S16x168x328.Idx :=
  ix3 k ⟨dy j + r.val, by have := dy_le j; have := r.isLt; omega⟩ ⟨dx j + s.val, by have := dx_le j; have := s.isLt; omega⟩

/-- Displacement `j`'s sum read at `(r, s)`, over the extended reals. -/
theorem contrib_apply (j : ℕ) (P : FVec Ideal S16x168x328 .f32) (Y : FVec Ideal S16x160x320 .f32) (r : Fin 160) (s : Fin 320) :
    contrib j P Y (ix2 r s) = ∑ k : Fin 16, P (win j k r s) * Y (ix3 k r s) := by
  unfold contrib
  refine (Ideal.multiReduction_add_single _ 0x00000000#32 reduces_S16x160x320_S160x320 (.inl rfl) rfl (ix2 r s)).trans ?_
  show (∑ k : Fin 16, mulf (extractStridedSlice S16x160x320 ![0, dy j, dx j] P (slices_ok _ _ (dy_le j) (dx_le j))) Y
      (reduces_S16x160x320_S160x320.lift (ix2 r s) k)) = _
  refine Finset.sum_congr rfl fun k _ => ?_
  have e : (reduces_S16x160x320_S160x320.lift (ix2 r s) k : S16x160x320.Idx) = ix3 k r s :=
    funext fun a => Fin.ext (by match a with | ⟨0, _⟩ => rfl | ⟨1, _⟩ => rfl | ⟨2, _⟩ => rfl)
  rw [e]
  show extractStridedSlice S16x160x320 ![0, dy j, dx j] P (slices_ok _ _ (dy_le j) (dx_le j)) (ix3 k r s) * Y (ix3 k r s) = _
  refine congrArg (· * Y (ix3 k r s)) ?_
  exact extractStridedSlice_apply ![0, dy j, dx j] P _ (ix3 k r s) (win j k r s) (fun a => match a with
    | ⟨0, _⟩ => by show k.val = 0 + k.val; omega
    | ⟨1, _⟩ => by show dy j + r.val = dy j + r.val; rfl
    | ⟨2, _⟩ => by show dx j + s.val = dx j + s.val; rfl)

/-- The stored row-block read at an index: the old entry plus the displaced product-sum. -/
theorem bump_apply (j : ℕ) (P : FVec Ideal S16x168x328 .f32) (Y : FVec Ideal S16x160x320 .f32)
    (ld : Vec Ideal S1x1x160x320 .f32) (x : S1x1x160x320.Idx) :
    bump j P Y ld x = ld x + ∑ k : Fin 16, P (win j k (x 2) (x 3)) * Y (ix3 k (x 2) (x 3)) := by
  have h0 : (x 0).val = 0 := by have := (x 0).isLt; simpa using this
  have h1 : (x 1).val = 0 := by have := (x 1).isLt; simpa using this
  have hpos : (S160x320.rowMajor (ix2 (x 2) (x 3))).val = (S1x1x160x320.rowMajor x).val := by
    rw [Shape.rowMajor_val_two, Shape.rowMajor_val_four, h0, h1]
    show (x 2).val * 320 + (x 3).val = ((0 * 1 + 0) * 160 + (x 2).val) * 320 + (x 3).val
    omega
  unfold bump
  rw [shapeCast_apply _ shapeCasts_S160x320_S1x1x160x320 x (ix2 (x 2) (x 3)) hpos, addf_apply,
    shapeCast_apply ld shapeCasts_S1x1x160x320_S160x320 (ix2 (x 2) (x 3)) x hpos.symm]
  exact congrArg (ld x + ·) (contrib_apply j P Y (x 2) (x 3))

end Cert.KernelIdeal.Tile

end
-- ==== Proof.KernelCases.lean ====
/-
  What one run of the kernel's body leaves in the output block's buffer, in each of its three control cases.

  The body, at a grid point `(n, T)` (batch entry `n`, channel tile `T` of four), holds tile `T` of both operands. For
  each of the 53 displacements `j` it loads row-block `j` of the output block, adds displacement `j`'s sum over the tile's
  sixteen channels (`Tile.bump`) and stores the row-block back. On the first tile it first fills the block with zeros;
  on the last tile it finally multiplies the whole block by 2⁻⁶. So, writing `accB P Y xo` for "every entry of `xo` plus its
  displacement's sum":
    first tile  (A):  accB P Y 0
    middle tile (B):  accB P Y xo            (`xo`: what the block held)
    last tile   (C):  accB P Y xo · 2⁻⁶
  Each case's stores are read back through ONE lemma for a row-block (`row_piece`): the 53 stores are 53 instances of it.
  In the first case a row-block's load comes after the zero fill and the earlier row-blocks' stores; those touch other
  row-blocks, so the load reads the fill (`canon_cons_row_ne`).
-/
import proofs.«170128_j88175678587309_1_alg».proof.Proof.Gen.KernelIdeal.Frame
import proofs.«170128_j88175678587309_1_alg».proof.Proof.KernelTile
import Idealize.ShloMosaic.Lib.Pipeline.Value
import Idealize.ShloMosaic.Lib.Pipeline.CanonAppend
import Idealize.ShloMosaic.Lib.Tactic

set_option maxRecDepth 16384

noncomputable section

namespace Cert.KernelIdeal.Cases

open Cert.KernelIdeal Cert.KernelIdeal.Gen Idealize.ShloMosaic Idealize.ShloMosaic.ValueIdx Cert.Shift Cert.KernelIdeal.Tile

/-- Displacement `j`'s sum over the tile's sixteen channels at pixel `(r, s)`. -/
def tileSum (P : FVec Ideal S16x168x328 .f32) (Y : FVec Ideal S16x160x320 .f32) (j : ℕ) (r : Fin 160) (s : Fin 320) : EReal :=
  ∑ k : Fin 16, P (win j k r s) * Y (ix3 k r s)

/-- The output block after one more tile: each entry plus its displacement's sum. -/
def accB (P : FVec Ideal S16x168x328 .f32) (Y : FVec Ideal S16x160x320 .f32) (xo : Vec Ideal S1x53x160x320 .f32) :
    S1x53x160x320.Idx → EReal :=
  fun y => xo y + tileSum P Y (y 1).val (y 2) (y 3)

theorem hz4 : (![0, 0, 0, 0] : Fin 4 → ℕ) = fun _ => 0 := funext fun a => by fin_cases a <;> rfl

/-- Row-block `j` of the output block, as stored, is `accB` on its rectangle. -/
theorem row_piece (j : ℕ) (inb : ∀ a, (![0, j, 0, 0] : Fin 4 → ℕ) a + (![1, 1, 160, 320] : Fin 4 → ℕ) a ≤ S1x53x160x320.size a)
    (P : FVec Ideal S16x168x328 .f32) (Y : FVec Ideal S16x160x320 .f32) (xo : Vec Ideal S1x53x160x320 .f32)
    (x : (Rect.unit (s := S1x53x160x320) ![0, j, 0, 0] ![1, 1, 160, 320] inb).shape.Idx) :
    bump j P Y (View.ld xo (Rect.unit (s := S1x53x160x320) ![0, j, 0, 0] ![1, 1, 160, 320] inb)) x
      = accB P Y xo ((Rect.unit (s := S1x53x160x320) ![0, j, 0, 0] ![1, 1, 160, 320] inb).emb x) := by
  have h1 : (x 1).val = 0 := by have := (x 1).isLt; simpa using this
  have e1 : (((Rect.unit (s := S1x53x160x320) ![0, j, 0, 0] ![1, 1, 160, 320] inb).emb x) 1).val = j := by
    rw [Rect.emb_apply]; show j + 1 * (x 1).val = j; omega
  have e2 : ((Rect.unit (s := S1x53x160x320) ![0, j, 0, 0] ![1, 1, 160, 320] inb).emb x) 2 = (x 2 : Fin 160) :=
    Fin.ext (by rw [Rect.emb_apply]; show 0 + 1 * (x 2).val = (x 2).val; omega)
  have e3 : ((Rect.unit (s := S1x53x160x320) ![0, j, 0, 0] ![1, 1, 160, 320] inb).emb x) 3 = (x 3 : Fin 320) :=
    Fin.ext (by rw [Rect.emb_apply]; show 0 + 1 * (x 3).val = (x 3).val; omega)
  rw [bump_apply]
  unfold accB
  rw [e1, e2, e3]
  rfl

/-- The names the symbolic run of the body gave its intermediate values are opened in two steps: first every name of a
    VALUE (a load of the output block opens to a read of the list of stores made before it), then the names of the LISTS of
    stores themselves — so that the values stored by earlier row-blocks, which no later step looks at, stay named. -/
elab "open_run_names" : tactic => do
  let g ← Lean.Elab.Tactic.getMainGoal
  let isRun (n : Lean.Name) : Bool := n.components.dropLast.any (· == `sl)
  let isList (n : Lean.Name) : Bool := isRun n && (match n with | .str _ s => s.startsWith "H2_" | _ => false)
  let t ← Lean.instantiateMVars (← g.getType)
  let t ← Lean.Meta.deltaExpand t fun n => isRun n && !isList n
  let t ← Lean.Meta.deltaExpand t isList
  Lean.Elab.Tactic.replaceMainGoal [← g.replaceTargetDefEq t]

/-- Opens only the names of the lists of stores. -/
elab "open_store_lists" : tactic => do
  let g ← Lean.Elab.Tactic.getMainGoal
  let isList (n : Lean.Name) : Bool := n.components.dropLast.any (· == `sl) && (match n with | .str _ s => s.startsWith "H2_" | _ => false)
  let t ← Lean.instantiateMVars (← g.getType)
  let t ← Lean.Meta.deltaExpand t isList
  Lean.Elab.Tactic.replaceMainGoal [← g.replaceTargetDefEq t]

/-- A store to row-block `k` does not touch row-block `j ≠ k`: reading the stores at an entry of row-block `j` skips it. -/
theorem canon_cons_row_ne {k j : ℕ} (hkj : k ≠ j)
    (inbk : ∀ a, (![0, k, 0, 0] : Fin 4 → ℕ) a + (![1, 1, 160, 320] : Fin 4 → ℕ) a ≤ S1x53x160x320.size a)
    (w : (Rect.unit (s := S1x53x160x320) ![0, k, 0, 0] ![1, 1, 160, 320] inbk).shape.Idx → Elt Ideal .f32)
    (L : List (View.Piece (Elt Ideal) S1x53x160x320 .f32))
    (inbj : ∀ a, (![0, j, 0, 0] : Fin 4 → ℕ) a + (![1, 1, 160, 320] : Fin 4 → ℕ) a ≤ S1x53x160x320.size a)
    (x : (Rect.unit (s := S1x53x160x320) ![0, j, 0, 0] ![1, 1, 160, 320] inbj).shape.Idx) :
    View.canon ((⟨Rect.unit (s := S1x53x160x320) ![0, k, 0, 0] ![1, 1, 160, 320] inbk, w⟩ : View.Piece (Elt Ideal) S1x53x160x320 .f32) :: L)
        ((Rect.unit (s := S1x53x160x320) ![0, j, 0, 0] ![1, 1, 160, 320] inbj).toLoadRect.idx x)
      = View.canon L ((Rect.unit (s := S1x53x160x320) ![0, j, 0, 0] ![1, 1, 160, 320] inbj).toLoadRect.idx x) := by
  refine View.canon_cons_of_not_mem _ _ ?_
  rw [Rect.mem_set_unit]
  intro h
  have h1 := h 1
  have hx : (x 1).val = 0 := by have := (x 1).isLt; simpa using this
  rw [LoadRect.idx_apply] at h1
  have e : ((Rect.unit (s := S1x53x160x320) ![0, j, 0, 0] ![1, 1, 160, 320] inbj).toLoadRect.off 1
      + (Rect.unit (s := S1x53x160x320) ![0, j, 0, 0] ![1, 1, 160, 320] inbj).toLoadRect.stride 1 * (x 1).val) = j := by
    show j + 1 * (x 1).val = j; omega
  rw [e] at h1
  have : k ≤ j ∧ j < k + 1 := h1
  omega

/-- The last tile's scaling of the whole block, read at an index: each entry times the constant. -/
theorem scale_apply (ld : Vec Ideal S1x53x160x320 .f32) (y : S1x53x160x320.Idx) :
    k0_pay2 (F := Ideal) ld y = ld y * Ideal.ofBits .f32 0x3C800000#32 := by
  have h0 : (y 0).val = 0 := by have := (y 0).isLt; simpa using this
  have hpos : (S53x160x320.rowMajor (ix3 (y 1) (y 2) (y 3))).val = (S1x53x160x320.rowMajor y).val := by
    rw [Shape.rowMajor_val_three, Shape.rowMajor_val_four, h0]
    show ((y 1).val * 160 + (y 2).val) * 320 + (y 3).val = ((0 * 53 + (y 1).val) * 160 + (y 2).val) * 320 + (y 3).val
    omega
  show shapeCast S1x53x160x320 (mulf (shapeCast S53x160x320 ld shapeCasts_S1x53x160x320_S53x160x320)
      (broadcast S53x160x320 (Scalar.ofBits (F := Ideal) .f32 0x3C800000#32))) shapeCasts_S53x160x320_S1x53x160x320 y = _
  rw [shapeCast_apply _ shapeCasts_S53x160x320_S1x53x160x320 y (ix3 (y 1) (y 2) (y 3)) hpos, mulf_apply,
    shapeCast_apply ld shapeCasts_S1x53x160x320_S53x160x320 (ix3 (y 1) (y 2) (y 3)) y hpos.symm]
  rfl

/-- The whole-block rectangle names every index by itself. -/
theorem idx_whole (inb : ∀ a, (![0, 0, 0, 0] : Fin 4 → ℕ) a + S1x53x160x320.size a ≤ S1x53x160x320.size a) (y : S1x53x160x320.Idx) :
    (Rect.unit (s := S1x53x160x320) ![0, 0, 0, 0] S1x53x160x320.size inb).toLoadRect.idx y = y :=
  funext fun a => Fin.ext (by
    rw [LoadRect.idx_apply]
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega)

set_option maxHeartbeats 4000000 in
/-- A middle tile: every entry of what the block held plus its displacement's sum. -/
theorem out_B (c : Dev nD) (i : grid0.Coords) (a2 : Memref sig .tc .vmem S1x16x160x320 .f32) (h2 : a2.IsWhole)
    (a3 : Memref sig .tc .vmem S1x16x160x320 .f32) (h3 : a3.IsWhole) (a4 : Memref sig .tc .vmem S1x53x160x320 .f32) (h4 : a4.IsWhole)
    (hc0 : ¬cond0_0 i) (hc1 : ¬cond0_1 i) (x0 x1 : Vec Ideal S1x16x160x320 .f32) (xo : Vec Ideal S1x53x160x320 .f32) :
    out0_B_2 (F := Ideal) c i a2 h2 a3 h3 a4 h4 hc0 hc1 x0 x1 xo = accB (k0_pay5 x0) (k0_pay4 x1) xo := by
  unfold out0_B_2
  rw [View.read_writes_junk_eq_canon]
  funext y
  refine View.canon_apply_of_pieces (accB (k0_pay5 x0) (k0_pay4 x1) xo) _ ?_ y (cover0_B_2 c i a2 h2 a3 h3 a4 h4 hc0 hc1 x0 x1 xo y)
  unfold kernelRun0_B
  dsimp only
  repeat' (first | exact (fun _ h => absurd h List.not_mem_nil) | refine List.forall_mem_cons.2 ⟨?_, ?_⟩)
  all_goals (
    intro x
    sl_unfold_run_names
    simp only [View.readAt_eq_ld, Memref.IsWhole.read_unread, View.ld_unit_zero (S := S1x16x160x320) hz4]
    exact row_piece _ _ _ _ _ x)

set_option maxHeartbeats 4000000 in
/-- The first tile: the same over the zero fill. -/
theorem out_A (c : Dev nD) (i : grid0.Coords) (a2 : Memref sig .tc .vmem S1x16x160x320 .f32) (h2 : a2.IsWhole)
    (a3 : Memref sig .tc .vmem S1x16x160x320 .f32) (h3 : a3.IsWhole) (a4 : Memref sig .tc .vmem S1x53x160x320 .f32) (h4 : a4.IsWhole)
    (hc0 : cond0_0 i) (hc1 : ¬cond0_1 i) (x0 x1 : Vec Ideal S1x16x160x320 .f32) :
    out0_A_2 (F := Ideal) c i a2 h2 a3 h3 a4 h4 hc0 hc1 x0 x1 = accB (k0_pay5 x0) (k0_pay4 x1) (k0_pay3 (F := Ideal)) := by
  unfold out0_A_2
  rw [View.read_writes_junk_eq_canon]
  funext y
  have hne : (kernelRun0_A (F := Ideal) c i a2 h2 a3 h3 a4 h4 hc0 hc1 x0 x1).1 ≠ [] := by
    unfold kernelRun0_A; dsimp only; exact List.cons_ne_nil _ _
  have key := View.canon_append_of_pieces (accB (k0_pay5 x0) (k0_pay4 x1) (k0_pay3 (F := Ideal)))
    [(kernelRun0_A (F := Ideal) c i a2 h2 a3 h3 a4 h4 hc0 hc1 x0 x1).1.getLast hne]
    (kernelRun0_A (F := Ideal) c i a2 h2 a3 h3 a4 h4 hc0 hc1 x0 x1).1.dropLast ?hp y ?hcov
  · rwa [List.dropLast_append_getLast hne] at key
  case hcov =>
    exact View.cover_of_tiledL (s := S1x53x160x320) _ S1x1x160x320.size (by sl_kernel_rfl) y
  case hp =>
    unfold kernelRun0_A
    dsimp only
    open_store_lists
    simp only [List.dropLast_cons₂, List.dropLast_singleton]
    repeat' (first | exact (fun _ h => absurd h List.not_mem_nil) | refine List.forall_mem_cons.2 ⟨?_, ?_⟩)
    all_goals (
      intro x
      open_run_names
      simp (disch := decide) only [View.readAt_eq_ld, Memref.IsWhole.read_unread, View.ld_unit_zero (S := S1x16x160x320) hz4,
        View.readCov_eq_canon', canon_cons_row_ne, View.canon_unit_zero (S := S1x53x160x320) hz4]
      exact row_piece _ _ _ _ _ x)

set_option maxHeartbeats 4000000 in
/-- The last tile: the block after the 53 row-block updates, every entry times 2⁻⁶. -/
theorem out_C (c : Dev nD) (i : grid0.Coords) (a2 : Memref sig .tc .vmem S1x16x160x320 .f32) (h2 : a2.IsWhole)
    (a3 : Memref sig .tc .vmem S1x16x160x320 .f32) (h3 : a3.IsWhole) (a4 : Memref sig .tc .vmem S1x53x160x320 .f32) (h4 : a4.IsWhole)
    (hc0 : ¬cond0_0 i) (hc1 : cond0_1 i) (x0 x1 : Vec Ideal S1x16x160x320 .f32) (xo : Vec Ideal S1x53x160x320 .f32) :
    out0_C_2 (F := Ideal) c i a2 h2 a3 h3 a4 h4 hc0 hc1 x0 x1 xo
      = fun y => accB (k0_pay5 x0) (k0_pay4 x1) xo y * Ideal.ofBits .f32 0x3C800000#32 := by
  unfold out0_C_2
  rw [View.read_writes_junk_eq_canon]
  funext y
  unfold kernelRun0_C
  dsimp only
  rw [View.canon_cons_unit_zero (S := S1x53x160x320) hz4, scale_apply]
  refine congrArg (· * Ideal.ofBits .f32 0x3C800000#32) ?_
  sl_unfold_run_names
  rw [View.readCov_eq_canon']
  refine (View.canon_apply_of_pieces (Val := Elt Ideal) (S := S1x53x160x320) (e := .f32)
    (accB (k0_pay5 x0) (k0_pay4 x1) xo) _ ?hp _ ?hcov).trans ?_
  case hcov => exact View.cover_of_tiledL (s := S1x53x160x320) _ S1x1x160x320.size (by sl_kernel_rfl) _
  case hp =>
    repeat' (first | exact (fun _ h => absurd h List.not_mem_nil) | refine List.forall_mem_cons.2 ⟨?_, ?_⟩)
    all_goals (
      intro x
      simp only [View.readAt_eq_ld, Memref.IsWhole.read_unread, View.ld_unit_zero (S := S1x16x160x320) hz4]
      exact row_piece _ _ _ _ _ x)
  rw [idx_whole]

end Cert.KernelIdeal.Cases

end
-- ==== Proof.KernelPad.lean ====
/-
  The kernel's padded tile read at an index.

  The body builds the padding of a 16 × 160 × 320 tile by joining borders of a constant `z` around it: four rows
  above, four rows below, then four columns to the left and four to the right. Read at `(k, u, v)` of the
  16 × 168 × 328 result this is the tile's entry `(k, u − 4, v − 4)` when `4 ≤ u < 164` and `4 ≤ v < 324`, and `z` on the
  border: the zero-padded read `Shift.pad2`.
-/
import proofs.«170128_j88175678587309_1_alg».proof.KernelIdeal
import proofs.«170128_j88175678587309_1_alg».proof.Proof.Gen.KernelIdeal
import proofs.«170128_j88175678587309_1_alg».proof.Proof.Gen.KernelIdeal.Skeleton
import proofs.«170128_j88175678587309_1_alg».proof.Proof.Shift
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx Cert.Shift

/-- The border's value: the integer zero converted. -/
abbrev border : Ideal .f32 := Scalar.sitofp (F := Ideal) .f32 0#32

/-- The tile without its leading unit axis, read at an index. -/
theorem dropUnit_apply (x0 : Vec Ideal S1x16x160x320 .f32) (k : Fin 16) (p : Fin 160) (q : Fin 320) :
    shapeCast S16x160x320 x0 shapeCasts_S1x16x160x320_S16x160x320 (ix3 k p q) = x0 (ix4 0 k p q) := by
  refine shapeCast_apply x0 shapeCasts_S1x16x160x320_S16x160x320 (ix3 k p q) (ix4 0 k p q) ?_
  rw [Shape.rowMajor_val_three, Shape.rowMajor_val_four]
  show ((0 * 16 + k.val) * 160 + p.val) * 320 + q.val = (k.val * 160 + p.val) * 320 + q.val
  omega

/-- The padded tile at `(k, u, v)` is the zero-padded read of channel `k` of the tile at `(u, v)`. -/
theorem kpad_apply (x0 : Vec Ideal S1x16x160x320 .f32) (k : Fin 16) (u : Fin 168) (v : Fin 328) :
    k0_pay5 (F := Ideal) x0 (ix3 k u v) = pad2 border (fun r s => x0 (ix4 0 k r s)) u.val v.val := by
  unfold k0_pay5
  by_cases hv : v.val < 324
  · refine (concatenate_pair_apply_left 2 _ _ concatenates_S16x168x324_S16x168x4_S16x168x328_d2 (ix3 k u v) rfl
      (ix3 k u ⟨v.val, hv⟩) (fun b => by match b with | ⟨0, _⟩ => rfl | ⟨1, _⟩ => rfl | ⟨2, _⟩ => rfl)).trans ?_
    by_cases hv4 : v.val < 4
    · refine (concatenate_pair_apply_left 2 _ _ concatenates_S16x168x4_S16x168x320_S16x168x324_d2 (ix3 k u ⟨v.val, hv⟩) rfl
        (ix3 k u ⟨v.val, hv4⟩) (fun b => by match b with | ⟨0, _⟩ => rfl | ⟨1, _⟩ => rfl | ⟨2, _⟩ => rfl)).trans ?_
      exact (pad2_outside _ _ (by omega)).symm
    · refine (concatenate_pair_apply_right 2 _ _ concatenates_S16x168x4_S16x168x320_S16x168x324_d2 (ix3 k u ⟨v.val, hv⟩) rfl rfl
        (ix3 k u ⟨v.val - 4, by omega⟩)
        (fun b => by match b with | ⟨0, _⟩ => exact fun _ => rfl | ⟨1, _⟩ => exact fun _ => rfl | ⟨2, _⟩ => exact fun h => absurd rfl h)
        (by show v.val - 4 + 4 = v.val; omega)).trans ?_
      by_cases hu : u.val < 164
      · refine (concatenate_pair_apply_left 1 _ _ concatenates_S16x164x320_S16x4x320_S16x168x320_d1 (ix3 k u ⟨v.val - 4, by omega⟩) rfl
          (ix3 k ⟨u.val, hu⟩ ⟨v.val - 4, by omega⟩) (fun b => by match b with | ⟨0, _⟩ => rfl | ⟨1, _⟩ => rfl | ⟨2, _⟩ => rfl)).trans ?_
        by_cases hu4 : u.val < 4
        · refine (concatenate_pair_apply_left 1 _ _ concatenates_S16x4x320_S16x160x320_S16x164x320_d1 (ix3 k ⟨u.val, hu⟩ ⟨v.val - 4, by omega⟩) rfl
            (ix3 k ⟨u.val, hu4⟩ ⟨v.val - 4, by omega⟩) (fun b => by match b with | ⟨0, _⟩ => rfl | ⟨1, _⟩ => rfl | ⟨2, _⟩ => rfl)).trans ?_
          exact (pad2_outside _ _ (by omega)).symm
        · refine (concatenate_pair_apply_right 1 _ _ concatenates_S16x4x320_S16x160x320_S16x164x320_d1 (ix3 k ⟨u.val, hu⟩ ⟨v.val - 4, by omega⟩) rfl rfl
            (ix3 k ⟨u.val - 4, by omega⟩ ⟨v.val - 4, by omega⟩)
            (fun b => by match b with | ⟨0, _⟩ => exact fun _ => rfl | ⟨1, _⟩ => exact fun h => absurd rfl h | ⟨2, _⟩ => exact fun _ => rfl)
            (by show u.val - 4 + 4 = u.val; omega)).trans ?_
          rw [dropUnit_apply]
          exact (pad2_inside border (fun r s => x0 (ix4 0 k r s)) (u := u.val) (v := v.val) (by omega) (by omega) ⟨u.val - 4, by omega⟩ ⟨v.val - 4, by omega⟩ rfl rfl).symm
      · refine (concatenate_pair_apply_right 1 _ _ concatenates_S16x164x320_S16x4x320_S16x168x320_d1 (ix3 k u ⟨v.val - 4, by omega⟩) rfl rfl
          (ix3 k ⟨u.val - 164, by have := u.isLt; omega⟩ ⟨v.val - 4, by omega⟩)
          (fun b => by match b with | ⟨0, _⟩ => exact fun _ => rfl | ⟨1, _⟩ => exact fun h => absurd rfl h | ⟨2, _⟩ => exact fun _ => rfl)
          (by show u.val - 164 + 164 = u.val; omega)).trans ?_
        exact (pad2_outside _ _ (by omega)).symm
  · refine (concatenate_pair_apply_right 2 _ _ concatenates_S16x168x324_S16x168x4_S16x168x328_d2 (ix3 k u v) rfl rfl
      (ix3 k u ⟨v.val - 324, by have := v.isLt; omega⟩)
      (fun b => by match b with | ⟨0, _⟩ => exact fun _ => rfl | ⟨1, _⟩ => exact fun _ => rfl | ⟨2, _⟩ => exact fun h => absurd rfl h)
      (by show v.val - 324 + 324 = v.val; omega)).trans ?_
    exact (pad2_outside _ _ (by omega)).symm

end Cert.KernelIdeal.Tile

end
-- ==== Proof.Mean.lean ====
/-
  The channel sum as a sum over the natural numbers, tile by tile, and the mean both programs compute.

  For a batch entry `n`, a displacement `j` and a pixel `(r, s)`, `term … c` is channel `c`'s product
  pad(X)[n, c, dy j + r, dx j + s] · Y[n, c, r, s] (zero past the 64 channels, so that it is a function of a natural
  number); `part … T` is the sum of the first `16 (T + 1)` terms — what the running total holds after tile `T` —; and
  `mean` is the sum of all 64 divided by 64, in the form a sum from an initial zero takes. After the last tile the
  running total times 2⁻⁶ is the mean (`part_three_scaled`).
-/
import proofs.«170128_j88175678587309_1_alg».proof.Proof.Shift

noncomputable section

namespace Cert.Shift

open Idealize.ShloMosaic Idealize.ShloMosaic.ValueIdx

/-- Channel `c`'s displaced product at `(n, j, r, s)`. -/
def term (z : EReal) (X Y : (⟨4, ![8, 64, 160, 320]⟩ : Shape).Idx → EReal) (n : Fin 8) (j : ℕ) (r : Fin 160) (s : Fin 320)
    (c : ℕ) : EReal :=
  if h : c < 64 then pad2 z (fun r' s' => X (ix4 n ⟨c, h⟩ r' s')) (dy j + r.val) (dx j + s.val) * Y (ix4 n ⟨c, h⟩ r s) else 0

/-- The sum over the channels of tiles `0 … T`. -/
def part (z : EReal) (X Y : (⟨4, ![8, 64, 160, 320]⟩ : Shape).Idx → EReal) (n : Fin 8) (j : ℕ) (r : Fin 160) (s : Fin 320)
    (T : ℕ) : EReal :=
  ∑ c ∈ Finset.range (16 * (T + 1)), term z X Y n j r s c

/-- The mean over the 64 channels, as a sum from an initial zero divided by 64. -/
def mean (z : EReal) (X Y : (⟨4, ![8, 64, 160, 320]⟩ : Shape).Idx → EReal) : (⟨4, ![8, 53, 160, 320]⟩ : Shape).Idx → EReal :=
  fun i => Ideal.div (Ideal.ofBits .f32 0x00000000#32 + ∑ c : Fin 64, term z X Y (i 0) (i 1).val (i 2) (i 3) c.val)
    (Ideal.ofBits .f32 0x42800000#32)

theorem part_zero (z : EReal) (X Y : (⟨4, ![8, 64, 160, 320]⟩ : Shape).Idx → EReal) (n : Fin 8) (j : ℕ) (r : Fin 160) (s : Fin 320) :
    part z X Y n j r s 0 = ∑ k : Fin 16, term z X Y n j r s (16 * 0 + k.val) := by
  unfold part
  exact sum_first_tile _

theorem part_succ (z : EReal) (X Y : (⟨4, ![8, 64, 160, 320]⟩ : Shape).Idx → EReal) (n : Fin 8) (j : ℕ) (r : Fin 160) (s : Fin 320)
    (T : ℕ) :
    part z X Y n j r s (T + 1) = part z X Y n j r s T + ∑ k : Fin 16, term z X Y n j r s (16 * (T + 1) + k.val) := by
  unfold part
  rw [show 16 * (T + 1 + 1) = 16 * (T + 1) + 16 from by ring]
  exact sum_next_tile _ _

/-- After the last tile the running total times 2⁻⁶ is the mean. -/
theorem part_three_scaled (z : EReal) (X Y : (⟨4, ![8, 64, 160, 320]⟩ : Shape).Idx → EReal) (i : (⟨4, ![8, 53, 160, 320]⟩ : Shape).Idx) :
    part z X Y (i 0) (i 1).val (i 2) (i 3) 3 * Ideal.ofBits .f32 0x3C800000#32 = mean z X Y i := by
  unfold part mean
  rw [scale_eq, Ideal.ofBits_zero_f32, zero_add, sum_all]

end Cert.Shift

end
-- ==== Proof.KernelAcc.lean ====
/-
  The kernel's result array: the running total over the grid, and the array the last tiles write back.

  The grid is 8 batch entries × 4 channel tiles, in that order: point `t` is batch entry `t / 4`, tile `t % 4`; the output
  block of batch entry `n` stays in its buffer over the four tiles and is written back after the last. By induction on
  the point, after point `t` the buffer holds at `(j, r, s)` the sum of the first `16 (t % 4 + 1)` channel products of batch
  entry `t / 4` (`Shift.part`) — times 2⁻⁶ after the last tile —: the first tile starts from the zero fill, every tile adds
  its sixteen products (`tile_eq`: the tile's padded block is the array's zero-padded read at the tile's channels). What
  the last tile of batch entry `n` writes back is block `n` of the mean (`Shift.mean`), and these eight blocks cover the
  array.
-/
import proofs.«170128_j88175678587309_1_alg».proof.Proof.Gen.KernelIdeal.Value
import proofs.«170128_j88175678587309_1_alg».proof.Proof.KernelCases
import proofs.«170128_j88175678587309_1_alg».proof.Proof.KernelPad
import proofs.«170128_j88175678587309_1_alg».proof.Proof.Mean
import Idealize.ShloMosaic.Lib.Pipeline.Value

set_option maxRecDepth 16384

noncomputable section

namespace Cert.KernelIdeal.Acc

open Cert.KernelIdeal Cert.KernelIdeal.Gen Idealize.ShloMosaic Idealize.ShloMosaic.TcCoe Idealize.ShloMosaic.ValueIdx Idealize.SL.Sem
open Idealize.ShloMosaic.Pipeline (Dat)
open Cert.Shift Cert.KernelIdeal.Tile Cert.KernelIdeal.Cases

variable (m : (ℓ : Loc nD τ sig) → Buf (Elt Ideal) ℓ) (ρ : Dev nD → PrngReg)

theorem lt32 (t : Fin cfg0.N) : t.val < 32 := lt_of_lt_of_eq t.isLt (show cfg0.N = 32 from N_0)

/-- Point `t`'s batch entry. -/
abbrev bt (t : Fin cfg0.N) : Fin 8 := ⟨t.val / 4, by have := lt32 t; omega⟩

/-- The printed index maps, decided over the grid: the operands' blocks are at (batch entry, tile), the output's at
    (batch entry). -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = t.val % 4
    ∧ win0_1.index t (2 : Fin 4) = 0 ∧ win0_1.index t (3 : Fin 4) = 0
    ∧ win0_2.index t (0 : Fin 4) = t.val / 4 ∧ win0_2.index t (1 : Fin 4) = 0
    ∧ win0_2.index t (2 : Fin 4) = 0 ∧ win0_2.index t (3 : Fin 4) = 0 :=
  (by decide +kernel : ∀ t : Fin grid0.N, _)

/-- The first operand's block at point `t` is the array at the tile's channels. -/
theorem iblk0_apply (c : Dev nD) (t : Fin cfg0.N) (k : Fin 16) (r : Fin 160) (s : Fin 320)
    (hk : 16 * (t.val % 4) + k.val < 64) :
    (iblk m c 0 t : Vec Ideal S1x16x160x320 .f32) (ix4 0 k r s)
      = V m c main_arg0 (ix4 (bt t) ⟨16 * (t.val % 4) + k.val, hk⟩ r s) := by
  obtain ⟨e0, e1, e2, e3, -⟩ := idx_facts t
  show V m c main_arg0 (((cfg0.win 0).blk t).view.emb (ix4 0 k r s)) = _
  refine congrArg (V m c main_arg0) (funext fun a => Fin.ext ?_)
  match a with
  | ⟨0, _⟩ => show win0_0.index t (0 : Fin 4) * 1 + 1 * 0 = t.val / 4; omega
  | ⟨1, _⟩ => show win0_0.index t (1 : Fin 4) * 16 + 1 * k.val = 16 * (t.val % 4) + k.val; omega
  | ⟨2, _⟩ => show win0_0.index t (2 : Fin 4) * 160 + 1 * r.val = r.val; omega
  | ⟨3, _⟩ => show win0_0.index t (3 : Fin 4) * 320 + 1 * s.val = s.val; omega

/-- The second operand's block likewise. -/
theorem iblk1_apply (c : Dev nD) (t : Fin cfg0.N) (k : Fin 16) (r : Fin 160) (s : Fin 320)
    (hk : 16 * (t.val % 4) + k.val < 64) :
    (iblk m c 1 t : Vec Ideal S1x16x160x320 .f32) (ix4 0 k r s)
      = V m c main_arg1 (ix4 (bt t) ⟨16 * (t.val % 4) + k.val, hk⟩ r s) := by
  obtain ⟨-, -, -, -, e0, e1, e2, e3, -⟩ := idx_facts t
  show V m c main_arg1 (((cfg0.win 1).blk t).view.emb (ix4 0 k r s)) = _
  refine congrArg (V m c main_arg1) (funext fun a => Fin.ext ?_)
  match a with
  | ⟨0, _⟩ => show win0_1.index t (0 : Fin 4) * 1 + 1 * 0 = t.val / 4; omega
  | ⟨1, _⟩ => show win0_1.index t (1 : Fin 4) * 16 + 1 * k.val = 16 * (t.val % 4) + k.val; omega
  | ⟨2, _⟩ => show win0_1.index t (2 : Fin 4) * 160 + 1 * r.val = r.val; omega
  | ⟨3, _⟩ => show win0_1.index t (3 : Fin 4) * 320 + 1 * s.val = s.val; omega

/-- Point `t`'s sixteen displaced products are the channel terms of its tile. -/
theorem tile_eq (c : Dev nD) (t : Fin cfg0.N) (j : ℕ) (r : Fin 160) (s : Fin 320) :
    tileSum (k0_pay5 (iblk m c 0 t)) (k0_pay4 (iblk m c 1 t)) j r s
      = ∑ k : Fin 16, term border (V m c main_arg0) (V m c main_arg1) (bt t) j r s (16 * (t.val % 4) + k.val) := by
  have hN := lt32 t
  unfold tileSum
  refine Finset.sum_congr rfl fun k _ => ?_
  have hk : 16 * (t.val % 4) + k.val < 64 := by have := k.isLt; omega
  have e0 : (fun (r' : Fin 160) (s' : Fin 320) => (iblk m c 0 t : Vec Ideal S1x16x160x320 .f32) (ix4 0 k r' s'))
      = fun r' s' => V m c main_arg0 (ix4 (bt t) ⟨16 * (t.val % 4) + k.val, hk⟩ r' s') :=
    funext fun r' => funext fun s' => iblk0_apply m c t k r' s' hk
  have e1 : k0_pay4 (iblk m c 1 t) (ix3 k r s) = V m c main_arg1 (ix4 (bt t) ⟨16 * (t.val % 4) + k.val, hk⟩ r s) :=
    (dropUnit_apply (iblk m c 1 t) k r s).trans (iblk1_apply m c t k r s hk)
  unfold term
  rw [dif_pos hk, kpad_apply, e0, e1]

/-- What the output block's buffer holds after point `t`. -/
def stateAt (X Y : (⟨4, ![8, 64, 160, 320]⟩ : Shape).Idx → EReal) (t : ℕ) (ht : t < 32) : S1x53x160x320.Idx → EReal :=
  fun y =>
    if t % 4 = 3 then part border X Y ⟨t / 4, by omega⟩ (y 1).val (y 2) (y 3) (t % 4) * Ideal.ofBits .f32 0x3C800000#32
    else part border X Y ⟨t / 4, by omega⟩ (y 1).val (y 2) (y 3) (t % 4)

theorem zero_block (y : S1x53x160x320.Idx) : k0_pay3 (F := Ideal) y = 0 := by
  show Ideal.ofBits .f32 0x00000000#32 = 0
  exact Ideal.ofBits_zero_f32

/-- THE ACCUMULATION: after point `t` the buffer holds the running total of its batch entry up to its tile. -/
theorem outsAt_eq (c : Dev nD) : ∀ (t : ℕ) (ht : t < cfg0.N),
    outsAt0 m c t ht = stateAt (V m c main_arg0) (V m c main_arg1) t (lt_of_lt_of_eq ht (show cfg0.N = 32 from N_0))
  | 0, ht => by
    rw [outsAt0_A m c ⟨0, ht⟩ rfl (by show ¬(0 % 4 = 3); decide), out_A]
    funext y
    unfold accB stateAt
    rw [tile_eq m c ⟨0, ht⟩ (y 1).val (y 2) (y 3), zero_block, zero_add, if_neg (by decide)]
    exact (part_zero _ _ _ _ _ _ _).symm
  | t + 1, ht => by
    have hN : t + 1 < 32 := lt_of_lt_of_eq ht (show cfg0.N = 32 from N_0)
    have ih := outsAt_eq c t (Nat.lt_of_succ_lt ht)
    by_cases h0 : (t + 1) % 4 = 0
    · have h1 : ¬(t + 1) % 4 = 3 := by omega
      rw [outsAt0_A m c ⟨t + 1, ht⟩ h0 h1, out_A]
      funext y
      unfold accB stateAt
      rw [tile_eq m c ⟨t + 1, ht⟩ (y 1).val (y 2) (y 3), zero_block, zero_add, if_neg h1]
      show _ = part border _ _ ⟨(t + 1) / 4, _⟩ (y 1).val (y 2) (y 3) ((t + 1) % 4)
      rw [h0]
      exact (part_zero _ _ _ _ _ _ _).symm
    · have hprev : (t + 1 - 1) = t := rfl
      have hb : (⟨(t + 1) / 4, by omega⟩ : Fin 8) = ⟨t / 4, by omega⟩ := Fin.ext (by show (t + 1) / 4 = t / 4; omega)
      obtain ⟨T, hT⟩ : ∃ T, t % 4 = T ∧ (t + 1) % 4 = T + 1 := ⟨t % 4, rfl, by omega⟩
      by_cases h1 : (t + 1) % 4 = 3
      · rw [outsAt0_C m c ⟨t + 1, ht⟩ h0 h1, out_C]
        funext y
        show accB _ _ (outsAt0 m c t _) y * _ = _
        unfold accB stateAt
        rw [ih, tile_eq m c ⟨t + 1, ht⟩ (y 1).val (y 2) (y 3), if_pos h1]
        unfold stateAt
        rw [if_neg (by omega)]
        show (part border _ _ ⟨t / 4, _⟩ (y 1).val (y 2) (y 3) (t % 4)
          + ∑ k : Fin 16, term border _ _ ⟨(t + 1) / 4, _⟩ (y 1).val (y 2) (y 3) (16 * ((t + 1) % 4) + k.val)) * _
          = part border _ _ ⟨(t + 1) / 4, _⟩ (y 1).val (y 2) (y 3) ((t + 1) % 4) * _
        rw [hb, hT.1, hT.2]
        exact congrArg (· * Ideal.ofBits .f32 0x3C800000#32) (part_succ _ _ _ _ _ _ _ T).symm
      · rw [outsAt0_B m c ⟨t + 1, ht⟩ h0 h1, out_B]
        funext y
        show accB _ _ (outsAt0 m c t _) y = _
        unfold accB stateAt
        rw [ih, tile_eq m c ⟨t + 1, ht⟩ (y 1).val (y 2) (y 3), if_neg h1]
        unfold stateAt
        rw [if_neg (by omega)]
        show part border _ _ ⟨t / 4, _⟩ (y 1).val (y 2) (y 3) (t % 4)
          + ∑ k : Fin 16, term border _ _ ⟨(t + 1) / 4, _⟩ (y 1).val (y 2) (y 3) (16 * ((t + 1) % 4) + k.val)
          = part border _ _ ⟨(t + 1) / 4, _⟩ (y 1).val (y 2) (y 3) ((t + 1) % 4)
        rw [hb, hT.1, hT.2]
        exact (part_succ _ _ _ _ _ _ _ T).symm

/-- WHAT THE LAST TILE OF A BATCH ENTRY WRITES BACK is that entry's block of the mean. -/
theorem flushed_eq (c : Dev nD) (t : Fin cfg0.N) (hf : (cfg0.win 2).flush t = true) :
    (dats m 0 c).flushed 2 t
      = ((cfg0.win 2).blk t).view.read (Elt Ideal) (mean border (V m c main_arg0) (V m c main_arg1)) := by
  have h3 : t.val % 4 = 3 := (flush0_2 t).mp hf
  have hN := lt32 t
  obtain ⟨-, -, -, -, -, -, -, -, e0, e1, e2, e3⟩ := idx_facts t
  rw [Value.flushed2, outsAt_eq]
  funext y
  show stateAt (V m c main_arg0) (V m c main_arg1) t.val _ y
    = mean border (V m c main_arg0) (V m c main_arg1) (((cfg0.win 2).blk t).view.emb y)
  rw [← part_three_scaled]
  unfold stateAt
  rw [if_pos h3, h3]
  have hy0 : (y 0).val < 1 := (y 0).isLt
  have i0 : (((cfg0.win 2).blk t).view.emb y) 0 = (⟨t.val / 4, by omega⟩ : Fin 8) :=
    Fin.ext (by show win0_2.index t (0 : Fin 4) * 1 + 1 * (y 0).val = t.val / 4; omega)
  have i1 : ((((cfg0.win 2).blk t).view.emb y) 1).val = (y 1).val := by
    show win0_2.index t (1 : Fin 4) * 53 + 1 * (y 1).val = (y 1).val; omega
  have i2 : (((cfg0.win 2).blk t).view.emb y) 2 = (y 2 : Fin 160) :=
    Fin.ext (by show win0_2.index t (2 : Fin 4) * 160 + 1 * (y 2).val = (y 2).val; omega)
  have i3 : (((cfg0.win 2).blk t).view.emb y) 3 = (y 3 : Fin 320) :=
    Fin.ext (by show win0_2.index t (3 : Fin 4) * 320 + 1 * (y 3).val = (y 3).val; omega)
  have key : ∀ (a : Fin 8) (b : ℕ) (p : Fin 160) (q : Fin 320), a = (⟨t.val / 4, by omega⟩ : Fin 8) → b = (y 1).val → p = (y 2 : Fin 160)
      → q = (y 3 : Fin 320) →
      part border (V m c main_arg0) (V m c main_arg1) ⟨t.val / 4, by omega⟩ (y 1).val (y 2) (y 3) 3 * Ideal.ofBits .f32 0x3C800000#32
        = part border (V m c main_arg0) (V m c main_arg1) a b p q 3 * Ideal.ofBits .f32 0x3C800000#32 := by
    intro a b p q ha hb hp hq
    subst ha hb hp hq
    rfl
  exact key _ _ _ _ i0 i1 i2 i3

/-- So the result array ends holding the mean: the eight last tiles' blocks cover it. -/
theorem final (c : Dev nD) : (dats m 0 c).arrAt 2 cfg0.N = mean border (V m c main_arg0) (V m c main_arg1) :=
  (dats m 0 c).arrAt_eq_of_cover 2 (mean border (V m c main_arg0) (V m c main_arg1)) (flushed_eq m c) fun i => by
    have hi0 : (i 0).val < 8 := (i 0).isLt
    have hi1 : (i 1).val < 53 := (i 1).isLt
    have hi2 : (i 2).val < 160 := (i 2).isLt
    have hi3 : (i 3).val < 320 := (i 3).isLt
    have hlt : 4 * (i 0).val + 3 < cfg0.N := by rw [show cfg0.N = 32 from N_0]; omega
    obtain ⟨-, -, -, -, -, -, -, -, e0, e1, e2, e3⟩ := idx_facts ⟨4 * (i 0).val + 3, hlt⟩
    refine ⟨⟨4 * (i 0).val + 3, hlt⟩, (flush0_2 _).mpr (by show (4 * (i 0).val + 3) % 4 = 3; omega), ?_⟩
    show i ∈ ((View.whole main_v0).slice (win0_2.rect ⟨4 * (i 0).val + 3, hlt⟩)).set
    rw [View.set_slice_whole, Rect.mem_set_unit]
    intro a
    match a with
    | ⟨0, _⟩ =>
      show win0_2.index ⟨4 * (i 0).val + 3, hlt⟩ (0 : Fin 4) * 1 ≤ (i 0).val
        ∧ (i 0).val < win0_2.index ⟨4 * (i 0).val + 3, hlt⟩ (0 : Fin 4) * 1 + 1
      rw [e0]; show (4 * (i 0).val + 3) / 4 * 1 ≤ (i 0).val ∧ (i 0).val < (4 * (i 0).val + 3) / 4 * 1 + 1; omega
    | ⟨1, _⟩ =>
      show win0_2.index ⟨4 * (i 0).val + 3, hlt⟩ (1 : Fin 4) * 53 ≤ (i 1).val
        ∧ (i 1).val < win0_2.index ⟨4 * (i 0).val + 3, hlt⟩ (1 : Fin 4) * 53 + 53
      rw [e1]; omega
    | ⟨2, _⟩ =>
      show win0_2.index ⟨4 * (i 0).val + 3, hlt⟩ (2 : Fin 4) * 160 ≤ (i 2).val
        ∧ (i 2).val < win0_2.index ⟨4 * (i 0).val + 3, hlt⟩ (2 : Fin 4) * 160 + 160
      rw [e2]; omega
    | ⟨3, _⟩ =>
      show win0_2.index ⟨4 * (i 0).val + 3, hlt⟩ (3 : Fin 4) * 320 ≤ (i 3).val
        ∧ (i 3).val < win0_2.index ⟨4 * (i 0).val + 3, hlt⟩ (3 : Fin 4) * 320 + 320
      rw [e3]; omega

/-- The kernel's run, read: the result array at the mean of the argument arrays, the arguments unchanged. -/
theorem run : θ_run defs (onTc (τ := τ) (main (F := Ideal))) ⟨m, fun _ => 0, ρ⟩ fun r => ∀ c : Dev nD,
      r.2.mem ((c : Thread nD τ).loc main_v0)
        = mean border (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Acc

end
-- ==== Proof.RefRunOps.lean ====
/-
  The reference program's host operations as eight lists, one per printed window, and its run read back as the
  fold of all of them over the launch contents: every weakly fair execution terminates with every buffer at
  `after` of the eight lists, appended in order, applied to what the launch held.
-/
import proofs.«170128_j88175678587309_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of statements window 0, in order. -/
abbrev W0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x64x160x320, .f32⟩) main_arg0) (TRef.of (T := ⟨S_, .f32⟩) main_call0_v0) (TRef.of (T := ⟨S8x64x168x328, .f32⟩) main_v0) (fun x v => pad S8x64x168x328 ![0, 0, 4, 4] ![0, 0, 4, 4] ![0, 0, 0, 0] x v pads_S8x64x160x320_S8x64x168x328_000_000_440_440 h_S_),
    unary main_v0 main_v1 ((extractStridedSlice S8x64x160x320 ![0, 0, 0, 0] · slices_S8x64x168x328_S8x64x160x320_0_0_0_0) : (⟨S8x64x168x328, .f32⟩ : BufTy).Contents (Elt F) → (⟨S8x64x160x320, .f32⟩ : BufTy).Contents (Elt F)),
    binary main_v1 main_arg1 main_v2 (mulf : (⟨S8x64x160x320, .f32⟩ : BufTy).Contents (Elt F) → (⟨S8x64x160x320, .f32⟩ : BufTy).Contents (Elt F) → (⟨S8x64x160x320, .f32⟩ : BufTy).Contents (Elt F)),
    nullary main_cst (constant S_ .f32 0x00000000#32),
    binary main_v2 main_cst main_v3 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_0 (constant S_ .f32 0x42800000#32),
    unary main_cst_0 main_v4 (broadcastInDim S8x160x320 ![] bcast_S_S8x160x320 : (⟨S_, .f32⟩ : BufTy).Contents (Elt F) → (⟨S8x160x320, .f32⟩ : BufTy).Contents (Elt F)),
    binary main_v3 main_v4 main_v5 (Host.divf : (⟨S8x160x320, .f32⟩ : BufTy).Contents (Elt F) → (⟨S8x160x320, .f32⟩ : BufTy).Contents (Elt F) → (⟨S8x160x320, .f32⟩ : BufTy).Contents (Elt F)),
    unary main_v0 main_v6 ((extractStridedSlice S8x64x160x320 ![0, 0, 0, 2] · slices_S8x64x168x328_S8x64x160x320_0_0_0_2) : (⟨S8x64x168x328, .f32⟩ : BufTy).Contents (Elt F) → (⟨S8x64x160x320, .f32⟩ : BufTy).Contents (Elt F)),
    binary main_v6 main_arg1 main_v7 (mulf : (⟨S8x64x160x320, .f32⟩ : BufTy).Contents (Elt F) → (⟨S8x64x160x320, .f32⟩ : BufTy).Contents (Elt F) → (⟨S8x64x160x320, .f32⟩ : BufTy).Contents (Elt F)),
    nullary main_cst_1 (constant S_ .f32 0x00000000#32),
    binary main_v7 main_cst_1 main_v8 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_2 (constant S_ .f32 0x42800000#32),
    unary main_cst_2 main_v9 (broadcastInDim S8x160x320 ![] bcast_S_S8x160x320 : (⟨S_, .f32⟩ : BufTy).Contents (Elt F) → (⟨S8x160x320, .f32⟩ : BufTy).Contents (Elt F)),
    binary main_v8 main_v9 main_v10 (Host.divf : (⟨S8x160x320, .f32⟩ : BufTy).Contents (Elt F) → (⟨S8x160x320, .f32⟩ : BufTy).Contents (Elt F) → (⟨S8x160x320, .f32⟩ : BufTy).Contents (Elt F)),
    unary main_v0 main_v11 ((extractStridedSlice S8x64x160x320 ![0, 0, 0, 4] · slices_S8x64x168x328_S8x64x160x320_0_0_0_4) : (⟨S8x64x168x328, .f32⟩ : BufTy).Contents (Elt F) → (⟨S8x64x160x320, .f32⟩ : BufTy).Contents (Elt F)),
    binary main_v11 main_arg1 main_v12 (mulf : (⟨S8x64x160x320, .f32⟩ : BufTy).Contents (Elt F) → (⟨S8x64x160x320, .f32⟩ : BufTy).Contents (Elt F) → (⟨S8x64x160x320, .f32⟩ : BufTy).Contents (Elt F)),
    nullary main_cst_3 (constant S_ .f32 0x00000000#32),
    binary main_v12 main_cst_3 main_v13 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_4 (constant S_ .f32 0x42800000#32),
    unary main_cst_4 main_v14 (broadcastInDim S8x160x320 ![] bcast_S_S8x160x320 : (⟨S_, .f32⟩ : BufTy).Contents (Elt F) → (⟨S8x160x320, .f32⟩ : BufTy).Contents (Elt F)),
    binary main_v13 main_v14 main_v15 (Host.divf : (⟨S8x160x320, .f32⟩ : BufTy).Contents (Elt F) → (⟨S8x160x320, .f32⟩ : BufTy).Contents (Elt F) → (⟨S8x160x320, .f32⟩ : BufTy).Contents (Elt F)),
    unary main_v0 main_v16 ((extractStridedSlice S8x64x160x320 ![0, 0, 0, 6] · slices_S8x64x168x328_S8x64x160x320_0_0_0_6) : (⟨S8x64x168x328, .f32⟩ : BufTy).Contents (Elt F) → (⟨S8x64x160x320, .f32⟩ : BufTy).Contents (Elt F)),
    binary main_v16 main_arg1 main_v17 (mulf : (⟨S8x64x160x320, .f32⟩ : BufTy).Contents (Elt F) → (⟨S8x64x160x320, .f32⟩ : BufTy).Contents (Elt F) → (⟨S8x64x160x320, .f32⟩ : BufTy).Contents (Elt F)),
    nullary main_cst_5 (constant S_ .f32 0x00000000#32),
    binary main_v17 main_cst_5 main_v18 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_6 (constant S_ .f32 0x42800000#32),
    unary main_cst_6 main_v19 (broadcastInDim S8x160x320 ![] bcast_S_S8x160x320 : (⟨S_, .f32⟩ : BufTy).Contents (Elt F) → (⟨S8x160x320, .f32⟩ : BufTy).Contents (Elt F)),
    binary main_v18 main_v19 main_v20 (Host.divf : (⟨S8x160x320, .f32⟩ : BufTy).Contents (Elt F) → (⟨S8x160x320, .f32⟩ : BufTy).Contents (Elt F) → (⟨S8x160x320, .f32⟩ : BufTy).Contents (Elt F)),
    unary main_v0 main_v21 ((extractStridedSlice S8x64x160x320 ![0, 0, 0, 8] · slices_S8x64x168x328_S8x64x160x320_0_0_0_8) : (⟨S8x64x168x328, .f32⟩ : BufTy).Contents (Elt F) → (⟨S8x64x160x320, .f32⟩ : BufTy).Contents (Elt F)),
    binary main_v21 main_arg1 main_v22 (mulf : (⟨S8x64x160x320, .f32⟩ : BufTy).Contents (Elt F) → (⟨S8x64x160x320, .f32⟩ : BufTy).Contents (Elt F) → (⟨S8x64x160x320, .f32⟩ : BufTy).Contents (Elt F)),
    nullary main_cst_7 (constant S_ .f32 0x00000000#32),
    binary main_v22 main_cst_7 main_v23 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_8 (constant S_ .f32 0x42800000#32),
    unary main_cst_8 main_v24 (broadcastInDim S8x160x320 ![] bcast_S_S8x160x320 : (⟨S_, .f32⟩ : BufTy).Contents (Elt F) → (⟨S8x160x320, .f32⟩ : BufTy).Contents (Elt F)),
    binary main_v23 main_v24 main_v25 (Host.divf : (⟨S8x160x320, .f32⟩ : BufTy).Contents (Elt F) → (⟨S8x160x320, .f32⟩ : BufTy).Contents (Elt F) → (⟨S8x160x320, .f32⟩ : BufTy).Contents (Elt F)),
    unary main_v0 main_v26 ((extractStridedSlice S8x64x160x320 ![0, 0, 1, 1] · slices_S8x64x168x328_S8x64x160x320_0_0_1_1) : (⟨S8x64x168x328, .f32⟩ : BufTy).Contents (Elt F) → (⟨S8x64x160x320, .f32⟩ : BufTy).Contents (Elt F)),
    binary main_v26 main_arg1 main_v27 (mulf : (⟨S8x64x160x320, .f32⟩ : BufTy).Contents (Elt F) → (⟨S8x64x160x320, .f32⟩ : BufTy).Contents (Elt F) → (⟨S8x64x160x320, .f32⟩ : BufTy).Contents (Elt F)),
    nullary main_cst_9 (constant S_ .f32 0x00000000#32),
    binary main_v27 main_cst_9 main_v28 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_10 (constant S_ .f32 0x42800000#32),
    unary main_cst_10 main_v29 (broadcastInDim S8x160x320 ![] bcast_S_S8x160x320 : (⟨S_, .f32⟩ : BufTy).Contents (Elt F) → (⟨S8x160x320, .f32⟩ : BufTy).Contents (Elt F)),
    binary main_v28 main_v29 main_v30 (Host.divf : (⟨S8x160x320, .f32⟩ : BufTy).Contents (Elt F) → (⟨S8x160x320, .f32⟩ : BufTy).Contents (Elt F) → (⟨S8x160x320, .f32⟩ : BufTy).Contents (Elt F)),
    unary main_v0 main_v31 ((extractStridedSlice S8x64x160x320 ![0, 0, 1, 3] · slices_S8x64x168x328_S8x64x160x320_0_0_1_3) : (⟨S8x64x168x328, .f32⟩ : BufTy).Contents (Elt F) → (⟨S8x64x160x320, .f32⟩ : BufTy).Contents (Elt F)),
    binary main_v31 main_arg1 main_v32 (mulf : (⟨S8x64x160x320, .f32⟩ : BufTy).Contents (Elt F) → (⟨S8x64x160x320, .f32⟩ : BufTy).Contents (Elt F) → (⟨S8x64x160x320, .f32⟩ : BufTy).Contents (Elt F)),
    nullary main_cst_11 (constant S_ .f32 0x00000000#32),
    binary main_v32 main_cst_11 main_v33 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_12 (constant S_ .f32 0x42800000#32),
    unary main_cst_12 main_v34 (broadcastInDim S8x160x320 ![] bcast_S_S8x160x320 : (⟨S_, .f32⟩ : BufTy).Contents (Elt F) → (⟨S8x160x320, .f32⟩ : BufTy).Contents (Elt F)),
    binary main_v33 main_v34 main_v35 (Host.divf : (⟨S8x160x320, .f32⟩ : BufTy).Contents (Elt F) → (⟨S8x160x320, .f32⟩ : BufTy).Contents (Elt F) → (⟨S8x160x320, .f32⟩ : BufTy).Contents (Elt F)),
    unary main_v0 main_v36 ((extractStridedSlice S8x64x160x320 ![0, 0, 1, 5] · slices_S8x64x168x328_S8x64x160x320_0_0_1_5) : (⟨S8x64x168x328, .f32⟩ : BufTy).Contents (Elt F) → (⟨S8x64x160x320, .f32⟩ : BufTy).Contents (Elt F)),
    binary main_v36 main_arg1 main_v37 (mulf : (⟨S8x64x160x320, .f32⟩ : BufTy).Contents (Elt F) → (⟨S8x64x160x320, .f32⟩ : BufTy).Contents (Elt F) → (⟨S8x64x160x320, .f32⟩ : BufTy).Contents (Elt F)),
    nullary main_cst_13 (constant S_ .f32 0x00000000#32),
    binary main_v37 main_cst_13 main_v38 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_14 (constant S_ .f32 0x42800000#32),
    unary main_cst_14 main_v39 (broadcastInDim S8x160x320 ![] bcast_S_S8x160x320 : (⟨S_, .f32⟩ : BufTy).Contents (Elt F) → (⟨S8x160x320, .f32⟩ : BufTy).Contents (Elt F)),
    binary main_v38 main_v39 main_v40 (Host.divf : (⟨S8x160x320, .f32⟩ : BufTy).Contents (Elt F) → (⟨S8x160x320, .f32⟩ : BufTy).Contents (Elt F) → (⟨S8x160x320, .f32⟩ : BufTy).Contents (Elt F)),
    unary main_v0 main_v41 ((extractStridedSlice S8x64x160x320 ![0, 0, 1, 7] · slices_S8x64x168x328_S8x64x160x320_0_0_1_7) : (⟨S8x64x168x328, .f32⟩ : BufTy).Contents (Elt F) → (⟨S8x64x160x320, .f32⟩ : BufTy).Contents (Elt F)),
    binary main_v41 main_arg1 main_v42 (mulf : (⟨S8x64x160x320, .f32⟩ : BufTy).Contents (Elt F) → (⟨S8x64x160x320, .f32⟩ : BufTy).Contents (Elt F) → (⟨S8x64x160x320, .f32⟩ : BufTy).Contents (Elt F)) ]

/-- The operations of statements window 1, in order. -/
abbrev W1 : List (HloOp τ sig (Elt F)) :=
  [ nullary main_cst_15 (constant S_ .f32 0x00000000#32),
    binary main_v42 main_cst_15 main_v43 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_16 (constant S_ .f32 0x42800000#32),
    unary main_cst_16 main_v44 (broadcastInDim S8x160x320 ![] bcast_S_S8x160x320 : (⟨S_, .f32⟩ : BufTy).Contents (Elt F) → (⟨S8x160x320, .f32⟩ : BufTy).Contents (Elt F)),
    binary main_v43 main_v44 main_v45 (Host.divf : (⟨S8x160x320, .f32⟩ : BufTy).Contents (Elt F) → (⟨S8x160x320, .f32⟩ : BufTy).Contents (Elt F) → (⟨S8x160x320, .f32⟩ : BufTy).Contents (Elt F)),
    unary main_v0 main_v46 ((extractStridedSlice S8x64x160x320 ![0, 0, 2, 0] · slices_S8x64x168x328_S8x64x160x320_0_0_2_0) : (⟨S8x64x168x328, .f32⟩ : BufTy).Contents (Elt F) → (⟨S8x64x160x320, .f32⟩ : BufTy).Contents (Elt F)),
    binary main_v46 main_arg1 main_v47 (mulf : (⟨S8x64x160x320, .f32⟩ : BufTy).Contents (Elt F) → (⟨S8x64x160x320, .f32⟩ : BufTy).Contents (Elt F) → (⟨S8x64x160x320, .f32⟩ : BufTy).Contents (Elt F)),
    nullary main_cst_17 (constant S_ .f32 0x00000000#32),
    binary main_v47 main_cst_17 main_v48 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_18 (constant S_ .f32 0x42800000#32),
    unary main_cst_18 main_v49 (broadcastInDim S8x160x320 ![] bcast_S_S8x160x320 : (⟨S_, .f32⟩ : BufTy).Contents (Elt F) → (⟨S8x160x320, .f32⟩ : BufTy).Contents (Elt F)),
    binary main_v48 main_v49 main_v50 (Host.divf : (⟨S8x160x320, .f32⟩ : BufTy).Contents (Elt F) → (⟨S8x160x320, .f32⟩ : BufTy).Contents (Elt F) → (⟨S8x160x320, .f32⟩ : BufTy).Contents (Elt F)),
    unary main_v0 main_v51 ((extractStridedSlice S8x64x160x320 ![0, 0, 2, 2] · slices_S8x64x168x328_S8x64x160x320_0_0_2_2) : (⟨S8x64x168x328, .f32⟩ : BufTy).Contents (Elt F) → (⟨S8x64x160x320, .f32⟩ : BufTy).Contents (Elt F)),
    binary main_v51 main_arg1 main_v52 (mulf : (⟨S8x64x160x320, .f32⟩ : BufTy).Contents (Elt F) → (⟨S8x64x160x320, .f32⟩ : BufTy).Contents (Elt F) → (⟨S8x64x160x320, .f32⟩ : BufTy).Contents (Elt F)),
    nullary main_cst_19 (constant S_ .f32 0x00000000#32),
    binary main_v52 main_cst_19 main_v53 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_20 (constant S_ .f32 0x42800000#32),
    unary main_cst_20 main_v54 (broadcastInDim S8x160x320 ![] bcast_S_S8x160x320 : (⟨S_, .f32⟩ : BufTy).Contents (Elt F) → (⟨S8x160x320, .f32⟩ : BufTy).Contents (Elt F)),
    binary main_v53 main_v54 main_v55 (Host.divf : (⟨S8x160x320, .f32⟩ : BufTy).Contents (Elt F) → (⟨S8x160x320, .f32⟩ : BufTy).Contents (Elt F) → (⟨S8x160x320, .f32⟩ : BufTy).Contents (Elt F)),
    unary main_v0 main_v56 ((extractStridedSlice S8x64x160x320 ![0, 0, 2, 3] · slices_S8x64x168x328_S8x64x160x320_0_0_2_3) : (⟨S8x64x168x328, .f32⟩ : BufTy).Contents (Elt F) → (⟨S8x64x160x320, .f32⟩ : BufTy).Contents (Elt F)),
    binary main_v56 main_arg1 main_v57 (mulf : (⟨S8x64x160x320, .f32⟩ : BufTy).Contents (Elt F) → (⟨S8x64x160x320, .f32⟩ : BufTy).Contents (Elt F) → (⟨S8x64x160x320, .f32⟩ : BufTy).Contents (Elt F)),
    nullary main_cst_21 (constant S_ .f32 0x00000000#32),
    binary main_v57 main_cst_21 main_v58 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_22 (constant S_ .f32 0x42800000#32),
    unary main_cst_22 main_v59 (broadcastInDim S8x160x320 ![] bcast_S_S8x160x320 : (⟨S_, .f32⟩ : BufTy).Contents (Elt F) → (⟨S8x160x320, .f32⟩ : BufTy).Contents (Elt F)),
    binary main_v58 main_v59 main_v60 (Host.divf : (⟨S8x160x320, .f32⟩ : BufTy).Contents (Elt F) → (⟨S8x160x320, .f32⟩ : BufTy).Contents (Elt F) → (⟨S8x160x320, .f32⟩ : BufTy).Contents (Elt F)),
    unary main_v0 main_v61 ((extractStridedSlice S8x64x160x320 ![0, 0, 2, 4] · slices_S8x64x168x328_S8x64x160x320_0_0_2_4) : (⟨S8x64x168x328, .f32⟩ : BufTy).Contents (Elt F) → (⟨S8x64x160x320, .f32⟩ : BufTy).Contents (Elt F)),
    binary main_v61 main_arg1 main_v62 (mulf : (⟨S8x64x160x320, .f32⟩ : BufTy).Contents (Elt F) → (⟨S8x64x160x320, .f32⟩ : BufTy).Contents (Elt F) → (⟨S8x64x160x320, .f32⟩ : BufTy).Contents (Elt F)),
    nullary main_cst_23 (constant S_ .f32 0x00000000#32),
    binary main_v62 main_cst_23 main_v63 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_24 (constant S_ .f32 0x42800000#32),
    unary main_cst_24 main_v64 (broadcastInDim S8x160x320 ![] bcast_S_S8x160x320 : (⟨S_, .f32⟩ : BufTy).Contents (Elt F) → (⟨S8x160x320, .f32⟩ : BufTy).Contents (Elt F)),
    binary main_v63 main_v64 main_v65 (Host.divf : (⟨S8x160x320, .f32⟩ : BufTy).Contents (Elt F) → (⟨S8x160x320, .f32⟩ : BufTy).Contents (Elt F) → (⟨S8x160x320, .f32⟩ : BufTy).Contents (Elt F)),
    unary main_v0 main_v66 ((extractStridedSlice S8x64x160x320 ![0, 0, 2, 5] · slices_S8x64x168x328_S8x64x160x320_0_0_2_5) : (⟨S8x64x168x328, .f32⟩ : BufTy).Contents (Elt F) → (⟨S8x64x160x320, .f32⟩ : BufTy).Contents (Elt F)),
    binary main_v66 main_arg1 main_v67 (mulf : (⟨S8x64x160x320, .f32⟩ : BufTy).Contents (Elt F) → (⟨S8x64x160x320, .f32⟩ : BufTy).Contents (Elt F) → (⟨S8x64x160x320, .f32⟩ : BufTy).Contents (Elt F)),
    nullary main_cst_25 (constant S_ .f32 0x00000000#32),
    binary main_v67 main_cst_25 main_v68 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_26 (constant S_ .f32 0x42800000#32),
    unary main_cst_26 main_v69 (broadcastInDim S8x160x320 ![] bcast_S_S8x160x320 : (⟨S_, .f32⟩ : BufTy).Contents (Elt F) → (⟨S8x160x320, .f32⟩ : BufTy).Contents (Elt F)),
    binary main_v68 main_v69 main_v70 (Host.divf : (⟨S8x160x320, .f32⟩ : BufTy).Contents (Elt F) → (⟨S8x160x320, .f32⟩ : BufTy).Contents (Elt F) → (⟨S8x160x320, .f32⟩ : BufTy).Contents (Elt F)),
    unary main_v0 main_v71 ((extractStridedSlice S8x64x160x320 ![0, 0, 2, 6] · slices_S8x64x168x328_S8x64x160x320_0_0_2_6) : (⟨S8x64x168x328, .f32⟩ : BufTy).Contents (Elt F) → (⟨S8x64x160x320, .f32⟩ : BufTy).Contents (Elt F)),
    binary main_v71 main_arg1 main_v72 (mulf : (⟨S8x64x160x320, .f32⟩ : BufTy).Contents (Elt F) → (⟨S8x64x160x320, .f32⟩ : BufTy).Contents (Elt F) → (⟨S8x64x160x320, .f32⟩ : BufTy).Contents (Elt F)),
    nullary main_cst_27 (constant S_ .f32 0x00000000#32),
    binary main_v72 main_cst_27 main_v73 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_28 (constant S_ .f32 0x42800000#32),
    unary main_cst_28 main_v74 (broadcastInDim S8x160x320 ![] bcast_S_S8x160x320 : (⟨S_, .f32⟩ : BufTy).Contents (Elt F) → (⟨S8x160x320, .f32⟩ : BufTy).Contents (Elt F)),
    binary main_v73 main_v74 main_v75 (Host.divf : (⟨S8x160x320, .f32⟩ : BufTy).Contents (Elt F) → (⟨S8x160x320, .f32⟩ : BufTy).Contents (Elt F) → (⟨S8x160x320, .f32⟩ : BufTy).Contents (Elt F)),
    unary main_v0 main_v76 ((extractStridedSlice S8x64x160x320 ![0, 0, 2, 8] · slices_S8x64x168x328_S8x64x160x320_0_0_2_8) : (⟨S8x64x168x328, .f32⟩ : BufTy).Contents (Elt F) → (⟨S8x64x160x320, .f32⟩ : BufTy).Contents (Elt F)),
    binary main_v76 main_arg1 main_v77 (mulf : (⟨S8x64x160x320, .f32⟩ : BufTy).Contents (Elt F) → (⟨S8x64x160x320, .f32⟩ : BufTy).Contents (Elt F) → (⟨S8x64x160x320, .f32⟩ : BufTy).Contents (Elt F)),
    nullary main_cst_29 (constant S_ .f32 0x00000000#32),
    binary main_v77 main_cst_29 main_v78 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_30 (constant S_ .f32 0x42800000#32),
    unary main_cst_30 main_v79 (broadcastInDim S8x160x320 ![] bcast_S_S8x160x320 : (⟨S_, .f32⟩ : BufTy).Contents (Elt F) → (⟨S8x160x320, .f32⟩ : BufTy).Contents (Elt F)),
    binary main_v78 main_v79 main_v80 (Host.divf : (⟨S8x160x320, .f32⟩ : BufTy).Contents (Elt F) → (⟨S8x160x320, .f32⟩ : BufTy).Contents (Elt F) → (⟨S8x160x320, .f32⟩ : BufTy).Contents (Elt F)),
    unary main_v0 main_v81 ((extractStridedSlice S8x64x160x320 ![0, 0, 3, 1] · slices_S8x64x168x328_S8x64x160x320_0_0_3_1) : (⟨S8x64x168x328, .f32⟩ : BufTy).Contents (Elt F) → (⟨S8x64x160x320, .f32⟩ : BufTy).Contents (Elt F)),
    binary main_v81 main_arg1 main_v82 (mulf : (⟨S8x64x160x320, .f32⟩ : BufTy).Contents (Elt F) → (⟨S8x64x160x320, .f32⟩ : BufTy).Contents (Elt F) → (⟨S8x64x160x320, .f32⟩ : BufTy).Contents (Elt F)),
    nullary main_cst_31 (constant S_ .f32 0x00000000#32),
    binary main_v82 main_cst_31 main_v83 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_32 (constant S_ .f32 0x42800000#32),
    unary main_cst_32 main_v84 (broadcastInDim S8x160x320 ![] bcast_S_S8x160x320 : (⟨S_, .f32⟩ : BufTy).Contents (Elt F) → (⟨S8x160x320, .f32⟩ : BufTy).Contents (Elt F)) ]

/-- The operations of statements window 2, in order. -/
abbrev W2 : List (HloOp τ sig (Elt F)) :=
  [ binary main_v83 main_v84 main_v85 (Host.divf : (⟨S8x160x320, .f32⟩ : BufTy).Contents (Elt F) → (⟨S8x160x320, .f32⟩ : BufTy).Contents (Elt F) → (⟨S8x160x320, .f32⟩ : BufTy).Contents (Elt F)),
    unary main_v0 main_v86 ((extractStridedSlice S8x64x160x320 ![0, 0, 3, 2] · slices_S8x64x168x328_S8x64x160x320_0_0_3_2) : (⟨S8x64x168x328, .f32⟩ : BufTy).Contents (Elt F) → (⟨S8x64x160x320, .f32⟩ : BufTy).Contents (Elt F)),
    binary main_v86 main_arg1 main_v87 (mulf : (⟨S8x64x160x320, .f32⟩ : BufTy).Contents (Elt F) → (⟨S8x64x160x320, .f32⟩ : BufTy).Contents (Elt F) → (⟨S8x64x160x320, .f32⟩ : BufTy).Contents (Elt F)),
    nullary main_cst_33 (constant S_ .f32 0x00000000#32),
    binary main_v87 main_cst_33 main_v88 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_34 (constant S_ .f32 0x42800000#32),
    unary main_cst_34 main_v89 (broadcastInDim S8x160x320 ![] bcast_S_S8x160x320 : (⟨S_, .f32⟩ : BufTy).Contents (Elt F) → (⟨S8x160x320, .f32⟩ : BufTy).Contents (Elt F)),
    binary main_v88 main_v89 main_v90 (Host.divf : (⟨S8x160x320, .f32⟩ : BufTy).Contents (Elt F) → (⟨S8x160x320, .f32⟩ : BufTy).Contents (Elt F) → (⟨S8x160x320, .f32⟩ : BufTy).Contents (Elt F)),
    unary main_v0 main_v91 ((extractStridedSlice S8x64x160x320 ![0, 0, 3, 3] · slices_S8x64x168x328_S8x64x160x320_0_0_3_3) : (⟨S8x64x168x328, .f32⟩ : BufTy).Contents (Elt F) → (⟨S8x64x160x320, .f32⟩ : BufTy).Contents (Elt F)),
    binary main_v91 main_arg1 main_v92 (mulf : (⟨S8x64x160x320, .f32⟩ : BufTy).Contents (Elt F) → (⟨S8x64x160x320, .f32⟩ : BufTy).Contents (Elt F) → (⟨S8x64x160x320, .f32⟩ : BufTy).Contents (Elt F)),
    nullary main_cst_35 (constant S_ .f32 0x00000000#32),
    binary main_v92 main_cst_35 main_v93 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_36 (constant S_ .f32 0x42800000#32),
    unary main_cst_36 main_v94 (broadcastInDim S8x160x320 ![] bcast_S_S8x160x320 : (⟨S_, .f32⟩ : BufTy).Contents (Elt F) → (⟨S8x160x320, .f32⟩ : BufTy).Contents (Elt F)),
    binary main_v93 main_v94 main_v95 (Host.divf : (⟨S8x160x320, .f32⟩ : BufTy).Contents (Elt F) → (⟨S8x160x320, .f32⟩ : BufTy).Contents (Elt F) → (⟨S8x160x320, .f32⟩ : BufTy).Contents (Elt F)),
    unary main_v0 main_v96 ((extractStridedSlice S8x64x160x320 ![0, 0, 3, 4] · slices_S8x64x168x328_S8x64x160x320_0_0_3_4) : (⟨S8x64x168x328, .f32⟩ : BufTy).Contents (Elt F) → (⟨S8x64x160x320, .f32⟩ : BufTy).Contents (Elt F)),
    binary main_v96 main_arg1 main_v97 (mulf : (⟨S8x64x160x320, .f32⟩ : BufTy).Contents (Elt F) → (⟨S8x64x160x320, .f32⟩ : BufTy).Contents (Elt F) → (⟨S8x64x160x320, .f32⟩ : BufTy).Contents (Elt F)),
    nullary main_cst_37 (constant S_ .f32 0x00000000#32),
    binary main_v97 main_cst_37 main_v98 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_38 (constant S_ .f32 0x42800000#32),
    unary main_cst_38 main_v99 (broadcastInDim S8x160x320 ![] bcast_S_S8x160x320 : (⟨S_, .f32⟩ : BufTy).Contents (Elt F) → (⟨S8x160x320, .f32⟩ : BufTy).Contents (Elt F)),
    binary main_v98 main_v99 main_v100 (Host.divf : (⟨S8x160x320, .f32⟩ : BufTy).Contents (Elt F) → (⟨S8x160x320, .f32⟩ : BufTy).Contents (Elt F) → (⟨S8x160x320, .f32⟩ : BufTy).Contents (Elt F)),
    unary main_v0 main_v101 ((extractStridedSlice S8x64x160x320 ![0, 0, 3, 5] · slices_S8x64x168x328_S8x64x160x320_0_0_3_5) : (⟨S8x64x168x328, .f32⟩ : BufTy).Contents (Elt F) → (⟨S8x64x160x320, .f32⟩ : BufTy).Contents (Elt F)),
    binary main_v101 main_arg1 main_v102 (mulf : (⟨S8x64x160x320, .f32⟩ : BufTy).Contents (Elt F) → (⟨S8x64x160x320, .f32⟩ : BufTy).Contents (Elt F) → (⟨S8x64x160x320, .f32⟩ : BufTy).Contents (Elt F)),
    nullary main_cst_39 (constant S_ .f32 0x00000000#32),
    binary main_v102 main_cst_39 main_v103 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_40 (constant S_ .f32 0x42800000#32),
    unary main_cst_40 main_v104 (broadcastInDim S8x160x320 ![] bcast_S_S8x160x320 : (⟨S_, .f32⟩ : BufTy).Contents (Elt F) → (⟨S8x160x320, .f32⟩ : BufTy).Contents (Elt F)),
    binary main_v103 main_v104 main_v105 (Host.divf : (⟨S8x160x320, .f32⟩ : BufTy).Contents (Elt F) → (⟨S8x160x320, .f32⟩ : BufTy).Contents (Elt F) → (⟨S8x160x320, .f32⟩ : BufTy).Contents (Elt F)),
    unary main_v0 main_v106 ((extractStridedSlice S8x64x160x320 ![0, 0, 3, 6] · slices_S8x64x168x328_S8x64x160x320_0_0_3_6) : (⟨S8x64x168x328, .f32⟩ : BufTy).Contents (Elt F) → (⟨S8x64x160x320, .f32⟩ : BufTy).Contents (Elt F)),
    binary main_v106 main_arg1 main_v107 (mulf : (⟨S8x64x160x320, .f32⟩ : BufTy).Contents (Elt F) → (⟨S8x64x160x320, .f32⟩ : BufTy).Contents (Elt F) → (⟨S8x64x160x320, .f32⟩ : BufTy).Contents (Elt F)),
    nullary main_cst_41 (constant S_ .f32 0x00000000#32),
    binary main_v107 main_cst_41 main_v108 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_42 (constant S_ .f32 0x42800000#32),
    unary main_cst_42 main_v109 (broadcastInDim S8x160x320 ![] bcast_S_S8x160x320 : (⟨S_, .f32⟩ : BufTy).Contents (Elt F) → (⟨S8x160x320, .f32⟩ : BufTy).Contents (Elt F)),
    binary main_v108 main_v109 main_v110 (Host.divf : (⟨S8x160x320, .f32⟩ : BufTy).Contents (Elt F) → (⟨S8x160x320, .f32⟩ : BufTy).Contents (Elt F) → (⟨S8x160x320, .f32⟩ : BufTy).Contents (Elt F)),
    unary main_v0 main_v111 ((extractStridedSlice S8x64x160x320 ![0, 0, 3, 7] · slices_S8x64x168x328_S8x64x160x320_0_0_3_7) : (⟨S8x64x168x328, .f32⟩ : BufTy).Contents (Elt F) → (⟨S8x64x160x320, .f32⟩ : BufTy).Contents (Elt F)),
    binary main_v111 main_arg1 main_v112 (mulf : (⟨S8x64x160x320, .f32⟩ : BufTy).Contents (Elt F) → (⟨S8x64x160x320, .f32⟩ : BufTy).Contents (Elt F) → (⟨S8x64x160x320, .f32⟩ : BufTy).Contents (Elt F)),
    nullary main_cst_43 (constant S_ .f32 0x00000000#32),
    binary main_v112 main_cst_43 main_v113 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_44 (constant S_ .f32 0x42800000#32),
    unary main_cst_44 main_v114 (broadcastInDim S8x160x320 ![] bcast_S_S8x160x320 : (⟨S_, .f32⟩ : BufTy).Contents (Elt F) → (⟨S8x160x320, .f32⟩ : BufTy).Contents (Elt F)),
    binary main_v113 main_v114 main_v115 (Host.divf : (⟨S8x160x320, .f32⟩ : BufTy).Contents (Elt F) → (⟨S8x160x320, .f32⟩ : BufTy).Contents (Elt F) → (⟨S8x160x320, .f32⟩ : BufTy).Contents (Elt F)),
    unary main_v0 main_v116 ((extractStridedSlice S8x64x160x320 ![0, 0, 4, 0] · slices_S8x64x168x328_S8x64x160x320_0_0_4_0) : (⟨S8x64x168x328, .f32⟩ : BufTy).Contents (Elt F) → (⟨S8x64x160x320, .f32⟩ : BufTy).Contents (Elt F)),
    binary main_v116 main_arg1 main_v117 (mulf : (⟨S8x64x160x320, .f32⟩ : BufTy).Contents (Elt F) → (⟨S8x64x160x320, .f32⟩ : BufTy).Contents (Elt F) → (⟨S8x64x160x320, .f32⟩ : BufTy).Contents (Elt F)),
    nullary main_cst_45 (constant S_ .f32 0x00000000#32),
    binary main_v117 main_cst_45 main_v118 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_46 (constant S_ .f32 0x42800000#32),
    unary main_cst_46 main_v119 (broadcastInDim S8x160x320 ![] bcast_S_S8x160x320 : (⟨S_, .f32⟩ : BufTy).Contents (Elt F) → (⟨S8x160x320, .f32⟩ : BufTy).Contents (Elt F)),
    binary main_v118 main_v119 main_v120 (Host.divf : (⟨S8x160x320, .f32⟩ : BufTy).Contents (Elt F) → (⟨S8x160x320, .f32⟩ : BufTy).Contents (Elt F) → (⟨S8x160x320, .f32⟩ : BufTy).Contents (Elt F)),
    unary main_v0 main_v121 ((extractStridedSlice S8x64x160x320 ![0, 0, 4, 2] · slices_S8x64x168x328_S8x64x160x320_0_0_4_2) : (⟨S8x64x168x328, .f32⟩ : BufTy).Contents (Elt F) → (⟨S8x64x160x320, .f32⟩ : BufTy).Contents (Elt F)),
    binary main_v121 main_arg1 main_v122 (mulf : (⟨S8x64x160x320, .f32⟩ : BufTy).Contents (Elt F) → (⟨S8x64x160x320, .f32⟩ : BufTy).Contents (Elt F) → (⟨S8x64x160x320, .f32⟩ : BufTy).Contents (Elt F)),
    nullary main_cst_47 (constant S_ .f32 0x00000000#32),
    binary main_v122 main_cst_47 main_v123 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_48 (constant S_ .f32 0x42800000#32),
    unary main_cst_48 main_v124 (broadcastInDim S8x160x320 ![] bcast_S_S8x160x320 : (⟨S_, .f32⟩ : BufTy).Contents (Elt F) → (⟨S8x160x320, .f32⟩ : BufTy).Contents (Elt F)),
    binary main_v123 main_v124 main_v125 (Host.divf : (⟨S8x160x320, .f32⟩ : BufTy).Contents (Elt F) → (⟨S8x160x320, .f32⟩ : BufTy).Contents (Elt F) → (⟨S8x160x320, .f32⟩ : BufTy).Contents (Elt F)),
    unary main_v0 main_v126 ((extractStridedSlice S8x64x160x320 ![0, 0, 4, 3] · slices_S8x64x168x328_S8x64x160x320_0_0_4_3) : (⟨S8x64x168x328, .f32⟩ : BufTy).Contents (Elt F) → (⟨S8x64x160x320, .f32⟩ : BufTy).Contents (Elt F)),
    binary main_v126 main_arg1 main_v127 (mulf : (⟨S8x64x160x320, .f32⟩ : BufTy).Contents (Elt F) → (⟨S8x64x160x320, .f32⟩ : BufTy).Contents (Elt F) → (⟨S8x64x160x320, .f32⟩ : BufTy).Contents (Elt F)),
    nullary main_cst_49 (constant S_ .f32 0x00000000#32) ]

/-- The operations of statements window 3, in order. -/
abbrev W3 : List (HloOp τ sig (Elt F)) :=
  [ binary main_v127 main_cst_49 main_v128 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_50 (constant S_ .f32 0x42800000#32),
    unary main_cst_50 main_v129 (broadcastInDim S8x160x320 ![] bcast_S_S8x160x320 : (⟨S_, .f32⟩ : BufTy).Contents (Elt F) → (⟨S8x160x320, .f32⟩ : BufTy).Contents (Elt F)),
    binary main_v128 main_v129 main_v130 (Host.divf : (⟨S8x160x320, .f32⟩ : BufTy).Contents (Elt F) → (⟨S8x160x320, .f32⟩ : BufTy).Contents (Elt F) → (⟨S8x160x320, .f32⟩ : BufTy).Contents (Elt F)),
    unary main_v0 main_v131 ((extractStridedSlice S8x64x160x320 ![0, 0, 4, 4] · slices_S8x64x168x328_S8x64x160x320_0_0_4_4) : (⟨S8x64x168x328, .f32⟩ : BufTy).Contents (Elt F) → (⟨S8x64x160x320, .f32⟩ : BufTy).Contents (Elt F)),
    binary main_v131 main_arg1 main_v132 (mulf : (⟨S8x64x160x320, .f32⟩ : BufTy).Contents (Elt F) → (⟨S8x64x160x320, .f32⟩ : BufTy).Contents (Elt F) → (⟨S8x64x160x320, .f32⟩ : BufTy).Contents (Elt F)),
    nullary main_cst_51 (constant S_ .f32 0x00000000#32),
    binary main_v132 main_cst_51 main_v133 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_52 (constant S_ .f32 0x42800000#32),
    unary main_cst_52 main_v134 (broadcastInDim S8x160x320 ![] bcast_S_S8x160x320 : (⟨S_, .f32⟩ : BufTy).Contents (Elt F) → (⟨S8x160x320, .f32⟩ : BufTy).Contents (Elt F)),
    binary main_v133 main_v134 main_v135 (Host.divf : (⟨S8x160x320, .f32⟩ : BufTy).Contents (Elt F) → (⟨S8x160x320, .f32⟩ : BufTy).Contents (Elt F) → (⟨S8x160x320, .f32⟩ : BufTy).Contents (Elt F)),
    unary main_v0 main_v136 ((extractStridedSlice S8x64x160x320 ![0, 0, 4, 5] · slices_S8x64x168x328_S8x64x160x320_0_0_4_5) : (⟨S8x64x168x328, .f32⟩ : BufTy).Contents (Elt F) → (⟨S8x64x160x320, .f32⟩ : BufTy).Contents (Elt F)),
    binary main_v136 main_arg1 main_v137 (mulf : (⟨S8x64x160x320, .f32⟩ : BufTy).Contents (Elt F) → (⟨S8x64x160x320, .f32⟩ : BufTy).Contents (Elt F) → (⟨S8x64x160x320, .f32⟩ : BufTy).Contents (Elt F)),
    nullary main_cst_53 (constant S_ .f32 0x00000000#32),
    binary main_v137 main_cst_53 main_v138 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_54 (constant S_ .f32 0x42800000#32),
    unary main_cst_54 main_v139 (broadcastInDim S8x160x320 ![] bcast_S_S8x160x320 : (⟨S_, .f32⟩ : BufTy).Contents (Elt F) → (⟨S8x160x320, .f32⟩ : BufTy).Contents (Elt F)),
    binary main_v138 main_v139 main_v140 (Host.divf : (⟨S8x160x320, .f32⟩ : BufTy).Contents (Elt F) → (⟨S8x160x320, .f32⟩ : BufTy).Contents (Elt F) → (⟨S8x160x320, .f32⟩ : BufTy).Contents (Elt F)),
    unary main_v0 main_v141 ((extractStridedSlice S8x64x160x320 ![0, 0, 4, 6] · slices_S8x64x168x328_S8x64x160x320_0_0_4_6) : (⟨S8x64x168x328, .f32⟩ : BufTy).Contents (Elt F) → (⟨S8x64x160x320, .f32⟩ : BufTy).Contents (Elt F)),
    binary main_v141 main_arg1 main_v142 (mulf : (⟨S8x64x160x320, .f32⟩ : BufTy).Contents (Elt F) → (⟨S8x64x160x320, .f32⟩ : BufTy).Contents (Elt F) → (⟨S8x64x160x320, .f32⟩ : BufTy).Contents (Elt F)),
    nullary main_cst_55 (constant S_ .f32 0x00000000#32),
    binary main_v142 main_cst_55 main_v143 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_56 (constant S_ .f32 0x42800000#32),
    unary main_cst_56 main_v144 (broadcastInDim S8x160x320 ![] bcast_S_S8x160x320 : (⟨S_, .f32⟩ : BufTy).Contents (Elt F) → (⟨S8x160x320, .f32⟩ : BufTy).Contents (Elt F)),
    binary main_v143 main_v144 main_v145 (Host.divf : (⟨S8x160x320, .f32⟩ : BufTy).Contents (Elt F) → (⟨S8x160x320, .f32⟩ : BufTy).Contents (Elt F) → (⟨S8x160x320, .f32⟩ : BufTy).Contents (Elt F)),
    unary main_v0 main_v146 ((extractStridedSlice S8x64x160x320 ![0, 0, 4, 8] · slices_S8x64x168x328_S8x64x160x320_0_0_4_8) : (⟨S8x64x168x328, .f32⟩ : BufTy).Contents (Elt F) → (⟨S8x64x160x320, .f32⟩ : BufTy).Contents (Elt F)),
    binary main_v146 main_arg1 main_v147 (mulf : (⟨S8x64x160x320, .f32⟩ : BufTy).Contents (Elt F) → (⟨S8x64x160x320, .f32⟩ : BufTy).Contents (Elt F) → (⟨S8x64x160x320, .f32⟩ : BufTy).Contents (Elt F)),
    nullary main_cst_57 (constant S_ .f32 0x00000000#32),
    binary main_v147 main_cst_57 main_v148 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_58 (constant S_ .f32 0x42800000#32),
    unary main_cst_58 main_v149 (broadcastInDim S8x160x320 ![] bcast_S_S8x160x320 : (⟨S_, .f32⟩ : BufTy).Contents (Elt F) → (⟨S8x160x320, .f32⟩ : BufTy).Contents (Elt F)),
    binary main_v148 main_v149 main_v150 (Host.divf : (⟨S8x160x320, .f32⟩ : BufTy).Contents (Elt F) → (⟨S8x160x320, .f32⟩ : BufTy).Contents (Elt F) → (⟨S8x160x320, .f32⟩ : BufTy).Contents (Elt F)),
    unary main_v0 main_v151 ((extractStridedSlice S8x64x160x320 ![0, 0, 5, 1] · slices_S8x64x168x328_S8x64x160x320_0_0_5_1) : (⟨S8x64x168x328, .f32⟩ : BufTy).Contents (Elt F) → (⟨S8x64x160x320, .f32⟩ : BufTy).Contents (Elt F)),
    binary main_v151 main_arg1 main_v152 (mulf : (⟨S8x64x160x320, .f32⟩ : BufTy).Contents (Elt F) → (⟨S8x64x160x320, .f32⟩ : BufTy).Contents (Elt F) → (⟨S8x64x160x320, .f32⟩ : BufTy).Contents (Elt F)),
    nullary main_cst_59 (constant S_ .f32 0x00000000#32),
    binary main_v152 main_cst_59 main_v153 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_60 (constant S_ .f32 0x42800000#32),
    unary main_cst_60 main_v154 (broadcastInDim S8x160x320 ![] bcast_S_S8x160x320 : (⟨S_, .f32⟩ : BufTy).Contents (Elt F) → (⟨S8x160x320, .f32⟩ : BufTy).Contents (Elt F)),
    binary main_v153 main_v154 main_v155 (Host.divf : (⟨S8x160x320, .f32⟩ : BufTy).Contents (Elt F) → (⟨S8x160x320, .f32⟩ : BufTy).Contents (Elt F) → (⟨S8x160x320, .f32⟩ : BufTy).Contents (Elt F)),
    unary main_v0 main_v156 ((extractStridedSlice S8x64x160x320 ![0, 0, 5, 2] · slices_S8x64x168x328_S8x64x160x320_0_0_5_2) : (⟨S8x64x168x328, .f32⟩ : BufTy).Contents (Elt F) → (⟨S8x64x160x320, .f32⟩ : BufTy).Contents (Elt F)),
    binary main_v156 main_arg1 main_v157 (mulf : (⟨S8x64x160x320, .f32⟩ : BufTy).Contents (Elt F) → (⟨S8x64x160x320, .f32⟩ : BufTy).Contents (Elt F) → (⟨S8x64x160x320, .f32⟩ : BufTy).Contents (Elt F)),
    nullary main_cst_61 (constant S_ .f32 0x00000000#32),
    binary main_v157 main_cst_61 main_v158 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_62 (constant S_ .f32 0x42800000#32),
    unary main_cst_62 main_v159 (broadcastInDim S8x160x320 ![] bcast_S_S8x160x320 : (⟨S_, .f32⟩ : BufTy).Contents (Elt F) → (⟨S8x160x320, .f32⟩ : BufTy).Contents (Elt F)),
    binary main_v158 main_v159 main_v160 (Host.divf : (⟨S8x160x320, .f32⟩ : BufTy).Contents (Elt F) → (⟨S8x160x320, .f32⟩ : BufTy).Contents (Elt F) → (⟨S8x160x320, .f32⟩ : BufTy).Contents (Elt F)),
    unary main_v0 main_v161 ((extractStridedSlice S8x64x160x320 ![0, 0, 5, 3] · slices_S8x64x168x328_S8x64x160x320_0_0_5_3) : (⟨S8x64x168x328, .f32⟩ : BufTy).Contents (Elt F) → (⟨S8x64x160x320, .f32⟩ : BufTy).Contents (Elt F)),
    binary main_v161 main_arg1 main_v162 (mulf : (⟨S8x64x160x320, .f32⟩ : BufTy).Contents (Elt F) → (⟨S8x64x160x320, .f32⟩ : BufTy).Contents (Elt F) → (⟨S8x64x160x320, .f32⟩ : BufTy).Contents (Elt F)),
    nullary main_cst_63 (constant S_ .f32 0x00000000#32),
    binary main_v162 main_cst_63 main_v163 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_64 (constant S_ .f32 0x42800000#32),
    unary main_cst_64 main_v164 (broadcastInDim S8x160x320 ![] bcast_S_S8x160x320 : (⟨S_, .f32⟩ : BufTy).Contents (Elt F) → (⟨S8x160x320, .f32⟩ : BufTy).Contents (Elt F)),
    binary main_v163 main_v164 main_v165 (Host.divf : (⟨S8x160x320, .f32⟩ : BufTy).Contents (Elt F) → (⟨S8x160x320, .f32⟩ : BufTy).Contents (Elt F) → (⟨S8x160x320, .f32⟩ : BufTy).Contents (Elt F)),
    unary main_v0 main_v166 ((extractStridedSlice S8x64x160x320 ![0, 0, 5, 4] · slices_S8x64x168x328_S8x64x160x320_0_0_5_4) : (⟨S8x64x168x328, .f32⟩ : BufTy).Contents (Elt F) → (⟨S8x64x160x320, .f32⟩ : BufTy).Contents (Elt F)),
    binary main_v166 main_arg1 main_v167 (mulf : (⟨S8x64x160x320, .f32⟩ : BufTy).Contents (Elt F) → (⟨S8x64x160x320, .f32⟩ : BufTy).Contents (Elt F) → (⟨S8x64x160x320, .f32⟩ : BufTy).Contents (Elt F)),
    nullary main_cst_65 (constant S_ .f32 0x00000000#32),
    binary main_v167 main_cst_65 main_v168 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_66 (constant S_ .f32 0x42800000#32),
    unary main_cst_66 main_v169 (broadcastInDim S8x160x320 ![] bcast_S_S8x160x320 : (⟨S_, .f32⟩ : BufTy).Contents (Elt F) → (⟨S8x160x320, .f32⟩ : BufTy).Contents (Elt F)),
    binary main_v168 main_v169 main_v170 (Host.divf : (⟨S8x160x320, .f32⟩ : BufTy).Contents (Elt F) → (⟨S8x160x320, .f32⟩ : BufTy).Contents (Elt F) → (⟨S8x160x320, .f32⟩ : BufTy).Contents (Elt F)) ]

/-- The operations of statements window 4, in order. -/
abbrev W4 : List (HloOp τ sig (Elt F)) :=
  [ unary main_v0 main_v171 ((extractStridedSlice S8x64x160x320 ![0, 0, 5, 5] · slices_S8x64x168x328_S8x64x160x320_0_0_5_5) : (⟨S8x64x168x328, .f32⟩ : BufTy).Contents (Elt F) → (⟨S8x64x160x320, .f32⟩ : BufTy).Contents (Elt F)),
    binary main_v171 main_arg1 main_v172 (mulf : (⟨S8x64x160x320, .f32⟩ : BufTy).Contents (Elt F) → (⟨S8x64x160x320, .f32⟩ : BufTy).Contents (Elt F) → (⟨S8x64x160x320, .f32⟩ : BufTy).Contents (Elt F)),
    nullary main_cst_67 (constant S_ .f32 0x00000000#32),
    binary main_v172 main_cst_67 main_v173 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_68 (constant S_ .f32 0x42800000#32),
    unary main_cst_68 main_v174 (broadcastInDim S8x160x320 ![] bcast_S_S8x160x320 : (⟨S_, .f32⟩ : BufTy).Contents (Elt F) → (⟨S8x160x320, .f32⟩ : BufTy).Contents (Elt F)),
    binary main_v173 main_v174 main_v175 (Host.divf : (⟨S8x160x320, .f32⟩ : BufTy).Contents (Elt F) → (⟨S8x160x320, .f32⟩ : BufTy).Contents (Elt F) → (⟨S8x160x320, .f32⟩ : BufTy).Contents (Elt F)),
    unary main_v0 main_v176 ((extractStridedSlice S8x64x160x320 ![0, 0, 5, 6] · slices_S8x64x168x328_S8x64x160x320_0_0_5_6) : (⟨S8x64x168x328, .f32⟩ : BufTy).Contents (Elt F) → (⟨S8x64x160x320, .f32⟩ : BufTy).Contents (Elt F)),
    binary main_v176 main_arg1 main_v177 (mulf : (⟨S8x64x160x320, .f32⟩ : BufTy).Contents (Elt F) → (⟨S8x64x160x320, .f32⟩ : BufTy).Contents (Elt F) → (⟨S8x64x160x320, .f32⟩ : BufTy).Contents (Elt F)),
    nullary main_cst_69 (constant S_ .f32 0x00000000#32),
    binary main_v177 main_cst_69 main_v178 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_70 (constant S_ .f32 0x42800000#32),
    unary main_cst_70 main_v179 (broadcastInDim S8x160x320 ![] bcast_S_S8x160x320 : (⟨S_, .f32⟩ : BufTy).Contents (Elt F) → (⟨S8x160x320, .f32⟩ : BufTy).Contents (Elt F)),
    binary main_v178 main_v179 main_v180 (Host.divf : (⟨S8x160x320, .f32⟩ : BufTy).Contents (Elt F) → (⟨S8x160x320, .f32⟩ : BufTy).Contents (Elt F) → (⟨S8x160x320, .f32⟩ : BufTy).Contents (Elt F)),
    unary main_v0 main_v181 ((extractStridedSlice S8x64x160x320 ![0, 0, 5, 7] · slices_S8x64x168x328_S8x64x160x320_0_0_5_7) : (⟨S8x64x168x328, .f32⟩ : BufTy).Contents (Elt F) → (⟨S8x64x160x320, .f32⟩ : BufTy).Contents (Elt F)),
    binary main_v181 main_arg1 main_v182 (mulf : (⟨S8x64x160x320, .f32⟩ : BufTy).Contents (Elt F) → (⟨S8x64x160x320, .f32⟩ : BufTy).Contents (Elt F) → (⟨S8x64x160x320, .f32⟩ : BufTy).Contents (Elt F)),
    nullary main_cst_71 (constant S_ .f32 0x00000000#32),
    binary main_v182 main_cst_71 main_v183 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_72 (constant S_ .f32 0x42800000#32),
    unary main_cst_72 main_v184 (broadcastInDim S8x160x320 ![] bcast_S_S8x160x320 : (⟨S_, .f32⟩ : BufTy).Contents (Elt F) → (⟨S8x160x320, .f32⟩ : BufTy).Contents (Elt F)),
    binary main_v183 main_v184 main_v185 (Host.divf : (⟨S8x160x320, .f32⟩ : BufTy).Contents (Elt F) → (⟨S8x160x320, .f32⟩ : BufTy).Contents (Elt F) → (⟨S8x160x320, .f32⟩ : BufTy).Contents (Elt F)),
    unary main_v0 main_v186 ((extractStridedSlice S8x64x160x320 ![0, 0, 6, 0] · slices_S8x64x168x328_S8x64x160x320_0_0_6_0) : (⟨S8x64x168x328, .f32⟩ : BufTy).Contents (Elt F) → (⟨S8x64x160x320, .f32⟩ : BufTy).Contents (Elt F)),
    binary main_v186 main_arg1 main_v187 (mulf : (⟨S8x64x160x320, .f32⟩ : BufTy).Contents (Elt F) → (⟨S8x64x160x320, .f32⟩ : BufTy).Contents (Elt F) → (⟨S8x64x160x320, .f32⟩ : BufTy).Contents (Elt F)),
    nullary main_cst_73 (constant S_ .f32 0x00000000#32),
    binary main_v187 main_cst_73 main_v188 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_74 (constant S_ .f32 0x42800000#32),
    unary main_cst_74 main_v189 (broadcastInDim S8x160x320 ![] bcast_S_S8x160x320 : (⟨S_, .f32⟩ : BufTy).Contents (Elt F) → (⟨S8x160x320, .f32⟩ : BufTy).Contents (Elt F)),
    binary main_v188 main_v189 main_v190 (Host.divf : (⟨S8x160x320, .f32⟩ : BufTy).Contents (Elt F) → (⟨S8x160x320, .f32⟩ : BufTy).Contents (Elt F) → (⟨S8x160x320, .f32⟩ : BufTy).Contents (Elt F)),
    unary main_v0 main_v191 ((extractStridedSlice S8x64x160x320 ![0, 0, 6, 2] · slices_S8x64x168x328_S8x64x160x320_0_0_6_2) : (⟨S8x64x168x328, .f32⟩ : BufTy).Contents (Elt F) → (⟨S8x64x160x320, .f32⟩ : BufTy).Contents (Elt F)),
    binary main_v191 main_arg1 main_v192 (mulf : (⟨S8x64x160x320, .f32⟩ : BufTy).Contents (Elt F) → (⟨S8x64x160x320, .f32⟩ : BufTy).Contents (Elt F) → (⟨S8x64x160x320, .f32⟩ : BufTy).Contents (Elt F)),
    nullary main_cst_75 (constant S_ .f32 0x00000000#32),
    binary main_v192 main_cst_75 main_v193 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_76 (constant S_ .f32 0x42800000#32),
    unary main_cst_76 main_v194 (broadcastInDim S8x160x320 ![] bcast_S_S8x160x320 : (⟨S_, .f32⟩ : BufTy).Contents (Elt F) → (⟨S8x160x320, .f32⟩ : BufTy).Contents (Elt F)),
    binary main_v193 main_v194 main_v195 (Host.divf : (⟨S8x160x320, .f32⟩ : BufTy).Contents (Elt F) → (⟨S8x160x320, .f32⟩ : BufTy).Contents (Elt F) → (⟨S8x160x320, .f32⟩ : BufTy).Contents (Elt F)),
    unary main_v0 main_v196 ((extractStridedSlice S8x64x160x320 ![0, 0, 6, 3] · slices_S8x64x168x328_S8x64x160x320_0_0_6_3) : (⟨S8x64x168x328, .f32⟩ : BufTy).Contents (Elt F) → (⟨S8x64x160x320, .f32⟩ : BufTy).Contents (Elt F)),
    binary main_v196 main_arg1 main_v197 (mulf : (⟨S8x64x160x320, .f32⟩ : BufTy).Contents (Elt F) → (⟨S8x64x160x320, .f32⟩ : BufTy).Contents (Elt F) → (⟨S8x64x160x320, .f32⟩ : BufTy).Contents (Elt F)),
    nullary main_cst_77 (constant S_ .f32 0x00000000#32),
    binary main_v197 main_cst_77 main_v198 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_78 (constant S_ .f32 0x42800000#32),
    unary main_cst_78 main_v199 (broadcastInDim S8x160x320 ![] bcast_S_S8x160x320 : (⟨S_, .f32⟩ : BufTy).Contents (Elt F) → (⟨S8x160x320, .f32⟩ : BufTy).Contents (Elt F)),
    binary main_v198 main_v199 main_v200 (Host.divf : (⟨S8x160x320, .f32⟩ : BufTy).Contents (Elt F) → (⟨S8x160x320, .f32⟩ : BufTy).Contents (Elt F) → (⟨S8x160x320, .f32⟩ : BufTy).Contents (Elt F)),
    unary main_v0 main_v201 ((extractStridedSlice S8x64x160x320 ![0, 0, 6, 4] · slices_S8x64x168x328_S8x64x160x320_0_0_6_4) : (⟨S8x64x168x328, .f32⟩ : BufTy).Contents (Elt F) → (⟨S8x64x160x320, .f32⟩ : BufTy).Contents (Elt F)),
    binary main_v201 main_arg1 main_v202 (mulf : (⟨S8x64x160x320, .f32⟩ : BufTy).Contents (Elt F) → (⟨S8x64x160x320, .f32⟩ : BufTy).Contents (Elt F) → (⟨S8x64x160x320, .f32⟩ : BufTy).Contents (Elt F)),
    nullary main_cst_79 (constant S_ .f32 0x00000000#32),
    binary main_v202 main_cst_79 main_v203 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_80 (constant S_ .f32 0x42800000#32),
    unary main_cst_80 main_v204 (broadcastInDim S8x160x320 ![] bcast_S_S8x160x320 : (⟨S_, .f32⟩ : BufTy).Contents (Elt F) → (⟨S8x160x320, .f32⟩ : BufTy).Contents (Elt F)),
    binary main_v203 main_v204 main_v205 (Host.divf : (⟨S8x160x320, .f32⟩ : BufTy).Contents (Elt F) → (⟨S8x160x320, .f32⟩ : BufTy).Contents (Elt F) → (⟨S8x160x320, .f32⟩ : BufTy).Contents (Elt F)),
    unary main_v0 main_v206 ((extractStridedSlice S8x64x160x320 ![0, 0, 6, 5] · slices_S8x64x168x328_S8x64x160x320_0_0_6_5) : (⟨S8x64x168x328, .f32⟩ : BufTy).Contents (Elt F) → (⟨S8x64x160x320, .f32⟩ : BufTy).Contents (Elt F)),
    binary main_v206 main_arg1 main_v207 (mulf : (⟨S8x64x160x320, .f32⟩ : BufTy).Contents (Elt F) → (⟨S8x64x160x320, .f32⟩ : BufTy).Contents (Elt F) → (⟨S8x64x160x320, .f32⟩ : BufTy).Contents (Elt F)),
    nullary main_cst_81 (constant S_ .f32 0x00000000#32),
    binary main_v207 main_cst_81 main_v208 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_82 (constant S_ .f32 0x42800000#32),
    unary main_cst_82 main_v209 (broadcastInDim S8x160x320 ![] bcast_S_S8x160x320 : (⟨S_, .f32⟩ : BufTy).Contents (Elt F) → (⟨S8x160x320, .f32⟩ : BufTy).Contents (Elt F)),
    binary main_v208 main_v209 main_v210 (Host.divf : (⟨S8x160x320, .f32⟩ : BufTy).Contents (Elt F) → (⟨S8x160x320, .f32⟩ : BufTy).Contents (Elt F) → (⟨S8x160x320, .f32⟩ : BufTy).Contents (Elt F)),
    unary main_v0 main_v211 ((extractStridedSlice S8x64x160x320 ![0, 0, 6, 6] · slices_S8x64x168x328_S8x64x160x320_0_0_6_6) : (⟨S8x64x168x328, .f32⟩ : BufTy).Contents (Elt F) → (⟨S8x64x160x320, .f32⟩ : BufTy).Contents (Elt F)),
    binary main_v211 main_arg1 main_v212 (mulf : (⟨S8x64x160x320, .f32⟩ : BufTy).Contents (Elt F) → (⟨S8x64x160x320, .f32⟩ : BufTy).Contents (Elt F) → (⟨S8x64x160x320, .f32⟩ : BufTy).Contents (Elt F)),
    nullary main_cst_83 (constant S_ .f32 0x00000000#32),
    binary main_v212 main_cst_83 main_v213 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)) ]

/-- The operations of statements window 5, in order. -/
abbrev W5 : List (HloOp τ sig (Elt F)) :=
  [ nullary main_cst_84 (constant S_ .f32 0x42800000#32),
    unary main_cst_84 main_v214 (broadcastInDim S8x160x320 ![] bcast_S_S8x160x320 : (⟨S_, .f32⟩ : BufTy).Contents (Elt F) → (⟨S8x160x320, .f32⟩ : BufTy).Contents (Elt F)),
    binary main_v213 main_v214 main_v215 (Host.divf : (⟨S8x160x320, .f32⟩ : BufTy).Contents (Elt F) → (⟨S8x160x320, .f32⟩ : BufTy).Contents (Elt F) → (⟨S8x160x320, .f32⟩ : BufTy).Contents (Elt F)),
    unary main_v0 main_v216 ((extractStridedSlice S8x64x160x320 ![0, 0, 6, 8] · slices_S8x64x168x328_S8x64x160x320_0_0_6_8) : (⟨S8x64x168x328, .f32⟩ : BufTy).Contents (Elt F) → (⟨S8x64x160x320, .f32⟩ : BufTy).Contents (Elt F)),
    binary main_v216 main_arg1 main_v217 (mulf : (⟨S8x64x160x320, .f32⟩ : BufTy).Contents (Elt F) → (⟨S8x64x160x320, .f32⟩ : BufTy).Contents (Elt F) → (⟨S8x64x160x320, .f32⟩ : BufTy).Contents (Elt F)),
    nullary main_cst_85 (constant S_ .f32 0x00000000#32),
    binary main_v217 main_cst_85 main_v218 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_86 (constant S_ .f32 0x42800000#32),
    unary main_cst_86 main_v219 (broadcastInDim S8x160x320 ![] bcast_S_S8x160x320 : (⟨S_, .f32⟩ : BufTy).Contents (Elt F) → (⟨S8x160x320, .f32⟩ : BufTy).Contents (Elt F)),
    binary main_v218 main_v219 main_v220 (Host.divf : (⟨S8x160x320, .f32⟩ : BufTy).Contents (Elt F) → (⟨S8x160x320, .f32⟩ : BufTy).Contents (Elt F) → (⟨S8x160x320, .f32⟩ : BufTy).Contents (Elt F)),
    unary main_v0 main_v221 ((extractStridedSlice S8x64x160x320 ![0, 0, 7, 1] · slices_S8x64x168x328_S8x64x160x320_0_0_7_1) : (⟨S8x64x168x328, .f32⟩ : BufTy).Contents (Elt F) → (⟨S8x64x160x320, .f32⟩ : BufTy).Contents (Elt F)),
    binary main_v221 main_arg1 main_v222 (mulf : (⟨S8x64x160x320, .f32⟩ : BufTy).Contents (Elt F) → (⟨S8x64x160x320, .f32⟩ : BufTy).Contents (Elt F) → (⟨S8x64x160x320, .f32⟩ : BufTy).Contents (Elt F)),
    nullary main_cst_87 (constant S_ .f32 0x00000000#32),
    binary main_v222 main_cst_87 main_v223 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_88 (constant S_ .f32 0x42800000#32),
    unary main_cst_88 main_v224 (broadcastInDim S8x160x320 ![] bcast_S_S8x160x320 : (⟨S_, .f32⟩ : BufTy).Contents (Elt F) → (⟨S8x160x320, .f32⟩ : BufTy).Contents (Elt F)),
    binary main_v223 main_v224 main_v225 (Host.divf : (⟨S8x160x320, .f32⟩ : BufTy).Contents (Elt F) → (⟨S8x160x320, .f32⟩ : BufTy).Contents (Elt F) → (⟨S8x160x320, .f32⟩ : BufTy).Contents (Elt F)),
    unary main_v0 main_v226 ((extractStridedSlice S8x64x160x320 ![0, 0, 7, 3] · slices_S8x64x168x328_S8x64x160x320_0_0_7_3) : (⟨S8x64x168x328, .f32⟩ : BufTy).Contents (Elt F) → (⟨S8x64x160x320, .f32⟩ : BufTy).Contents (Elt F)),
    binary main_v226 main_arg1 main_v227 (mulf : (⟨S8x64x160x320, .f32⟩ : BufTy).Contents (Elt F) → (⟨S8x64x160x320, .f32⟩ : BufTy).Contents (Elt F) → (⟨S8x64x160x320, .f32⟩ : BufTy).Contents (Elt F)),
    nullary main_cst_89 (constant S_ .f32 0x00000000#32),
    binary main_v227 main_cst_89 main_v228 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_90 (constant S_ .f32 0x42800000#32),
    unary main_cst_90 main_v229 (broadcastInDim S8x160x320 ![] bcast_S_S8x160x320 : (⟨S_, .f32⟩ : BufTy).Contents (Elt F) → (⟨S8x160x320, .f32⟩ : BufTy).Contents (Elt F)),
    binary main_v228 main_v229 main_v230 (Host.divf : (⟨S8x160x320, .f32⟩ : BufTy).Contents (Elt F) → (⟨S8x160x320, .f32⟩ : BufTy).Contents (Elt F) → (⟨S8x160x320, .f32⟩ : BufTy).Contents (Elt F)),
    unary main_v0 main_v231 ((extractStridedSlice S8x64x160x320 ![0, 0, 7, 5] · slices_S8x64x168x328_S8x64x160x320_0_0_7_5) : (⟨S8x64x168x328, .f32⟩ : BufTy).Contents (Elt F) → (⟨S8x64x160x320, .f32⟩ : BufTy).Contents (Elt F)),
    binary main_v231 main_arg1 main_v232 (mulf : (⟨S8x64x160x320, .f32⟩ : BufTy).Contents (Elt F) → (⟨S8x64x160x320, .f32⟩ : BufTy).Contents (Elt F) → (⟨S8x64x160x320, .f32⟩ : BufTy).Contents (Elt F)),
    nullary main_cst_91 (constant S_ .f32 0x00000000#32),
    binary main_v232 main_cst_91 main_v233 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_92 (constant S_ .f32 0x42800000#32),
    unary main_cst_92 main_v234 (broadcastInDim S8x160x320 ![] bcast_S_S8x160x320 : (⟨S_, .f32⟩ : BufTy).Contents (Elt F) → (⟨S8x160x320, .f32⟩ : BufTy).Contents (Elt F)),
    binary main_v233 main_v234 main_v235 (Host.divf : (⟨S8x160x320, .f32⟩ : BufTy).Contents (Elt F) → (⟨S8x160x320, .f32⟩ : BufTy).Contents (Elt F) → (⟨S8x160x320, .f32⟩ : BufTy).Contents (Elt F)),
    unary main_v0 main_v236 ((extractStridedSlice S8x64x160x320 ![0, 0, 7, 7] · slices_S8x64x168x328_S8x64x160x320_0_0_7_7) : (⟨S8x64x168x328, .f32⟩ : BufTy).Contents (Elt F) → (⟨S8x64x160x320, .f32⟩ : BufTy).Contents (Elt F)),
    binary main_v236 main_arg1 main_v237 (mulf : (⟨S8x64x160x320, .f32⟩ : BufTy).Contents (Elt F) → (⟨S8x64x160x320, .f32⟩ : BufTy).Contents (Elt F) → (⟨S8x64x160x320, .f32⟩ : BufTy).Contents (Elt F)),
    nullary main_cst_93 (constant S_ .f32 0x00000000#32),
    binary main_v237 main_cst_93 main_v238 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_94 (constant S_ .f32 0x42800000#32),
    unary main_cst_94 main_v239 (broadcastInDim S8x160x320 ![] bcast_S_S8x160x320 : (⟨S_, .f32⟩ : BufTy).Contents (Elt F) → (⟨S8x160x320, .f32⟩ : BufTy).Contents (Elt F)),
    binary main_v238 main_v239 main_v240 (Host.divf : (⟨S8x160x320, .f32⟩ : BufTy).Contents (Elt F) → (⟨S8x160x320, .f32⟩ : BufTy).Contents (Elt F) → (⟨S8x160x320, .f32⟩ : BufTy).Contents (Elt F)),
    unary main_v0 main_v241 ((extractStridedSlice S8x64x160x320 ![0, 0, 8, 0] · slices_S8x64x168x328_S8x64x160x320_0_0_8_0) : (⟨S8x64x168x328, .f32⟩ : BufTy).Contents (Elt F) → (⟨S8x64x160x320, .f32⟩ : BufTy).Contents (Elt F)),
    binary main_v241 main_arg1 main_v242 (mulf : (⟨S8x64x160x320, .f32⟩ : BufTy).Contents (Elt F) → (⟨S8x64x160x320, .f32⟩ : BufTy).Contents (Elt F) → (⟨S8x64x160x320, .f32⟩ : BufTy).Contents (Elt F)),
    nullary main_cst_95 (constant S_ .f32 0x00000000#32),
    binary main_v242 main_cst_95 main_v243 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_96 (constant S_ .f32 0x42800000#32),
    unary main_cst_96 main_v244 (broadcastInDim S8x160x320 ![] bcast_S_S8x160x320 : (⟨S_, .f32⟩ : BufTy).Contents (Elt F) → (⟨S8x160x320, .f32⟩ : BufTy).Contents (Elt F)),
    binary main_v243 main_v244 main_v245 (Host.divf : (⟨S8x160x320, .f32⟩ : BufTy).Contents (Elt F) → (⟨S8x160x320, .f32⟩ : BufTy).Contents (Elt F) → (⟨S8x160x320, .f32⟩ : BufTy).Contents (Elt F)),
    unary main_v0 main_v246 ((extractStridedSlice S8x64x160x320 ![0, 0, 8, 2] · slices_S8x64x168x328_S8x64x160x320_0_0_8_2) : (⟨S8x64x168x328, .f32⟩ : BufTy).Contents (Elt F) → (⟨S8x64x160x320, .f32⟩ : BufTy).Contents (Elt F)),
    binary main_v246 main_arg1 main_v247 (mulf : (⟨S8x64x160x320, .f32⟩ : BufTy).Contents (Elt F) → (⟨S8x64x160x320, .f32⟩ : BufTy).Contents (Elt F) → (⟨S8x64x160x320, .f32⟩ : BufTy).Contents (Elt F)),
    nullary main_cst_97 (constant S_ .f32 0x00000000#32),
    binary main_v247 main_cst_97 main_v248 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_98 (constant S_ .f32 0x42800000#32),
    unary main_cst_98 main_v249 (broadcastInDim S8x160x320 ![] bcast_S_S8x160x320 : (⟨S_, .f32⟩ : BufTy).Contents (Elt F) → (⟨S8x160x320, .f32⟩ : BufTy).Contents (Elt F)),
    binary main_v248 main_v249 main_v250 (Host.divf : (⟨S8x160x320, .f32⟩ : BufTy).Contents (Elt F) → (⟨S8x160x320, .f32⟩ : BufTy).Contents (Elt F) → (⟨S8x160x320, .f32⟩ : BufTy).Contents (Elt F)),
    unary main_v0 main_v251 ((extractStridedSlice S8x64x160x320 ![0, 0, 8, 4] · slices_S8x64x168x328_S8x64x160x320_0_0_8_4) : (⟨S8x64x168x328, .f32⟩ : BufTy).Contents (Elt F) → (⟨S8x64x160x320, .f32⟩ : BufTy).Contents (Elt F)),
    binary main_v251 main_arg1 main_v252 (mulf : (⟨S8x64x160x320, .f32⟩ : BufTy).Contents (Elt F) → (⟨S8x64x160x320, .f32⟩ : BufTy).Contents (Elt F) → (⟨S8x64x160x320, .f32⟩ : BufTy).Contents (Elt F)),
    nullary main_cst_99 (constant S_ .f32 0x00000000#32),
    binary main_v252 main_cst_99 main_v253 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_100 (constant S_ .f32 0x42800000#32),
    unary main_cst_100 main_v254 (broadcastInDim S8x160x320 ![] bcast_S_S8x160x320 : (⟨S_, .f32⟩ : BufTy).Contents (Elt F) → (⟨S8x160x320, .f32⟩ : BufTy).Contents (Elt F)),
    binary main_v253 main_v254 main_v255 (Host.divf : (⟨S8x160x320, .f32⟩ : BufTy).Contents (Elt F) → (⟨S8x160x320, .f32⟩ : BufTy).Contents (Elt F) → (⟨S8x160x320, .f32⟩ : BufTy).Contents (Elt F)),
    unary main_v0 main_v256 ((extractStridedSlice S8x64x160x320 ![0, 0, 8, 6] · slices_S8x64x168x328_S8x64x160x320_0_0_8_6) : (⟨S8x64x168x328, .f32⟩ : BufTy).Contents (Elt F) → (⟨S8x64x160x320, .f32⟩ : BufTy).Contents (Elt F)) ]

/-- The operations of statements window 6, in order. -/
abbrev W6 : List (HloOp τ sig (Elt F)) :=
  [ binary main_v256 main_arg1 main_v257 (mulf : (⟨S8x64x160x320, .f32⟩ : BufTy).Contents (Elt F) → (⟨S8x64x160x320, .f32⟩ : BufTy).Contents (Elt F) → (⟨S8x64x160x320, .f32⟩ : BufTy).Contents (Elt F)),
    nullary main_cst_101 (constant S_ .f32 0x00000000#32),
    binary main_v257 main_cst_101 main_v258 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_102 (constant S_ .f32 0x42800000#32),
    unary main_cst_102 main_v259 (broadcastInDim S8x160x320 ![] bcast_S_S8x160x320 : (⟨S_, .f32⟩ : BufTy).Contents (Elt F) → (⟨S8x160x320, .f32⟩ : BufTy).Contents (Elt F)),
    binary main_v258 main_v259 main_v260 (Host.divf : (⟨S8x160x320, .f32⟩ : BufTy).Contents (Elt F) → (⟨S8x160x320, .f32⟩ : BufTy).Contents (Elt F) → (⟨S8x160x320, .f32⟩ : BufTy).Contents (Elt F)),
    unary main_v0 main_v261 ((extractStridedSlice S8x64x160x320 ![0, 0, 8, 8] · slices_S8x64x168x328_S8x64x160x320_0_0_8_8) : (⟨S8x64x168x328, .f32⟩ : BufTy).Contents (Elt F) → (⟨S8x64x160x320, .f32⟩ : BufTy).Contents (Elt F)),
    binary main_v261 main_arg1 main_v262 (mulf : (⟨S8x64x160x320, .f32⟩ : BufTy).Contents (Elt F) → (⟨S8x64x160x320, .f32⟩ : BufTy).Contents (Elt F) → (⟨S8x64x160x320, .f32⟩ : BufTy).Contents (Elt F)),
    nullary main_cst_103 (constant S_ .f32 0x00000000#32),
    binary main_v262 main_cst_103 main_v263 ((fun x v => Host.reduceAdd x v reducesTo_S8x64x160x320_S8x160x320_d1 h_S_) : (⟨S8x64x160x320, .f32⟩ : BufTy).Contents (Elt F) → (⟨S_, .f32⟩ : BufTy).Contents (Elt F) → (⟨S8x160x320, .f32⟩ : BufTy).Contents (Elt F)),
    nullary main_cst_104 (constant S_ .f32 0x42800000#32),
    unary main_cst_104 main_v264 (broadcastInDim S8x160x320 ![] bcast_S_S8x160x320 : (⟨S_, .f32⟩ : BufTy).Contents (Elt F) → (⟨S8x160x320, .f32⟩ : BufTy).Contents (Elt F)),
    binary main_v263 main_v264 main_v265 (Host.divf : (⟨S8x160x320, .f32⟩ : BufTy).Contents (Elt F) → (⟨S8x160x320, .f32⟩ : BufTy).Contents (Elt F) → (⟨S8x160x320, .f32⟩ : BufTy).Contents (Elt F)),
    unary main_v5 main_v266 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v10 main_v267 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v15 main_v268 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v20 main_v269 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v25 main_v270 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v30 main_v271 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v35 main_v272 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v40 main_v273 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v45 main_v274 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v50 main_v275 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v55 main_v276 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v60 main_v277 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v65 main_v278 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v70 main_v279 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v75 main_v280 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v80 main_v281 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v85 main_v282 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v90 main_v283 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v95 main_v284 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v100 main_v285 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v105 main_v286 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v110 main_v287 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v115 main_v288 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v120 main_v289 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v125 main_v290 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v130 main_v291 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v135 main_v292 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v140 main_v293 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v145 main_v294 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v150 main_v295 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v155 main_v296 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v160 main_v297 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v165 main_v298 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v170 main_v299 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v175 main_v300 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v180 main_v301 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v185 main_v302 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v190 main_v303 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v195 main_v304 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v200 main_v305 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v205 main_v306 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v210 main_v307 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v215 main_v308 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v220 main_v309 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v225 main_v310 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v230 main_v311 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v235 main_v312 (broadcastInDim S8x1x160x320 ![0, 2, 3] bcast_S8x160x320_S8x1x160x320_0_2_3 : (⟨S8x160x320, .f32⟩ : BufTy).Contents (Elt F) → (⟨S8x1x160x320, .f32⟩ : BufTy).Contents (Elt F)) ]

/-- The operations of statements window 7, in order. -/
abbrev W7 : List (HloOp τ sig (Elt F)) :=
  [ unary main_v240 main_v313 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v245 main_v314 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v250 main_v315 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v255 main_v316 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v260 main_v317 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v265 main_v318 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    nary ![main_v266, main_v267, main_v268, main_v269, main_v270, main_v271, main_v272, main_v273, main_v274, main_v275, main_v276, main_v277, main_v278, main_v279, main_v280, main_v281] main_v319 (fun u => concatenate S8x16x160x320 1 [⟨S8x1x160x320, u 0⟩, ⟨S8x1x160x320, u 1⟩, ⟨S8x1x160x320, u 2⟩, ⟨S8x1x160x320, u 3⟩, ⟨S8x1x160x320, u 4⟩, ⟨S8x1x160x320, u 5⟩, ⟨S8x1x160x320, u 6⟩, ⟨S8x1x160x320, u 7⟩, ⟨S8x1x160x320, u 8⟩, ⟨S8x1x160x320, u 9⟩, ⟨S8x1x160x320, u 10⟩, ⟨S8x1x160x320, u 11⟩, ⟨S8x1x160x320, u 12⟩, ⟨S8x1x160x320, u 13⟩, ⟨S8x1x160x320, u 14⟩, ⟨S8x1x160x320, u 15⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1),
    nary ![main_v282, main_v283, main_v284, main_v285, main_v286, main_v287, main_v288, main_v289, main_v290, main_v291, main_v292, main_v293, main_v294, main_v295, main_v296, main_v297] main_v320 (fun u => concatenate S8x16x160x320 1 [⟨S8x1x160x320, u 0⟩, ⟨S8x1x160x320, u 1⟩, ⟨S8x1x160x320, u 2⟩, ⟨S8x1x160x320, u 3⟩, ⟨S8x1x160x320, u 4⟩, ⟨S8x1x160x320, u 5⟩, ⟨S8x1x160x320, u 6⟩, ⟨S8x1x160x320, u 7⟩, ⟨S8x1x160x320, u 8⟩, ⟨S8x1x160x320, u 9⟩, ⟨S8x1x160x320, u 10⟩, ⟨S8x1x160x320, u 11⟩, ⟨S8x1x160x320, u 12⟩, ⟨S8x1x160x320, u 13⟩, ⟨S8x1x160x320, u 14⟩, ⟨S8x1x160x320, u 15⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1),
    nary ![main_v298, main_v299, main_v300, main_v301, main_v302, main_v303, main_v304, main_v305, main_v306, main_v307, main_v308, main_v309, main_v310, main_v311, main_v312, main_v313] main_v321 (fun u => concatenate S8x16x160x320 1 [⟨S8x1x160x320, u 0⟩, ⟨S8x1x160x320, u 1⟩, ⟨S8x1x160x320, u 2⟩, ⟨S8x1x160x320, u 3⟩, ⟨S8x1x160x320, u 4⟩, ⟨S8x1x160x320, u 5⟩, ⟨S8x1x160x320, u 6⟩, ⟨S8x1x160x320, u 7⟩, ⟨S8x1x160x320, u 8⟩, ⟨S8x1x160x320, u 9⟩, ⟨S8x1x160x320, u 10⟩, ⟨S8x1x160x320, u 11⟩, ⟨S8x1x160x320, u 12⟩, ⟨S8x1x160x320, u 13⟩, ⟨S8x1x160x320, u 14⟩, ⟨S8x1x160x320, u 15⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1),
    nary ![main_v314, main_v315, main_v316, main_v317, main_v318] main_v322 (fun u => concatenate S8x5x160x320 1 [⟨S8x1x160x320, u 0⟩, ⟨S8x1x160x320, u 1⟩, ⟨S8x1x160x320, u 2⟩, ⟨S8x1x160x320, u 3⟩, ⟨S8x1x160x320, u 4⟩] concatenates_S8x1x160x320_S8x1x160x320_S8x1x160x320_S8x1x160x320_S8x1x160x320_S8x5x160x320_d1),
    nary ![main_v319, main_v320, main_v321, main_v322] main_v323 (fun u => concatenate S8x53x160x320 1 [⟨S8x16x160x320, u 0⟩, ⟨S8x16x160x320, u 1⟩, ⟨S8x16x160x320, u 2⟩, ⟨S8x5x160x320, u 3⟩] concatenates_S8x16x160x320_S8x16x160x320_S8x16x160x320_S8x5x160x320_S8x53x160x320_d1) ]

/-- All operations, in program order. -/
abbrev allOps : List (HloOp τ sig (Elt F)) := W0 ++ (W1 ++ (W2 ++ (W3 ++ (W4 ++ (W5 ++ (W6 ++ W7))))))

/-! ## Each window is the line of its list -/

set_option maxRecDepth 8192 in
theorem part0_eq (c : Dev nD) : main_part0 (F := F) c = seq W0 := rfl
set_option maxRecDepth 8192 in
theorem part1_eq (c : Dev nD) : main_part1 (F := F) c = seq W1 := rfl
set_option maxRecDepth 8192 in
theorem part2_eq (c : Dev nD) : main_part2 (F := F) c = seq W2 := rfl
set_option maxRecDepth 8192 in
theorem part3_eq (c : Dev nD) : main_part3 (F := F) c = seq W3 := rfl
set_option maxRecDepth 8192 in
theorem part4_eq (c : Dev nD) : main_part4 (F := F) c = seq W4 := rfl
set_option maxRecDepth 8192 in
theorem part5_eq (c : Dev nD) : main_part5 (F := F) c = seq W5 := rfl
set_option maxRecDepth 8192 in
theorem part6_eq (c : Dev nD) : main_part6 (F := F) c = seq W6 := rfl
set_option maxRecDepth 8192 in
theorem part7_eq (c : Dev nD) : main_part7 (F := F) c = seq W7 := rfl

/-- The whole program is the line of all operations: the windows run in order, and lines run in order are the
    line of the appended lists. -/
theorem main_eq (c : Dev nD) : main (F := F) c = seq allOps := by
  unfold allOps
  rw [seq_append, seq_append, seq_append, seq_append, seq_append, seq_append, seq_append]
  rw [← part0_eq c, ← part1_eq c, ← part2_eq c, ← part3_eq c, ← part4_eq c, ← part5_eq c, ← part6_eq c, ← part7_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem W0_sub : (W0 : List (HloOp τ sig (Elt F))).Forall fun op => op.bufs ⊆ tcRefs τ sig :=
  ⟨nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub ..⟩
theorem W0_fresh : (W0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl⟩
theorem W1_sub : (W1 : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..⟩
theorem W1_fresh : (W1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem W2_sub : (W2 : List (HloOp τ sig (Elt F))).Forall fun op => op.bufs ⊆ tcRefs τ sig :=
  ⟨binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..⟩
theorem W2_fresh : (W2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem W3_sub : (W3 : List (HloOp τ sig (Elt F))).Forall fun op => op.bufs ⊆ tcRefs τ sig :=
  ⟨binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..⟩
theorem W3_fresh : (W3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem W4_sub : (W4 : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..⟩
theorem W4_fresh : (W4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem W5_sub : (W5 : List (HloOp τ sig (Elt F))).Forall fun op => op.bufs ⊆ tcRefs τ sig :=
  ⟨nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., unary_bufs_sub ..⟩
theorem W5_fresh : (W5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem W6_sub : (W6 : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., binary_bufs_sub .., nullary_bufs_sub .., binary_bufs_sub .., nullary_bufs_sub .., unary_bufs_sub ..,
    binary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..⟩
theorem W6_fresh : (W6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem W7_sub : (W7 : List (HloOp τ sig (Elt F))).Forall fun op => op.bufs ⊆ tcRefs τ sig :=
  ⟨unary_bufs_sub .., unary_bufs_sub .., unary_bufs_sub .., unary_bufs_sub .., unary_bufs_sub .., unary_bufs_sub ..,
    nary_bufs_sub .., nary_bufs_sub .., nary_bufs_sub .., nary_bufs_sub .., nary_bufs_sub ..⟩
theorem W7_fresh : (W7 : List (HloOp τ sig (Elt F))).Forall fun op => op.fresh = ∅ :=
  ⟨rfl, rfl, rfl, rfl, rfl, rfl, rfl, rfl, rfl, rfl, rfl⟩

theorem allOps_sub : (allOps : List (HloOp τ sig (Elt F))).Forall fun op => op.bufs ⊆ tcRefs τ sig :=
  List.forall_append.mpr ⟨W0_sub, List.forall_append.mpr ⟨W1_sub, List.forall_append.mpr ⟨W2_sub, List.forall_append.mpr ⟨W3_sub, List.forall_append.mpr ⟨W4_sub, List.forall_append.mpr ⟨W5_sub, List.forall_append.mpr ⟨W6_sub, W7_sub⟩⟩⟩⟩⟩⟩⟩
theorem allOps_fresh : (allOps : List (HloOp τ sig (Elt F))).Forall fun op => op.fresh = ∅ :=
  List.forall_append.mpr ⟨W0_fresh, List.forall_append.mpr ⟨W1_fresh, List.forall_append.mpr ⟨W2_fresh, List.forall_append.mpr ⟨W3_fresh, List.forall_append.mpr ⟨W4_fresh, List.forall_append.mpr ⟨W5_fresh, List.forall_append.mpr ⟨W6_fresh, W7_fresh⟩⟩⟩⟩⟩⟩⟩

/-- On every device, for any float values, from any memory with zero counters: every weakly fair execution of the
    program terminates with each buffer at the fold of all operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after allOps (launchContents m d) (Proc.devRef .tc b) :=
  run_seq scopedRefs_eq scopedSems_eq defs main (fun _ => allOps) main_eq (fun _ => allOps_sub) m ρ
    (fun _ => List.forall_iff_forall_mem.mp allOps_fresh)

end Cert.ReferenceIdeal.RefRun

end
-- ==== Proof.RefTerm.lean ====
/-
  The reference program's result as ONE term of its two arguments, written over the table of displacements.

  For displacement `j` the reference pads its first argument by four entries on each side of the last two axes,
  takes the 160 × 320 window at offsets `(dy j, dx j)` of every channel, multiplies by the second argument, sums over
  the 64 channels and divides by 64 (`quot`); it gives that map a channel axis of extent one (`row`) and joins the 53
  maps along that axis, in the grouping the program prints: three groups of sixteen and one of five (`stack`).
-/
import proofs.«170128_j88175678587309_1_alg».proof.ReferenceIdeal
import proofs.«170128_j88175678587309_1_alg».proof.Proof.Shift

noncomputable section

namespace Cert.ReferenceIdeal.RefTerm

open Cert.ReferenceIdeal Idealize.ShloMosaic Cert.Shift

variable {F : FTy → Type} [FloatOps F] [Cert.ReferenceIdeal.Facts]
open Cert.ReferenceIdeal.Facts₀ Cert.ReferenceIdeal.Facts

/-- A 160 × 320 window of the padded 168 × 328 map at offsets of at most 8 lies inside it. -/
theorem slices_ok (a b : ℕ) (ha : a ≤ 8) (hb : b ≤ 8) : S8x64x168x328.Slices ![0, 0, a, b] S8x64x160x320 :=
  ⟨rfl, fun i => by
    match i with
    | ⟨0, _⟩ => show 0 + 8 ≤ 8; omega
    | ⟨1, _⟩ => show 0 + 64 ≤ 64; omega
    | ⟨2, _⟩ => show a + 160 ≤ 168; omega
    | ⟨3, _⟩ => show b + 320 ≤ 328; omega⟩

/-- The first argument padded by four entries of the converted integer zero on each side of the last two axes. -/
def padded (X : FVec F S8x64x160x320 .f32) : FVec F S8x64x168x328 .f32 :=
  pad S8x64x168x328 ![0, 0, 4, 4] ![0, 0, 4, 4] ![0, 0, 0, 0] X (sitofp .f32 (constantI S_ 32 0#32))
    pads_S8x64x160x320_S8x64x168x328_000_000_440_440 h_S_

/-- Displacement `j`'s map: the channel sum of the displaced products, divided by 64. -/
def quot (j : ℕ) (X Y : FVec F S8x64x160x320 .f32) : FVec F S8x160x320 .f32 :=
  Host.divf
    (Host.reduceAdd
      (mulf (extractStridedSlice S8x64x160x320 ![0, 0, dy j, dx j] (padded X) (slices_ok _ _ (dy_le j) (dx_le j))) Y)
      (constant S_ .f32 0x00000000#32) reducesTo_S8x64x160x320_S8x160x320_d1 h_S_)
    (broadcastInDim S8x160x320 ![] bcast_S_S8x160x320 (constant S_ .f32 0x42800000#32))

/-- The same map with a channel axis of extent one. -/
def row (j : ℕ) (X Y : FVec F S8x64x160x320 .f32) : FVec F S8x1x160x320 .f32 :=
  broadcastInDim S8x1x160x320 ![0, 2, 3] bcast_S8x160x320_S8x1x160x320_0_2_3 (quot j X Y)

/-- Sixteen consecutive displacements' maps from `base` on, joined along the channel axis. -/
def group16 (base : ℕ) (X Y : FVec F S8x64x160x320 .f32) : FVec F S8x16x160x320 .f32 :=
  concatenate S8x16x160x320 1
    (List.ofFn fun k : Fin 16 => (⟨S8x1x160x320, row (base + k.val) X Y⟩ : (s : Shape) × (s.Idx → F .f32)))
    concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1

/-- The last five displacements' maps, joined along the channel axis. -/
def group5 (base : ℕ) (X Y : FVec F S8x64x160x320 .f32) : FVec F S8x5x160x320 .f32 :=
  concatenate S8x5x160x320 1
    (List.ofFn fun k : Fin 5 => (⟨S8x1x160x320, row (base + k.val) X Y⟩ : (s : Shape) × (s.Idx → F .f32)))
    concatenates_S8x1x160x320_S8x1x160x320_S8x1x160x320_S8x1x160x320_S8x1x160x320_S8x5x160x320_d1

/-- All 53 maps joined along the channel axis: the reference's result. -/
def stack (X Y : FVec F S8x64x160x320 .f32) : FVec F S8x53x160x320 .f32 :=
  concatenate S8x53x160x320 1
    [⟨S8x16x160x320, group16 0 X Y⟩, ⟨S8x16x160x320, group16 16 X Y⟩, ⟨S8x16x160x320, group16 32 X Y⟩,
      ⟨S8x5x160x320, group5 48 X Y⟩]
    concatenates_S8x16x160x320_S8x16x160x320_S8x16x160x320_S8x5x160x320_S8x53x160x320_d1

end Cert.ReferenceIdeal.RefTerm

end
-- ==== Proof.RefRun.lean ====
/-
  The reference program's run, read back as ONE term of its two arguments.

  The operations are folded segment by segment: the seven full windows, then the last window in three pieces (the six
  remaining maps, the four joins of maps, the final join). Between two segments an invariant lists what the buffers
  still to be read hold, as terms of the arguments `X` and `Y`; each segment takes the invariant before it to the
  one after it, every buffer by evaluating the fold at that buffer. The last invariant gives the result buffer the
  term `RefTerm.stack X Y` and leaves the arguments as they were.
-/
import proofs.«170128_j88175678587309_1_alg».proof.Proof.Gen.ReferenceIdeal
import Idealize.ShloMosaic.Lib.StableHlo.Run
import proofs.«170128_j88175678587309_1_alg».proof.Proof.RefRunOps
import proofs.«170128_j88175678587309_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Folding an appended list is folding its second part over the fold of its first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The last window in three pieces -/

/-- The last six maps given their channel axis. -/
abbrev W7a : List (HloOp τ sig (Elt F)) :=
  [ unary main_v240 main_v313 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v245 main_v314 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v250 main_v315 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v255 main_v316 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v260 main_v317 (broadcastInDim S8x1x160x320 ![0, 2, 3] bcast_S8x160x320_S8x1x160x320_0_2_3 : (⟨S8x160x320, .f32⟩ : BufTy).Contents (Elt F) → (⟨S8x1x160x320, .f32⟩ : BufTy).Contents (Elt F)),
    unary main_v265 main_v318 (broadcastInDim S8x1x160x320 ![0, 2, 3] bcast_S8x160x320_S8x1x160x320_0_2_3 : (⟨S8x160x320, .f32⟩ : BufTy).Contents (Elt F) → (⟨S8x1x160x320, .f32⟩ : BufTy).Contents (Elt F)) ]

/-- The four joins of maps along the channel axis. -/
abbrev W7b : List (HloOp τ sig (Elt F)) :=
  [ nary ![main_v266, main_v267, main_v268, main_v269, main_v270, main_v271, main_v272, main_v273, main_v274, main_v275, main_v276, main_v277, main_v278, main_v279, main_v280, main_v281] main_v319 (fun u => concatenate S8x16x160x320 1 [⟨S8x1x160x320, u 0⟩, ⟨S8x1x160x320, u 1⟩, ⟨S8x1x160x320, u 2⟩, ⟨S8x1x160x320, u 3⟩, ⟨S8x1x160x320, u 4⟩, ⟨S8x1x160x320, u 5⟩, ⟨S8x1x160x320, u 6⟩, ⟨S8x1x160x320, u 7⟩, ⟨S8x1x160x320, u 8⟩, ⟨S8x1x160x320, u 9⟩, ⟨S8x1x160x320, u 10⟩, ⟨S8x1x160x320, u 11⟩, ⟨S8x1x160x320, u 12⟩, ⟨S8x1x160x320, u 13⟩, ⟨S8x1x160x320, u 14⟩, ⟨S8x1x160x320, u 15⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1),
    nary ![main_v282, main_v283, main_v284, main_v285, main_v286, main_v287, main_v288, main_v289, main_v290, main_v291, main_v292, main_v293, main_v294, main_v295, main_v296, main_v297] main_v320 (fun u => concatenate S8x16x160x320 1 [⟨S8x1x160x320, u 0⟩, ⟨S8x1x160x320, u 1⟩, ⟨S8x1x160x320, u 2⟩, ⟨S8x1x160x320, u 3⟩, ⟨S8x1x160x320, u 4⟩, ⟨S8x1x160x320, u 5⟩, ⟨S8x1x160x320, u 6⟩, ⟨S8x1x160x320, u 7⟩, ⟨S8x1x160x320, u 8⟩, ⟨S8x1x160x320, u 9⟩, ⟨S8x1x160x320, u 10⟩, ⟨S8x1x160x320, u 11⟩, ⟨S8x1x160x320, u 12⟩, ⟨S8x1x160x320, u 13⟩, ⟨S8x1x160x320, u 14⟩, ⟨S8x1x160x320, u 15⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1),
    nary ![main_v298, main_v299, main_v300, main_v301, main_v302, main_v303, main_v304, main_v305, main_v306, main_v307, main_v308, main_v309, main_v310, main_v311, main_v312, main_v313] main_v321 (fun u => concatenate S8x16x160x320 1 [⟨S8x1x160x320, u 0⟩, ⟨S8x1x160x320, u 1⟩, ⟨S8x1x160x320, u 2⟩, ⟨S8x1x160x320, u 3⟩, ⟨S8x1x160x320, u 4⟩, ⟨S8x1x160x320, u 5⟩, ⟨S8x1x160x320, u 6⟩, ⟨S8x1x160x320, u 7⟩, ⟨S8x1x160x320, u 8⟩, ⟨S8x1x160x320, u 9⟩, ⟨S8x1x160x320, u 10⟩, ⟨S8x1x160x320, u 11⟩, ⟨S8x1x160x320, u 12⟩, ⟨S8x1x160x320, u 13⟩, ⟨S8x1x160x320, u 14⟩, ⟨S8x1x160x320, u 15⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1),
    nary ![main_v314, main_v315, main_v316, main_v317, main_v318] main_v322 (fun u => concatenate S8x5x160x320 1 [⟨S8x1x160x320, u 0⟩, ⟨S8x1x160x320, u 1⟩, ⟨S8x1x160x320, u 2⟩, ⟨S8x1x160x320, u 3⟩, ⟨S8x1x160x320, u 4⟩] concatenates_S8x1x160x320_S8x1x160x320_S8x1x160x320_S8x1x160x320_S8x1x160x320_S8x5x160x320_d1) ]

/-- The join of the four groups. -/
abbrev W7c : List (HloOp τ sig (Elt F)) :=
  [ nary ![main_v319, main_v320, main_v321, main_v322] main_v323 (fun u => concatenate S8x53x160x320 1 [⟨S8x16x160x320, u 0⟩, ⟨S8x16x160x320, u 1⟩, ⟨S8x16x160x320, u 2⟩, ⟨S8x5x160x320, u 3⟩] concatenates_S8x16x160x320_S8x16x160x320_S8x16x160x320_S8x5x160x320_S8x53x160x320_d1) ]

theorem W7_split : (W7 : List (HloOp τ sig (Elt F))) = W7a ++ (W7b ++ W7c) := rfl

/-! ## What is held between segments -/

/-- What the buffers read from segment 0 on, and the two arguments, hold once the segments before it have run
    from a memory holding `X` and `Y` at the arguments. -/
structure Inv0 (V : Valuation τ sig (Elt F)) (X Y : FVec F S8x64x160x320 .f32) : Prop where
  arg0 : V (Proc.devRef .tc main_arg0) = X
  arg1 : V (Proc.devRef .tc main_arg1) = Y

/-- What the buffers read from segment 1 on, and the two arguments, hold once the segments before it have run
    from a memory holding `X` and `Y` at the arguments. -/
structure Inv1 (V : Valuation τ sig (Elt F)) (X Y : FVec F S8x64x160x320 .f32) : Prop where
  arg0 : V (Proc.devRef .tc main_arg0) = X
  arg1 : V (Proc.devRef .tc main_arg1) = Y
  v0 : V (Proc.devRef .tc main_v0) = (RefTerm.padded X)
  v5 : V (Proc.devRef .tc main_v5) = (RefTerm.quot 0 X Y)
  v10 : V (Proc.devRef .tc main_v10) = (RefTerm.quot 1 X Y)
  v15 : V (Proc.devRef .tc main_v15) = (RefTerm.quot 2 X Y)
  v20 : V (Proc.devRef .tc main_v20) = (RefTerm.quot 3 X Y)
  v25 : V (Proc.devRef .tc main_v25) = (RefTerm.quot 4 X Y)
  v30 : V (Proc.devRef .tc main_v30) = (RefTerm.quot 5 X Y)
  v35 : V (Proc.devRef .tc main_v35) = (RefTerm.quot 6 X Y)
  v40 : V (Proc.devRef .tc main_v40) = (RefTerm.quot 7 X Y)
  v42 : V (Proc.devRef .tc main_v42) = (mulf (extractStridedSlice S8x64x160x320 ![0, 0, 1, 7] (RefTerm.padded X) slices_S8x64x168x328_S8x64x160x320_0_0_1_7) Y)

/-- What the buffers read from segment 2 on, and the two arguments, hold once the segments before it have run
    from a memory holding `X` and `Y` at the arguments. -/
structure Inv2 (V : Valuation τ sig (Elt F)) (X Y : FVec F S8x64x160x320 .f32) : Prop where
  arg0 : V (Proc.devRef .tc main_arg0) = X
  arg1 : V (Proc.devRef .tc main_arg1) = Y
  v0 : V (Proc.devRef .tc main_v0) = (RefTerm.padded X)
  v5 : V (Proc.devRef .tc main_v5) = (RefTerm.quot 0 X Y)
  v10 : V (Proc.devRef .tc main_v10) = (RefTerm.quot 1 X Y)
  v15 : V (Proc.devRef .tc main_v15) = (RefTerm.quot 2 X Y)
  v20 : V (Proc.devRef .tc main_v20) = (RefTerm.quot 3 X Y)
  v25 : V (Proc.devRef .tc main_v25) = (RefTerm.quot 4 X Y)
  v30 : V (Proc.devRef .tc main_v30) = (RefTerm.quot 5 X Y)
  v35 : V (Proc.devRef .tc main_v35) = (RefTerm.quot 6 X Y)
  v40 : V (Proc.devRef .tc main_v40) = (RefTerm.quot 7 X Y)
  v45 : V (Proc.devRef .tc main_v45) = (RefTerm.quot 8 X Y)
  v50 : V (Proc.devRef .tc main_v50) = (RefTerm.quot 9 X Y)
  v55 : V (Proc.devRef .tc main_v55) = (RefTerm.quot 10 X Y)
  v60 : V (Proc.devRef .tc main_v60) = (RefTerm.quot 11 X Y)
  v65 : V (Proc.devRef .tc main_v65) = (RefTerm.quot 12 X Y)
  v70 : V (Proc.devRef .tc main_v70) = (RefTerm.quot 13 X Y)
  v75 : V (Proc.devRef .tc main_v75) = (RefTerm.quot 14 X Y)
  v80 : V (Proc.devRef .tc main_v80) = (RefTerm.quot 15 X Y)
  v83 : V (Proc.devRef .tc main_v83) = (Host.reduceAdd (mulf (extractStridedSlice S8x64x160x320 ![0, 0, 3, 1] (RefTerm.padded X) slices_S8x64x168x328_S8x64x160x320_0_0_3_1) Y) (constant S_ .f32 0x00000000#32) reducesTo_S8x64x160x320_S8x160x320_d1 h_S_)
  v84 : V (Proc.devRef .tc main_v84) = (broadcastInDim S8x160x320 ![] bcast_S_S8x160x320 (constant S_ .f32 0x42800000#32))

/-- What the buffers read from segment 3 on, and the two arguments, hold once the segments before it have run
    from a memory holding `X` and `Y` at the arguments. -/
structure Inv3 (V : Valuation τ sig (Elt F)) (X Y : FVec F S8x64x160x320 .f32) : Prop where
  arg0 : V (Proc.devRef .tc main_arg0) = X
  arg1 : V (Proc.devRef .tc main_arg1) = Y
  v0 : V (Proc.devRef .tc main_v0) = (RefTerm.padded X)
  v5 : V (Proc.devRef .tc main_v5) = (RefTerm.quot 0 X Y)
  v10 : V (Proc.devRef .tc main_v10) = (RefTerm.quot 1 X Y)
  v15 : V (Proc.devRef .tc main_v15) = (RefTerm.quot 2 X Y)
  v20 : V (Proc.devRef .tc main_v20) = (RefTerm.quot 3 X Y)
  v25 : V (Proc.devRef .tc main_v25) = (RefTerm.quot 4 X Y)
  v30 : V (Proc.devRef .tc main_v30) = (RefTerm.quot 5 X Y)
  v35 : V (Proc.devRef .tc main_v35) = (RefTerm.quot 6 X Y)
  v40 : V (Proc.devRef .tc main_v40) = (RefTerm.quot 7 X Y)
  v45 : V (Proc.devRef .tc main_v45) = (RefTerm.quot 8 X Y)
  v50 : V (Proc.devRef .tc main_v50) = (RefTerm.quot 9 X Y)
  v55 : V (Proc.devRef .tc main_v55) = (RefTerm.quot 10 X Y)
  v60 : V (Proc.devRef .tc main_v60) = (RefTerm.quot 11 X Y)
  v65 : V (Proc.devRef .tc main_v65) = (RefTerm.quot 12 X Y)
  v70 : V (Proc.devRef .tc main_v70) = (RefTerm.quot 13 X Y)
  v75 : V (Proc.devRef .tc main_v75) = (RefTerm.quot 14 X Y)
  v80 : V (Proc.devRef .tc main_v80) = (RefTerm.quot 15 X Y)
  v85 : V (Proc.devRef .tc main_v85) = (RefTerm.quot 16 X Y)
  v90 : V (Proc.devRef .tc main_v90) = (RefTerm.quot 17 X Y)
  v95 : V (Proc.devRef .tc main_v95) = (RefTerm.quot 18 X Y)
  v100 : V (Proc.devRef .tc main_v100) = (RefTerm.quot 19 X Y)
  v105 : V (Proc.devRef .tc main_v105) = (RefTerm.quot 20 X Y)
  v110 : V (Proc.devRef .tc main_v110) = (RefTerm.quot 21 X Y)
  v115 : V (Proc.devRef .tc main_v115) = (RefTerm.quot 22 X Y)
  v120 : V (Proc.devRef .tc main_v120) = (RefTerm.quot 23 X Y)
  v125 : V (Proc.devRef .tc main_v125) = (RefTerm.quot 24 X Y)
  v127 : V (Proc.devRef .tc main_v127) = (mulf (extractStridedSlice S8x64x160x320 ![0, 0, 4, 3] (RefTerm.padded X) slices_S8x64x168x328_S8x64x160x320_0_0_4_3) Y)
  cst_49 : V (Proc.devRef .tc main_cst_49) = (constant S_ .f32 0x00000000#32)

/-- What the buffers read from segment 4 on, and the two arguments, hold once the segments before it have run
    from a memory holding `X` and `Y` at the arguments. -/
structure Inv4 (V : Valuation τ sig (Elt F)) (X Y : FVec F S8x64x160x320 .f32) : Prop where
  arg0 : V (Proc.devRef .tc main_arg0) = X
  arg1 : V (Proc.devRef .tc main_arg1) = Y
  v0 : V (Proc.devRef .tc main_v0) = (RefTerm.padded X)
  v5 : V (Proc.devRef .tc main_v5) = (RefTerm.quot 0 X Y)
  v10 : V (Proc.devRef .tc main_v10) = (RefTerm.quot 1 X Y)
  v15 : V (Proc.devRef .tc main_v15) = (RefTerm.quot 2 X Y)
  v20 : V (Proc.devRef .tc main_v20) = (RefTerm.quot 3 X Y)
  v25 : V (Proc.devRef .tc main_v25) = (RefTerm.quot 4 X Y)
  v30 : V (Proc.devRef .tc main_v30) = (RefTerm.quot 5 X Y)
  v35 : V (Proc.devRef .tc main_v35) = (RefTerm.quot 6 X Y)
  v40 : V (Proc.devRef .tc main_v40) = (RefTerm.quot 7 X Y)
  v45 : V (Proc.devRef .tc main_v45) = (RefTerm.quot 8 X Y)
  v50 : V (Proc.devRef .tc main_v50) = (RefTerm.quot 9 X Y)
  v55 : V (Proc.devRef .tc main_v55) = (RefTerm.quot 10 X Y)
  v60 : V (Proc.devRef .tc main_v60) = (RefTerm.quot 11 X Y)
  v65 : V (Proc.devRef .tc main_v65) = (RefTerm.quot 12 X Y)
  v70 : V (Proc.devRef .tc main_v70) = (RefTerm.quot 13 X Y)
  v75 : V (Proc.devRef .tc main_v75) = (RefTerm.quot 14 X Y)
  v80 : V (Proc.devRef .tc main_v80) = (RefTerm.quot 15 X Y)
  v85 : V (Proc.devRef .tc main_v85) = (RefTerm.quot 16 X Y)
  v90 : V (Proc.devRef .tc main_v90) = (RefTerm.quot 17 X Y)
  v95 : V (Proc.devRef .tc main_v95) = (RefTerm.quot 18 X Y)
  v100 : V (Proc.devRef .tc main_v100) = (RefTerm.quot 19 X Y)
  v105 : V (Proc.devRef .tc main_v105) = (RefTerm.quot 20 X Y)
  v110 : V (Proc.devRef .tc main_v110) = (RefTerm.quot 21 X Y)
  v115 : V (Proc.devRef .tc main_v115) = (RefTerm.quot 22 X Y)
  v120 : V (Proc.devRef .tc main_v120) = (RefTerm.quot 23 X Y)
  v125 : V (Proc.devRef .tc main_v125) = (RefTerm.quot 24 X Y)
  v130 : V (Proc.devRef .tc main_v130) = (RefTerm.quot 25 X Y)
  v135 : V (Proc.devRef .tc main_v135) = (RefTerm.quot 26 X Y)
  v140 : V (Proc.devRef .tc main_v140) = (RefTerm.quot 27 X Y)
  v145 : V (Proc.devRef .tc main_v145) = (RefTerm.quot 28 X Y)
  v150 : V (Proc.devRef .tc main_v150) = (RefTerm.quot 29 X Y)
  v155 : V (Proc.devRef .tc main_v155) = (RefTerm.quot 30 X Y)
  v160 : V (Proc.devRef .tc main_v160) = (RefTerm.quot 31 X Y)
  v165 : V (Proc.devRef .tc main_v165) = (RefTerm.quot 32 X Y)
  v170 : V (Proc.devRef .tc main_v170) = (RefTerm.quot 33 X Y)

/-- What the buffers read from segment 5 on, and the two arguments, hold once the segments before it have run
    from a memory holding `X` and `Y` at the arguments. -/
structure Inv5 (V : Valuation τ sig (Elt F)) (X Y : FVec F S8x64x160x320 .f32) : Prop where
  arg0 : V (Proc.devRef .tc main_arg0) = X
  arg1 : V (Proc.devRef .tc main_arg1) = Y
  v0 : V (Proc.devRef .tc main_v0) = (RefTerm.padded X)
  v5 : V (Proc.devRef .tc main_v5) = (RefTerm.quot 0 X Y)
  v10 : V (Proc.devRef .tc main_v10) = (RefTerm.quot 1 X Y)
  v15 : V (Proc.devRef .tc main_v15) = (RefTerm.quot 2 X Y)
  v20 : V (Proc.devRef .tc main_v20) = (RefTerm.quot 3 X Y)
  v25 : V (Proc.devRef .tc main_v25) = (RefTerm.quot 4 X Y)
  v30 : V (Proc.devRef .tc main_v30) = (RefTerm.quot 5 X Y)
  v35 : V (Proc.devRef .tc main_v35) = (RefTerm.quot 6 X Y)
  v40 : V (Proc.devRef .tc main_v40) = (RefTerm.quot 7 X Y)
  v45 : V (Proc.devRef .tc main_v45) = (RefTerm.quot 8 X Y)
  v50 : V (Proc.devRef .tc main_v50) = (RefTerm.quot 9 X Y)
  v55 : V (Proc.devRef .tc main_v55) = (RefTerm.quot 10 X Y)
  v60 : V (Proc.devRef .tc main_v60) = (RefTerm.quot 11 X Y)
  v65 : V (Proc.devRef .tc main_v65) = (RefTerm.quot 12 X Y)
  v70 : V (Proc.devRef .tc main_v70) = (RefTerm.quot 13 X Y)
  v75 : V (Proc.devRef .tc main_v75) = (RefTerm.quot 14 X Y)
  v80 : V (Proc.devRef .tc main_v80) = (RefTerm.quot 15 X Y)
  v85 : V (Proc.devRef .tc main_v85) = (RefTerm.quot 16 X Y)
  v90 : V (Proc.devRef .tc main_v90) = (RefTerm.quot 17 X Y)
  v95 : V (Proc.devRef .tc main_v95) = (RefTerm.quot 18 X Y)
  v100 : V (Proc.devRef .tc main_v100) = (RefTerm.quot 19 X Y)
  v105 : V (Proc.devRef .tc main_v105) = (RefTerm.quot 20 X Y)
  v110 : V (Proc.devRef .tc main_v110) = (RefTerm.quot 21 X Y)
  v115 : V (Proc.devRef .tc main_v115) = (RefTerm.quot 22 X Y)
  v120 : V (Proc.devRef .tc main_v120) = (RefTerm.quot 23 X Y)
  v125 : V (Proc.devRef .tc main_v125) = (RefTerm.quot 24 X Y)
  v130 : V (Proc.devRef .tc main_v130) = (RefTerm.quot 25 X Y)
  v135 : V (Proc.devRef .tc main_v135) = (RefTerm.quot 26 X Y)
  v140 : V (Proc.devRef .tc main_v140) = (RefTerm.quot 27 X Y)
  v145 : V (Proc.devRef .tc main_v145) = (RefTerm.quot 28 X Y)
  v150 : V (Proc.devRef .tc main_v150) = (RefTerm.quot 29 X Y)
  v155 : V (Proc.devRef .tc main_v155) = (RefTerm.quot 30 X Y)
  v160 : V (Proc.devRef .tc main_v160) = (RefTerm.quot 31 X Y)
  v165 : V (Proc.devRef .tc main_v165) = (RefTerm.quot 32 X Y)
  v170 : V (Proc.devRef .tc main_v170) = (RefTerm.quot 33 X Y)
  v175 : V (Proc.devRef .tc main_v175) = (RefTerm.quot 34 X Y)
  v180 : V (Proc.devRef .tc main_v180) = (RefTerm.quot 35 X Y)
  v185 : V (Proc.devRef .tc main_v185) = (RefTerm.quot 36 X Y)
  v190 : V (Proc.devRef .tc main_v190) = (RefTerm.quot 37 X Y)
  v195 : V (Proc.devRef .tc main_v195) = (RefTerm.quot 38 X Y)
  v200 : V (Proc.devRef .tc main_v200) = (RefTerm.quot 39 X Y)
  v205 : V (Proc.devRef .tc main_v205) = (RefTerm.quot 40 X Y)
  v210 : V (Proc.devRef .tc main_v210) = (RefTerm.quot 41 X Y)
  v213 : V (Proc.devRef .tc main_v213) = (Host.reduceAdd (mulf (extractStridedSlice S8x64x160x320 ![0, 0, 6, 6] (RefTerm.padded X) slices_S8x64x168x328_S8x64x160x320_0_0_6_6) Y) (constant S_ .f32 0x00000000#32) reducesTo_S8x64x160x320_S8x160x320_d1 h_S_)

/-- What the buffers read from segment 6 on, and the two arguments, hold once the segments before it have run
    from a memory holding `X` and `Y` at the arguments. -/
structure Inv6 (V : Valuation τ sig (Elt F)) (X Y : FVec F S8x64x160x320 .f32) : Prop where
  arg0 : V (Proc.devRef .tc main_arg0) = X
  arg1 : V (Proc.devRef .tc main_arg1) = Y
  v0 : V (Proc.devRef .tc main_v0) = (RefTerm.padded X)
  v5 : V (Proc.devRef .tc main_v5) = (RefTerm.quot 0 X Y)
  v10 : V (Proc.devRef .tc main_v10) = (RefTerm.quot 1 X Y)
  v15 : V (Proc.devRef .tc main_v15) = (RefTerm.quot 2 X Y)
  v20 : V (Proc.devRef .tc main_v20) = (RefTerm.quot 3 X Y)
  v25 : V (Proc.devRef .tc main_v25) = (RefTerm.quot 4 X Y)
  v30 : V (Proc.devRef .tc main_v30) = (RefTerm.quot 5 X Y)
  v35 : V (Proc.devRef .tc main_v35) = (RefTerm.quot 6 X Y)
  v40 : V (Proc.devRef .tc main_v40) = (RefTerm.quot 7 X Y)
  v45 : V (Proc.devRef .tc main_v45) = (RefTerm.quot 8 X Y)
  v50 : V (Proc.devRef .tc main_v50) = (RefTerm.quot 9 X Y)
  v55 : V (Proc.devRef .tc main_v55) = (RefTerm.quot 10 X Y)
  v60 : V (Proc.devRef .tc main_v60) = (RefTerm.quot 11 X Y)
  v65 : V (Proc.devRef .tc main_v65) = (RefTerm.quot 12 X Y)
  v70 : V (Proc.devRef .tc main_v70) = (RefTerm.quot 13 X Y)
  v75 : V (Proc.devRef .tc main_v75) = (RefTerm.quot 14 X Y)
  v80 : V (Proc.devRef .tc main_v80) = (RefTerm.quot 15 X Y)
  v85 : V (Proc.devRef .tc main_v85) = (RefTerm.quot 16 X Y)
  v90 : V (Proc.devRef .tc main_v90) = (RefTerm.quot 17 X Y)
  v95 : V (Proc.devRef .tc main_v95) = (RefTerm.quot 18 X Y)
  v100 : V (Proc.devRef .tc main_v100) = (RefTerm.quot 19 X Y)
  v105 : V (Proc.devRef .tc main_v105) = (RefTerm.quot 20 X Y)
  v110 : V (Proc.devRef .tc main_v110) = (RefTerm.quot 21 X Y)
  v115 : V (Proc.devRef .tc main_v115) = (RefTerm.quot 22 X Y)
  v120 : V (Proc.devRef .tc main_v120) = (RefTerm.quot 23 X Y)
  v125 : V (Proc.devRef .tc main_v125) = (RefTerm.quot 24 X Y)
  v130 : V (Proc.devRef .tc main_v130) = (RefTerm.quot 25 X Y)
  v135 : V (Proc.devRef .tc main_v135) = (RefTerm.quot 26 X Y)
  v140 : V (Proc.devRef .tc main_v140) = (RefTerm.quot 27 X Y)
  v145 : V (Proc.devRef .tc main_v145) = (RefTerm.quot 28 X Y)
  v150 : V (Proc.devRef .tc main_v150) = (RefTerm.quot 29 X Y)
  v155 : V (Proc.devRef .tc main_v155) = (RefTerm.quot 30 X Y)
  v160 : V (Proc.devRef .tc main_v160) = (RefTerm.quot 31 X Y)
  v165 : V (Proc.devRef .tc main_v165) = (RefTerm.quot 32 X Y)
  v170 : V (Proc.devRef .tc main_v170) = (RefTerm.quot 33 X Y)
  v175 : V (Proc.devRef .tc main_v175) = (RefTerm.quot 34 X Y)
  v180 : V (Proc.devRef .tc main_v180) = (RefTerm.quot 35 X Y)
  v185 : V (Proc.devRef .tc main_v185) = (RefTerm.quot 36 X Y)
  v190 : V (Proc.devRef .tc main_v190) = (RefTerm.quot 37 X Y)
  v195 : V (Proc.devRef .tc main_v195) = (RefTerm.quot 38 X Y)
  v200 : V (Proc.devRef .tc main_v200) = (RefTerm.quot 39 X Y)
  v205 : V (Proc.devRef .tc main_v205) = (RefTerm.quot 40 X Y)
  v210 : V (Proc.devRef .tc main_v210) = (RefTerm.quot 41 X Y)
  v215 : V (Proc.devRef .tc main_v215) = (RefTerm.quot 42 X Y)
  v220 : V (Proc.devRef .tc main_v220) = (RefTerm.quot 43 X Y)
  v225 : V (Proc.devRef .tc main_v225) = (RefTerm.quot 44 X Y)
  v230 : V (Proc.devRef .tc main_v230) = (RefTerm.quot 45 X Y)
  v235 : V (Proc.devRef .tc main_v235) = (RefTerm.quot 46 X Y)
  v240 : V (Proc.devRef .tc main_v240) = (RefTerm.quot 47 X Y)
  v245 : V (Proc.devRef .tc main_v245) = (RefTerm.quot 48 X Y)
  v250 : V (Proc.devRef .tc main_v250) = (RefTerm.quot 49 X Y)
  v255 : V (Proc.devRef .tc main_v255) = (RefTerm.quot 50 X Y)
  v256 : V (Proc.devRef .tc main_v256) = (extractStridedSlice S8x64x160x320 ![0, 0, 8, 6] (RefTerm.padded X) slices_S8x64x168x328_S8x64x160x320_0_0_8_6)

/-- What the buffers read from segment 7 on, and the two arguments, hold once the segments before it have run
    from a memory holding `X` and `Y` at the arguments. -/
structure Inv7 (V : Valuation τ sig (Elt F)) (X Y : FVec F S8x64x160x320 .f32) : Prop where
  arg0 : V (Proc.devRef .tc main_arg0) = X
  arg1 : V (Proc.devRef .tc main_arg1) = Y
  v240 : V (Proc.devRef .tc main_v240) = (RefTerm.quot 47 X Y)
  v245 : V (Proc.devRef .tc main_v245) = (RefTerm.quot 48 X Y)
  v250 : V (Proc.devRef .tc main_v250) = (RefTerm.quot 49 X Y)
  v255 : V (Proc.devRef .tc main_v255) = (RefTerm.quot 50 X Y)
  v260 : V (Proc.devRef .tc main_v260) = (RefTerm.quot 51 X Y)
  v265 : V (Proc.devRef .tc main_v265) = (RefTerm.quot 52 X Y)
  v266 : V (Proc.devRef .tc main_v266) = (RefTerm.row 0 X Y)
  v267 : V (Proc.devRef .tc main_v267) = (RefTerm.row 1 X Y)
  v268 : V (Proc.devRef .tc main_v268) = (RefTerm.row 2 X Y)
  v269 : V (Proc.devRef .tc main_v269) = (RefTerm.row 3 X Y)
  v270 : V (Proc.devRef .tc main_v270) = (RefTerm.row 4 X Y)
  v271 : V (Proc.devRef .tc main_v271) = (RefTerm.row 5 X Y)
  v272 : V (Proc.devRef .tc main_v272) = (RefTerm.row 6 X Y)
  v273 : V (Proc.devRef .tc main_v273) = (RefTerm.row 7 X Y)
  v274 : V (Proc.devRef .tc main_v274) = (RefTerm.row 8 X Y)
  v275 : V (Proc.devRef .tc main_v275) = (RefTerm.row 9 X Y)
  v276 : V (Proc.devRef .tc main_v276) = (RefTerm.row 10 X Y)
  v277 : V (Proc.devRef .tc main_v277) = (RefTerm.row 11 X Y)
  v278 : V (Proc.devRef .tc main_v278) = (RefTerm.row 12 X Y)
  v279 : V (Proc.devRef .tc main_v279) = (RefTerm.row 13 X Y)
  v280 : V (Proc.devRef .tc main_v280) = (RefTerm.row 14 X Y)
  v281 : V (Proc.devRef .tc main_v281) = (RefTerm.row 15 X Y)
  v282 : V (Proc.devRef .tc main_v282) = (RefTerm.row 16 X Y)
  v283 : V (Proc.devRef .tc main_v283) = (RefTerm.row 17 X Y)
  v284 : V (Proc.devRef .tc main_v284) = (RefTerm.row 18 X Y)
  v285 : V (Proc.devRef .tc main_v285) = (RefTerm.row 19 X Y)
  v286 : V (Proc.devRef .tc main_v286) = (RefTerm.row 20 X Y)
  v287 : V (Proc.devRef .tc main_v287) = (RefTerm.row 21 X Y)
  v288 : V (Proc.devRef .tc main_v288) = (RefTerm.row 22 X Y)
  v289 : V (Proc.devRef .tc main_v289) = (RefTerm.row 23 X Y)
  v290 : V (Proc.devRef .tc main_v290) = (RefTerm.row 24 X Y)
  v291 : V (Proc.devRef .tc main_v291) = (RefTerm.row 25 X Y)
  v292 : V (Proc.devRef .tc main_v292) = (RefTerm.row 26 X Y)
  v293 : V (Proc.devRef .tc main_v293) = (RefTerm.row 27 X Y)
  v294 : V (Proc.devRef .tc main_v294) = (RefTerm.row 28 X Y)
  v295 : V (Proc.devRef .tc main_v295) = (RefTerm.row 29 X Y)
  v296 : V (Proc.devRef .tc main_v296) = (RefTerm.row 30 X Y)
  v297 : V (Proc.devRef .tc main_v297) = (RefTerm.row 31 X Y)
  v298 : V (Proc.devRef .tc main_v298) = (RefTerm.row 32 X Y)
  v299 : V (Proc.devRef .tc main_v299) = (RefTerm.row 33 X Y)
  v300 : V (Proc.devRef .tc main_v300) = (RefTerm.row 34 X Y)
  v301 : V (Proc.devRef .tc main_v301) = (RefTerm.row 35 X Y)
  v302 : V (Proc.devRef .tc main_v302) = (RefTerm.row 36 X Y)
  v303 : V (Proc.devRef .tc main_v303) = (RefTerm.row 37 X Y)
  v304 : V (Proc.devRef .tc main_v304) = (RefTerm.row 38 X Y)
  v305 : V (Proc.devRef .tc main_v305) = (RefTerm.row 39 X Y)
  v306 : V (Proc.devRef .tc main_v306) = (RefTerm.row 40 X Y)
  v307 : V (Proc.devRef .tc main_v307) = (RefTerm.row 41 X Y)
  v308 : V (Proc.devRef .tc main_v308) = (RefTerm.row 42 X Y)
  v309 : V (Proc.devRef .tc main_v309) = (RefTerm.row 43 X Y)
  v310 : V (Proc.devRef .tc main_v310) = (RefTerm.row 44 X Y)
  v311 : V (Proc.devRef .tc main_v311) = (RefTerm.row 45 X Y)
  v312 : V (Proc.devRef .tc main_v312) = (RefTerm.row 46 X Y)

/-- What the buffers read from segment 8 on, and the two arguments, hold once the segments before it have run
    from a memory holding `X` and `Y` at the arguments. -/
structure Inv8 (V : Valuation τ sig (Elt F)) (X Y : FVec F S8x64x160x320 .f32) : Prop where
  arg0 : V (Proc.devRef .tc main_arg0) = X
  arg1 : V (Proc.devRef .tc main_arg1) = Y
  v266 : V (Proc.devRef .tc main_v266) = (RefTerm.row 0 X Y)
  v267 : V (Proc.devRef .tc main_v267) = (RefTerm.row 1 X Y)
  v268 : V (Proc.devRef .tc main_v268) = (RefTerm.row 2 X Y)
  v269 : V (Proc.devRef .tc main_v269) = (RefTerm.row 3 X Y)
  v270 : V (Proc.devRef .tc main_v270) = (RefTerm.row 4 X Y)
  v271 : V (Proc.devRef .tc main_v271) = (RefTerm.row 5 X Y)
  v272 : V (Proc.devRef .tc main_v272) = (RefTerm.row 6 X Y)
  v273 : V (Proc.devRef .tc main_v273) = (RefTerm.row 7 X Y)
  v274 : V (Proc.devRef .tc main_v274) = (RefTerm.row 8 X Y)
  v275 : V (Proc.devRef .tc main_v275) = (RefTerm.row 9 X Y)
  v276 : V (Proc.devRef .tc main_v276) = (RefTerm.row 10 X Y)
  v277 : V (Proc.devRef .tc main_v277) = (RefTerm.row 11 X Y)
  v278 : V (Proc.devRef .tc main_v278) = (RefTerm.row 12 X Y)
  v279 : V (Proc.devRef .tc main_v279) = (RefTerm.row 13 X Y)
  v280 : V (Proc.devRef .tc main_v280) = (RefTerm.row 14 X Y)
  v281 : V (Proc.devRef .tc main_v281) = (RefTerm.row 15 X Y)
  v282 : V (Proc.devRef .tc main_v282) = (RefTerm.row 16 X Y)
  v283 : V (Proc.devRef .tc main_v283) = (RefTerm.row 17 X Y)
  v284 : V (Proc.devRef .tc main_v284) = (RefTerm.row 18 X Y)
  v285 : V (Proc.devRef .tc main_v285) = (RefTerm.row 19 X Y)
  v286 : V (Proc.devRef .tc main_v286) = (RefTerm.row 20 X Y)
  v287 : V (Proc.devRef .tc main_v287) = (RefTerm.row 21 X Y)
  v288 : V (Proc.devRef .tc main_v288) = (RefTerm.row 22 X Y)
  v289 : V (Proc.devRef .tc main_v289) = (RefTerm.row 23 X Y)
  v290 : V (Proc.devRef .tc main_v290) = (RefTerm.row 24 X Y)
  v291 : V (Proc.devRef .tc main_v291) = (RefTerm.row 25 X Y)
  v292 : V (Proc.devRef .tc main_v292) = (RefTerm.row 26 X Y)
  v293 : V (Proc.devRef .tc main_v293) = (RefTerm.row 27 X Y)
  v294 : V (Proc.devRef .tc main_v294) = (RefTerm.row 28 X Y)
  v295 : V (Proc.devRef .tc main_v295) = (RefTerm.row 29 X Y)
  v296 : V (Proc.devRef .tc main_v296) = (RefTerm.row 30 X Y)
  v297 : V (Proc.devRef .tc main_v297) = (RefTerm.row 31 X Y)
  v298 : V (Proc.devRef .tc main_v298) = (RefTerm.row 32 X Y)
  v299 : V (Proc.devRef .tc main_v299) = (RefTerm.row 33 X Y)
  v300 : V (Proc.devRef .tc main_v300) = (RefTerm.row 34 X Y)
  v301 : V (Proc.devRef .tc main_v301) = (RefTerm.row 35 X Y)
  v302 : V (Proc.devRef .tc main_v302) = (RefTerm.row 36 X Y)
  v303 : V (Proc.devRef .tc main_v303) = (RefTerm.row 37 X Y)
  v304 : V (Proc.devRef .tc main_v304) = (RefTerm.row 38 X Y)
  v305 : V (Proc.devRef .tc main_v305) = (RefTerm.row 39 X Y)
  v306 : V (Proc.devRef .tc main_v306) = (RefTerm.row 40 X Y)
  v307 : V (Proc.devRef .tc main_v307) = (RefTerm.row 41 X Y)
  v308 : V (Proc.devRef .tc main_v308) = (RefTerm.row 42 X Y)
  v309 : V (Proc.devRef .tc main_v309) = (RefTerm.row 43 X Y)
  v310 : V (Proc.devRef .tc main_v310) = (RefTerm.row 44 X Y)
  v311 : V (Proc.devRef .tc main_v311) = (RefTerm.row 45 X Y)
  v312 : V (Proc.devRef .tc main_v312) = (RefTerm.row 46 X Y)
  v313 : V (Proc.devRef .tc main_v313) = (RefTerm.row 47 X Y)
  v314 : V (Proc.devRef .tc main_v314) = (RefTerm.row 48 X Y)
  v315 : V (Proc.devRef .tc main_v315) = (RefTerm.row 49 X Y)
  v316 : V (Proc.devRef .tc main_v316) = (RefTerm.row 50 X Y)
  v317 : V (Proc.devRef .tc main_v317) = (RefTerm.row 51 X Y)
  v318 : V (Proc.devRef .tc main_v318) = (RefTerm.row 52 X Y)

/-- What the buffers read from segment 9 on, and the two arguments, hold once the segments before it have run
    from a memory holding `X` and `Y` at the arguments. -/
structure Inv9 (V : Valuation τ sig (Elt F)) (X Y : FVec F S8x64x160x320 .f32) : Prop where
  arg0 : V (Proc.devRef .tc main_arg0) = X
  arg1 : V (Proc.devRef .tc main_arg1) = Y
  v319 : V (Proc.devRef .tc main_v319) = (RefTerm.group16 0 X Y)
  v320 : V (Proc.devRef .tc main_v320) = (RefTerm.group16 16 X Y)
  v321 : V (Proc.devRef .tc main_v321) = (RefTerm.group16 32 X Y)
  v322 : V (Proc.devRef .tc main_v322) = (RefTerm.group5 48 X Y)

/-- What the buffers read from segment 10 on, and the two arguments, hold once the segments before it have run
    from a memory holding `X` and `Y` at the arguments. -/
structure Inv10 (V : Valuation τ sig (Elt F)) (X Y : FVec F S8x64x160x320 .f32) : Prop where
  arg0 : V (Proc.devRef .tc main_arg0) = X
  arg1 : V (Proc.devRef .tc main_arg1) = Y
  v323 : V (Proc.devRef .tc main_v323) = (RefTerm.stack X Y)

/-! ## Each segment's step -/

set_option maxRecDepth 8192 in
set_option maxHeartbeats 8000000 in
/-- Segment 0 takes what is held before it to what is held after it: a buffer it does not write keeps its contents, and a
    buffer it writes holds its operations' term of the contents found, which is the stated one by unfolding. -/
theorem step0 (V : Valuation τ sig (Elt F)) (X Y : FVec F S8x64x160x320 .f32) (h : Inv0 V X Y) :
    Inv1 (after W0 V) X Y where
  arg0 := (show after W0 V (Proc.devRef .tc main_arg0) = V (Proc.devRef .tc main_arg0) by simp only [after_cons, after_nil]; rfl).trans h.arg0
  arg1 := (show after W0 V (Proc.devRef .tc main_arg1) = V (Proc.devRef .tc main_arg1) by simp only [after_cons, after_nil]; rfl).trans h.arg1
  v0 := (show after W0 V (Proc.devRef .tc main_v0) = (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) by simp only [after_cons, after_nil]; rfl).trans
    (by rw [h.arg0] <;> rfl)
  v5 := (show after W0 V (Proc.devRef .tc main_v5) = (Host.divf (Host.reduceAdd (mulf (extractStridedSlice S8x64x160x320 ![0, 0, 0, 0] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_0_0) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v10 := (show after W0 V (Proc.devRef .tc main_v10) = (Host.divf (Host.reduceAdd (mulf (extractStridedSlice S8x64x160x320 ![0, 0, 0, 2] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_0_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v15 := (show after W0 V (Proc.devRef .tc main_v15) = (Host.divf (Host.reduceAdd (mulf (extractStridedSlice S8x64x160x320 ![0, 0, 0, 4] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_0_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v20 := (show after W0 V (Proc.devRef .tc main_v20) = (Host.divf (Host.reduceAdd (mulf (extractStridedSlice S8x64x160x320 ![0, 0, 0, 6] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_0_6) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v25 := (show after W0 V (Proc.devRef .tc main_v25) = (Host.divf (Host.reduceAdd (mulf (extractStridedSlice S8x64x160x320 ![0, 0, 0, 8] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_0_8) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v30 := (show after W0 V (Proc.devRef .tc main_v30) = (Host.divf (Host.reduceAdd (mulf (extractStridedSlice S8x64x160x320 ![0, 0, 1, 1] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_1_1) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v35 := (show after W0 V (Proc.devRef .tc main_v35) = (Host.divf (Host.reduceAdd (mulf (extractStridedSlice S8x64x160x320 ![0, 0, 1, 3] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_1_3) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v40 := (show after W0 V (Proc.devRef .tc main_v40) = (Host.divf (Host.reduceAdd (mulf (extractStridedSlice S8x64x160x320 ![0, 0, 1, 5] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_1_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.arg0, h.arg1] <;> rfl)
  v42 := (show after W0 V (Proc.devRef .tc main_v42) = (mulf (extractStridedSlice S8x64x160x320 ![0, 0, 1, 7] (pad S8x64x168x328 ![0, 0, 4, 4] ![0, 0, 4, 4] ![0, 0, 0, 0] (V (Proc.devRef .tc main_arg0)) (sitofp .f32 (constantI S_ 32 0#32)) pads_S8x64x160x320_S8x64x168x328_000_000_440_440 h_S_) slices_S8x64x168x328_S8x64x160x320_0_0_1_7) (V (Proc.devRef .tc main_arg1))) by simp only [after_cons, after_nil]; rfl).trans
    (by rw [h.arg0, h.arg1] <;> rfl)

set_option maxRecDepth 8192 in
set_option maxHeartbeats 8000000 in
/-- Segment 1 takes what is held before it to what is held after it: a buffer it does not write keeps its contents, and a
    buffer it writes holds its operations' term of the contents found, which is the stated one by unfolding. -/
theorem step1 (V : Valuation τ sig (Elt F)) (X Y : FVec F S8x64x160x320 .f32) (h : Inv1 V X Y) :
    Inv2 (after W1 V) X Y where
  arg0 := (show after W1 V (Proc.devRef .tc main_arg0) = V (Proc.devRef .tc main_arg0) by simp only [after_cons, after_nil]; rfl).trans h.arg0
  arg1 := (show after W1 V (Proc.devRef .tc main_arg1) = V (Proc.devRef .tc main_arg1) by simp only [after_cons, after_nil]; rfl).trans h.arg1
  v0 := (show after W1 V (Proc.devRef .tc main_v0) = V (Proc.devRef .tc main_v0) by simp only [after_cons, after_nil]; rfl).trans h.v0
  v5 := (show after W1 V (Proc.devRef .tc main_v5) = V (Proc.devRef .tc main_v5) by simp only [after_cons, after_nil]; rfl).trans h.v5
  v10 := (show after W1 V (Proc.devRef .tc main_v10) = V (Proc.devRef .tc main_v10) by simp only [after_cons, after_nil]; rfl).trans h.v10
  v15 := (show after W1 V (Proc.devRef .tc main_v15) = V (Proc.devRef .tc main_v15) by simp only [after_cons, after_nil]; rfl).trans h.v15
  v20 := (show after W1 V (Proc.devRef .tc main_v20) = V (Proc.devRef .tc main_v20) by simp only [after_cons, after_nil]; rfl).trans h.v20
  v25 := (show after W1 V (Proc.devRef .tc main_v25) = V (Proc.devRef .tc main_v25) by simp only [after_cons, after_nil]; rfl).trans h.v25
  v30 := (show after W1 V (Proc.devRef .tc main_v30) = V (Proc.devRef .tc main_v30) by simp only [after_cons, after_nil]; rfl).trans h.v30
  v35 := (show after W1 V (Proc.devRef .tc main_v35) = V (Proc.devRef .tc main_v35) by simp only [after_cons, after_nil]; rfl).trans h.v35
  v40 := (show after W1 V (Proc.devRef .tc main_v40) = V (Proc.devRef .tc main_v40) by simp only [after_cons, after_nil]; rfl).trans h.v40
  v45 := (show after W1 V (Proc.devRef .tc main_v45) = (Host.divf (Host.reduceAdd (V (Proc.devRef .tc main_v42)) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v42] <;> rfl)
  v50 := (show after W1 V (Proc.devRef .tc main_v50) = (Host.divf (Host.reduceAdd (mulf (extractStridedSlice S8x64x160x320 ![0, 0, 2, 0] (V (Proc.devRef .tc main_v0)) slices_S8x64x168x328_S8x64x160x320_0_0_2_0) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v55 := (show after W1 V (Proc.devRef .tc main_v55) = (Host.divf (Host.reduceAdd (mulf (extractStridedSlice S8x64x160x320 ![0, 0, 2, 2] (V (Proc.devRef .tc main_v0)) slices_S8x64x168x328_S8x64x160x320_0_0_2_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v60 := (show after W1 V (Proc.devRef .tc main_v60) = (Host.divf (Host.reduceAdd (mulf (extractStridedSlice S8x64x160x320 ![0, 0, 2, 3] (V (Proc.devRef .tc main_v0)) slices_S8x64x168x328_S8x64x160x320_0_0_2_3) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v65 := (show after W1 V (Proc.devRef .tc main_v65) = (Host.divf (Host.reduceAdd (mulf (extractStridedSlice S8x64x160x320 ![0, 0, 2, 4] (V (Proc.devRef .tc main_v0)) slices_S8x64x168x328_S8x64x160x320_0_0_2_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v70 := (show after W1 V (Proc.devRef .tc main_v70) = (Host.divf (Host.reduceAdd (mulf (extractStridedSlice S8x64x160x320 ![0, 0, 2, 5] (V (Proc.devRef .tc main_v0)) slices_S8x64x168x328_S8x64x160x320_0_0_2_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v75 := (show after W1 V (Proc.devRef .tc main_v75) = (Host.divf (Host.reduceAdd (mulf (extractStridedSlice S8x64x160x320 ![0, 0, 2, 6] (V (Proc.devRef .tc main_v0)) slices_S8x64x168x328_S8x64x160x320_0_0_2_6) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v80 := (show after W1 V (Proc.devRef .tc main_v80) = (Host.divf (Host.reduceAdd (mulf (extractStridedSlice S8x64x160x320 ![0, 0, 2, 8] (V (Proc.devRef .tc main_v0)) slices_S8x64x168x328_S8x64x160x320_0_0_2_8) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v83 := (show after W1 V (Proc.devRef .tc main_v83) = (Host.reduceAdd (mulf (extractStridedSlice S8x64x160x320 ![0, 0, 3, 1] (V (Proc.devRef .tc main_v0)) slices_S8x64x168x328_S8x64x160x320_0_0_3_1) (V (Proc.devRef .tc main_arg1))) (constant S_ .f32 0x00000000#32) reducesTo_S8x64x160x320_S8x160x320_d1 h_S_) by simp only [after_cons, after_nil]; rfl).trans
    (by rw [h.v0, h.arg1] <;> rfl)
  v84 := (show after W1 V (Proc.devRef .tc main_v84) = (broadcastInDim S8x160x320 ![] bcast_S_S8x160x320 (constant S_ .f32 0x42800000#32)) by simp only [after_cons, after_nil]; rfl).trans
    (by rfl)

set_option maxRecDepth 8192 in
set_option maxHeartbeats 8000000 in
/-- Segment 2 takes what is held before it to what is held after it: a buffer it does not write keeps its contents, and a
    buffer it writes holds its operations' term of the contents found, which is the stated one by unfolding. -/
theorem step2 (V : Valuation τ sig (Elt F)) (X Y : FVec F S8x64x160x320 .f32) (h : Inv2 V X Y) :
    Inv3 (after W2 V) X Y where
  arg0 := (show after W2 V (Proc.devRef .tc main_arg0) = V (Proc.devRef .tc main_arg0) by simp only [after_cons, after_nil]; rfl).trans h.arg0
  arg1 := (show after W2 V (Proc.devRef .tc main_arg1) = V (Proc.devRef .tc main_arg1) by simp only [after_cons, after_nil]; rfl).trans h.arg1
  v0 := (show after W2 V (Proc.devRef .tc main_v0) = V (Proc.devRef .tc main_v0) by simp only [after_cons, after_nil]; rfl).trans h.v0
  v5 := (show after W2 V (Proc.devRef .tc main_v5) = V (Proc.devRef .tc main_v5) by simp only [after_cons, after_nil]; rfl).trans h.v5
  v10 := (show after W2 V (Proc.devRef .tc main_v10) = V (Proc.devRef .tc main_v10) by simp only [after_cons, after_nil]; rfl).trans h.v10
  v15 := (show after W2 V (Proc.devRef .tc main_v15) = V (Proc.devRef .tc main_v15) by simp only [after_cons, after_nil]; rfl).trans h.v15
  v20 := (show after W2 V (Proc.devRef .tc main_v20) = V (Proc.devRef .tc main_v20) by simp only [after_cons, after_nil]; rfl).trans h.v20
  v25 := (show after W2 V (Proc.devRef .tc main_v25) = V (Proc.devRef .tc main_v25) by simp only [after_cons, after_nil]; rfl).trans h.v25
  v30 := (show after W2 V (Proc.devRef .tc main_v30) = V (Proc.devRef .tc main_v30) by simp only [after_cons, after_nil]; rfl).trans h.v30
  v35 := (show after W2 V (Proc.devRef .tc main_v35) = V (Proc.devRef .tc main_v35) by simp only [after_cons, after_nil]; rfl).trans h.v35
  v40 := (show after W2 V (Proc.devRef .tc main_v40) = V (Proc.devRef .tc main_v40) by simp only [after_cons, after_nil]; rfl).trans h.v40
  v45 := (show after W2 V (Proc.devRef .tc main_v45) = V (Proc.devRef .tc main_v45) by simp only [after_cons, after_nil]; rfl).trans h.v45
  v50 := (show after W2 V (Proc.devRef .tc main_v50) = V (Proc.devRef .tc main_v50) by simp only [after_cons, after_nil]; rfl).trans h.v50
  v55 := (show after W2 V (Proc.devRef .tc main_v55) = V (Proc.devRef .tc main_v55) by simp only [after_cons, after_nil]; rfl).trans h.v55
  v60 := (show after W2 V (Proc.devRef .tc main_v60) = V (Proc.devRef .tc main_v60) by simp only [after_cons, after_nil]; rfl).trans h.v60
  v65 := (show after W2 V (Proc.devRef .tc main_v65) = V (Proc.devRef .tc main_v65) by simp only [after_cons, after_nil]; rfl).trans h.v65
  v70 := (show after W2 V (Proc.devRef .tc main_v70) = V (Proc.devRef .tc main_v70) by simp only [after_cons, after_nil]; rfl).trans h.v70
  v75 := (show after W2 V (Proc.devRef .tc main_v75) = V (Proc.devRef .tc main_v75) by simp only [after_cons, after_nil]; rfl).trans h.v75
  v80 := (show after W2 V (Proc.devRef .tc main_v80) = V (Proc.devRef .tc main_v80) by simp only [after_cons, after_nil]; rfl).trans h.v80
  v85 := (show after W2 V (Proc.devRef .tc main_v85) = (Host.divf (V (Proc.devRef .tc main_v83)) (V (Proc.devRef .tc main_v84))) by simp only [after_cons, after_nil]; rfl).trans
    (by rw [h.v83, h.v84] <;> rfl)
  v90 := (show after W2 V (Proc.devRef .tc main_v90) = (Host.divf (Host.reduceAdd (mulf (extractStridedSlice S8x64x160x320 ![0, 0, 3, 2] (V (Proc.devRef .tc main_v0)) slices_S8x64x168x328_S8x64x160x320_0_0_3_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v95 := (show after W2 V (Proc.devRef .tc main_v95) = (Host.divf (Host.reduceAdd (mulf (extractStridedSlice S8x64x160x320 ![0, 0, 3, 3] (V (Proc.devRef .tc main_v0)) slices_S8x64x168x328_S8x64x160x320_0_0_3_3) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v100 := (show after W2 V (Proc.devRef .tc main_v100) = (Host.divf (Host.reduceAdd (mulf (extractStridedSlice S8x64x160x320 ![0, 0, 3, 4] (V (Proc.devRef .tc main_v0)) slices_S8x64x168x328_S8x64x160x320_0_0_3_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v105 := (show after W2 V (Proc.devRef .tc main_v105) = (Host.divf (Host.reduceAdd (mulf (extractStridedSlice S8x64x160x320 ![0, 0, 3, 5] (V (Proc.devRef .tc main_v0)) slices_S8x64x168x328_S8x64x160x320_0_0_3_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v110 := (show after W2 V (Proc.devRef .tc main_v110) = (Host.divf (Host.reduceAdd (mulf (extractStridedSlice S8x64x160x320 ![0, 0, 3, 6] (V (Proc.devRef .tc main_v0)) slices_S8x64x168x328_S8x64x160x320_0_0_3_6) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v115 := (show after W2 V (Proc.devRef .tc main_v115) = (Host.divf (Host.reduceAdd (mulf (extractStridedSlice S8x64x160x320 ![0, 0, 3, 7] (V (Proc.devRef .tc main_v0)) slices_S8x64x168x328_S8x64x160x320_0_0_3_7) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v120 := (show after W2 V (Proc.devRef .tc main_v120) = (Host.divf (Host.reduceAdd (mulf (extractStridedSlice S8x64x160x320 ![0, 0, 4, 0] (V (Proc.devRef .tc main_v0)) slices_S8x64x168x328_S8x64x160x320_0_0_4_0) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v125 := (show after W2 V (Proc.devRef .tc main_v125) = (Host.divf (Host.reduceAdd (mulf (extractStridedSlice S8x64x160x320 ![0, 0, 4, 2] (V (Proc.devRef .tc main_v0)) slices_S8x64x168x328_S8x64x160x320_0_0_4_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v127 := (show after W2 V (Proc.devRef .tc main_v127) = (mulf (extractStridedSlice S8x64x160x320 ![0, 0, 4, 3] (V (Proc.devRef .tc main_v0)) slices_S8x64x168x328_S8x64x160x320_0_0_4_3) (V (Proc.devRef .tc main_arg1))) by simp only [after_cons, after_nil]; rfl).trans
    (by rw [h.v0, h.arg1] <;> rfl)
  cst_49 := (show after W2 V (Proc.devRef .tc main_cst_49) = (constant S_ .f32 0x00000000#32) by simp only [after_cons, after_nil]; rfl).trans
    (by rfl)

set_option maxRecDepth 8192 in
set_option maxHeartbeats 8000000 in
/-- Segment 3 takes what is held before it to what is held after it: a buffer it does not write keeps its contents, and a
    buffer it writes holds its operations' term of the contents found, which is the stated one by unfolding. -/
theorem step3 (V : Valuation τ sig (Elt F)) (X Y : FVec F S8x64x160x320 .f32) (h : Inv3 V X Y) :
    Inv4 (after W3 V) X Y where
  arg0 := (show after W3 V (Proc.devRef .tc main_arg0) = V (Proc.devRef .tc main_arg0) by simp only [after_cons, after_nil]; rfl).trans h.arg0
  arg1 := (show after W3 V (Proc.devRef .tc main_arg1) = V (Proc.devRef .tc main_arg1) by simp only [after_cons, after_nil]; rfl).trans h.arg1
  v0 := (show after W3 V (Proc.devRef .tc main_v0) = V (Proc.devRef .tc main_v0) by simp only [after_cons, after_nil]; rfl).trans h.v0
  v5 := (show after W3 V (Proc.devRef .tc main_v5) = V (Proc.devRef .tc main_v5) by simp only [after_cons, after_nil]; rfl).trans h.v5
  v10 := (show after W3 V (Proc.devRef .tc main_v10) = V (Proc.devRef .tc main_v10) by simp only [after_cons, after_nil]; rfl).trans h.v10
  v15 := (show after W3 V (Proc.devRef .tc main_v15) = V (Proc.devRef .tc main_v15) by simp only [after_cons, after_nil]; rfl).trans h.v15
  v20 := (show after W3 V (Proc.devRef .tc main_v20) = V (Proc.devRef .tc main_v20) by simp only [after_cons, after_nil]; rfl).trans h.v20
  v25 := (show after W3 V (Proc.devRef .tc main_v25) = V (Proc.devRef .tc main_v25) by simp only [after_cons, after_nil]; rfl).trans h.v25
  v30 := (show after W3 V (Proc.devRef .tc main_v30) = V (Proc.devRef .tc main_v30) by simp only [after_cons, after_nil]; rfl).trans h.v30
  v35 := (show after W3 V (Proc.devRef .tc main_v35) = V (Proc.devRef .tc main_v35) by simp only [after_cons, after_nil]; rfl).trans h.v35
  v40 := (show after W3 V (Proc.devRef .tc main_v40) = V (Proc.devRef .tc main_v40) by simp only [after_cons, after_nil]; rfl).trans h.v40
  v45 := (show after W3 V (Proc.devRef .tc main_v45) = V (Proc.devRef .tc main_v45) by simp only [after_cons, after_nil]; rfl).trans h.v45
  v50 := (show after W3 V (Proc.devRef .tc main_v50) = V (Proc.devRef .tc main_v50) by simp only [after_cons, after_nil]; rfl).trans h.v50
  v55 := (show after W3 V (Proc.devRef .tc main_v55) = V (Proc.devRef .tc main_v55) by simp only [after_cons, after_nil]; rfl).trans h.v55
  v60 := (show after W3 V (Proc.devRef .tc main_v60) = V (Proc.devRef .tc main_v60) by simp only [after_cons, after_nil]; rfl).trans h.v60
  v65 := (show after W3 V (Proc.devRef .tc main_v65) = V (Proc.devRef .tc main_v65) by simp only [after_cons, after_nil]; rfl).trans h.v65
  v70 := (show after W3 V (Proc.devRef .tc main_v70) = V (Proc.devRef .tc main_v70) by simp only [after_cons, after_nil]; rfl).trans h.v70
  v75 := (show after W3 V (Proc.devRef .tc main_v75) = V (Proc.devRef .tc main_v75) by simp only [after_cons, after_nil]; rfl).trans h.v75
  v80 := (show after W3 V (Proc.devRef .tc main_v80) = V (Proc.devRef .tc main_v80) by simp only [after_cons, after_nil]; rfl).trans h.v80
  v85 := (show after W3 V (Proc.devRef .tc main_v85) = V (Proc.devRef .tc main_v85) by simp only [after_cons, after_nil]; rfl).trans h.v85
  v90 := (show after W3 V (Proc.devRef .tc main_v90) = V (Proc.devRef .tc main_v90) by simp only [after_cons, after_nil]; rfl).trans h.v90
  v95 := (show after W3 V (Proc.devRef .tc main_v95) = V (Proc.devRef .tc main_v95) by simp only [after_cons, after_nil]; rfl).trans h.v95
  v100 := (show after W3 V (Proc.devRef .tc main_v100) = V (Proc.devRef .tc main_v100) by simp only [after_cons, after_nil]; rfl).trans h.v100
  v105 := (show after W3 V (Proc.devRef .tc main_v105) = V (Proc.devRef .tc main_v105) by simp only [after_cons, after_nil]; rfl).trans h.v105
  v110 := (show after W3 V (Proc.devRef .tc main_v110) = V (Proc.devRef .tc main_v110) by simp only [after_cons, after_nil]; rfl).trans h.v110
  v115 := (show after W3 V (Proc.devRef .tc main_v115) = V (Proc.devRef .tc main_v115) by simp only [after_cons, after_nil]; rfl).trans h.v115
  v120 := (show after W3 V (Proc.devRef .tc main_v120) = V (Proc.devRef .tc main_v120) by simp only [after_cons, after_nil]; rfl).trans h.v120
  v125 := (show after W3 V (Proc.devRef .tc main_v125) = V (Proc.devRef .tc main_v125) by simp only [after_cons, after_nil]; rfl).trans h.v125
  v130 := (show after W3 V (Proc.devRef .tc main_v130) = (Host.divf (Host.reduceAdd (V (Proc.devRef .tc main_v127)) (V (Proc.devRef .tc main_cst_49)) reducesTo_S8x64x160x320_S8x160x320_d1 h_S_) (broadcastInDim S8x160x320 ![] bcast_S_S8x160x320 (constant S_ .f32 0x42800000#32))) by simp only [after_cons, after_nil]; rfl).trans
    (by rw [h.v127, h.cst_49] <;> rfl)
  v135 := (show after W3 V (Proc.devRef .tc main_v135) = (Host.divf (Host.reduceAdd (mulf (extractStridedSlice S8x64x160x320 ![0, 0, 4, 4] (V (Proc.devRef .tc main_v0)) slices_S8x64x168x328_S8x64x160x320_0_0_4_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v140 := (show after W3 V (Proc.devRef .tc main_v140) = (Host.divf (Host.reduceAdd (mulf (extractStridedSlice S8x64x160x320 ![0, 0, 4, 5] (V (Proc.devRef .tc main_v0)) slices_S8x64x168x328_S8x64x160x320_0_0_4_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v145 := (show after W3 V (Proc.devRef .tc main_v145) = (Host.divf (Host.reduceAdd (mulf (extractStridedSlice S8x64x160x320 ![0, 0, 4, 6] (V (Proc.devRef .tc main_v0)) slices_S8x64x168x328_S8x64x160x320_0_0_4_6) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v150 := (show after W3 V (Proc.devRef .tc main_v150) = (Host.divf (Host.reduceAdd (mulf (extractStridedSlice S8x64x160x320 ![0, 0, 4, 8] (V (Proc.devRef .tc main_v0)) slices_S8x64x168x328_S8x64x160x320_0_0_4_8) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v155 := (show after W3 V (Proc.devRef .tc main_v155) = (Host.divf (Host.reduceAdd (mulf (extractStridedSlice S8x64x160x320 ![0, 0, 5, 1] (V (Proc.devRef .tc main_v0)) slices_S8x64x168x328_S8x64x160x320_0_0_5_1) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v160 := (show after W3 V (Proc.devRef .tc main_v160) = (Host.divf (Host.reduceAdd (mulf (extractStridedSlice S8x64x160x320 ![0, 0, 5, 2] (V (Proc.devRef .tc main_v0)) slices_S8x64x168x328_S8x64x160x320_0_0_5_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v165 := (show after W3 V (Proc.devRef .tc main_v165) = (Host.divf (Host.reduceAdd (mulf (extractStridedSlice S8x64x160x320 ![0, 0, 5, 3] (V (Proc.devRef .tc main_v0)) slices_S8x64x168x328_S8x64x160x320_0_0_5_3) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v170 := (show after W3 V (Proc.devRef .tc main_v170) = (Host.divf (Host.reduceAdd (mulf (extractStridedSlice S8x64x160x320 ![0, 0, 5, 4] (V (Proc.devRef .tc main_v0)) slices_S8x64x168x328_S8x64x160x320_0_0_5_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)

set_option maxRecDepth 8192 in
set_option maxHeartbeats 8000000 in
/-- Segment 4 takes what is held before it to what is held after it: a buffer it does not write keeps its contents, and a
    buffer it writes holds its operations' term of the contents found, which is the stated one by unfolding. -/
theorem step4 (V : Valuation τ sig (Elt F)) (X Y : FVec F S8x64x160x320 .f32) (h : Inv4 V X Y) :
    Inv5 (after W4 V) X Y where
  arg0 := (show after W4 V (Proc.devRef .tc main_arg0) = V (Proc.devRef .tc main_arg0) by simp only [after_cons, after_nil]; rfl).trans h.arg0
  arg1 := (show after W4 V (Proc.devRef .tc main_arg1) = V (Proc.devRef .tc main_arg1) by simp only [after_cons, after_nil]; rfl).trans h.arg1
  v0 := (show after W4 V (Proc.devRef .tc main_v0) = V (Proc.devRef .tc main_v0) by simp only [after_cons, after_nil]; rfl).trans h.v0
  v5 := (show after W4 V (Proc.devRef .tc main_v5) = V (Proc.devRef .tc main_v5) by simp only [after_cons, after_nil]; rfl).trans h.v5
  v10 := (show after W4 V (Proc.devRef .tc main_v10) = V (Proc.devRef .tc main_v10) by simp only [after_cons, after_nil]; rfl).trans h.v10
  v15 := (show after W4 V (Proc.devRef .tc main_v15) = V (Proc.devRef .tc main_v15) by simp only [after_cons, after_nil]; rfl).trans h.v15
  v20 := (show after W4 V (Proc.devRef .tc main_v20) = V (Proc.devRef .tc main_v20) by simp only [after_cons, after_nil]; rfl).trans h.v20
  v25 := (show after W4 V (Proc.devRef .tc main_v25) = V (Proc.devRef .tc main_v25) by simp only [after_cons, after_nil]; rfl).trans h.v25
  v30 := (show after W4 V (Proc.devRef .tc main_v30) = V (Proc.devRef .tc main_v30) by simp only [after_cons, after_nil]; rfl).trans h.v30
  v35 := (show after W4 V (Proc.devRef .tc main_v35) = V (Proc.devRef .tc main_v35) by simp only [after_cons, after_nil]; rfl).trans h.v35
  v40 := (show after W4 V (Proc.devRef .tc main_v40) = V (Proc.devRef .tc main_v40) by simp only [after_cons, after_nil]; rfl).trans h.v40
  v45 := (show after W4 V (Proc.devRef .tc main_v45) = V (Proc.devRef .tc main_v45) by simp only [after_cons, after_nil]; rfl).trans h.v45
  v50 := (show after W4 V (Proc.devRef .tc main_v50) = V (Proc.devRef .tc main_v50) by simp only [after_cons, after_nil]; rfl).trans h.v50
  v55 := (show after W4 V (Proc.devRef .tc main_v55) = V (Proc.devRef .tc main_v55) by simp only [after_cons, after_nil]; rfl).trans h.v55
  v60 := (show after W4 V (Proc.devRef .tc main_v60) = V (Proc.devRef .tc main_v60) by simp only [after_cons, after_nil]; rfl).trans h.v60
  v65 := (show after W4 V (Proc.devRef .tc main_v65) = V (Proc.devRef .tc main_v65) by simp only [after_cons, after_nil]; rfl).trans h.v65
  v70 := (show after W4 V (Proc.devRef .tc main_v70) = V (Proc.devRef .tc main_v70) by simp only [after_cons, after_nil]; rfl).trans h.v70
  v75 := (show after W4 V (Proc.devRef .tc main_v75) = V (Proc.devRef .tc main_v75) by simp only [after_cons, after_nil]; rfl).trans h.v75
  v80 := (show after W4 V (Proc.devRef .tc main_v80) = V (Proc.devRef .tc main_v80) by simp only [after_cons, after_nil]; rfl).trans h.v80
  v85 := (show after W4 V (Proc.devRef .tc main_v85) = V (Proc.devRef .tc main_v85) by simp only [after_cons, after_nil]; rfl).trans h.v85
  v90 := (show after W4 V (Proc.devRef .tc main_v90) = V (Proc.devRef .tc main_v90) by simp only [after_cons, after_nil]; rfl).trans h.v90
  v95 := (show after W4 V (Proc.devRef .tc main_v95) = V (Proc.devRef .tc main_v95) by simp only [after_cons, after_nil]; rfl).trans h.v95
  v100 := (show after W4 V (Proc.devRef .tc main_v100) = V (Proc.devRef .tc main_v100) by simp only [after_cons, after_nil]; rfl).trans h.v100
  v105 := (show after W4 V (Proc.devRef .tc main_v105) = V (Proc.devRef .tc main_v105) by simp only [after_cons, after_nil]; rfl).trans h.v105
  v110 := (show after W4 V (Proc.devRef .tc main_v110) = V (Proc.devRef .tc main_v110) by simp only [after_cons, after_nil]; rfl).trans h.v110
  v115 := (show after W4 V (Proc.devRef .tc main_v115) = V (Proc.devRef .tc main_v115) by simp only [after_cons, after_nil]; rfl).trans h.v115
  v120 := (show after W4 V (Proc.devRef .tc main_v120) = V (Proc.devRef .tc main_v120) by simp only [after_cons, after_nil]; rfl).trans h.v120
  v125 := (show after W4 V (Proc.devRef .tc main_v125) = V (Proc.devRef .tc main_v125) by simp only [after_cons, after_nil]; rfl).trans h.v125
  v130 := (show after W4 V (Proc.devRef .tc main_v130) = V (Proc.devRef .tc main_v130) by simp only [after_cons, after_nil]; rfl).trans h.v130
  v135 := (show after W4 V (Proc.devRef .tc main_v135) = V (Proc.devRef .tc main_v135) by simp only [after_cons, after_nil]; rfl).trans h.v135
  v140 := (show after W4 V (Proc.devRef .tc main_v140) = V (Proc.devRef .tc main_v140) by simp only [after_cons, after_nil]; rfl).trans h.v140
  v145 := (show after W4 V (Proc.devRef .tc main_v145) = V (Proc.devRef .tc main_v145) by simp only [after_cons, after_nil]; rfl).trans h.v145
  v150 := (show after W4 V (Proc.devRef .tc main_v150) = V (Proc.devRef .tc main_v150) by simp only [after_cons, after_nil]; rfl).trans h.v150
  v155 := (show after W4 V (Proc.devRef .tc main_v155) = V (Proc.devRef .tc main_v155) by simp only [after_cons, after_nil]; rfl).trans h.v155
  v160 := (show after W4 V (Proc.devRef .tc main_v160) = V (Proc.devRef .tc main_v160) by simp only [after_cons, after_nil]; rfl).trans h.v160
  v165 := (show after W4 V (Proc.devRef .tc main_v165) = V (Proc.devRef .tc main_v165) by simp only [after_cons, after_nil]; rfl).trans h.v165
  v170 := (show after W4 V (Proc.devRef .tc main_v170) = V (Proc.devRef .tc main_v170) by simp only [after_cons, after_nil]; rfl).trans h.v170
  v175 := (show after W4 V (Proc.devRef .tc main_v175) = (Host.divf (Host.reduceAdd (mulf (extractStridedSlice S8x64x160x320 ![0, 0, 5, 5] (V (Proc.devRef .tc main_v0)) slices_S8x64x168x328_S8x64x160x320_0_0_5_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v180 := (show after W4 V (Proc.devRef .tc main_v180) = (Host.divf (Host.reduceAdd (mulf (extractStridedSlice S8x64x160x320 ![0, 0, 5, 6] (V (Proc.devRef .tc main_v0)) slices_S8x64x168x328_S8x64x160x320_0_0_5_6) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v185 := (show after W4 V (Proc.devRef .tc main_v185) = (Host.divf (Host.reduceAdd (mulf (extractStridedSlice S8x64x160x320 ![0, 0, 5, 7] (V (Proc.devRef .tc main_v0)) slices_S8x64x168x328_S8x64x160x320_0_0_5_7) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v190 := (show after W4 V (Proc.devRef .tc main_v190) = (Host.divf (Host.reduceAdd (mulf (extractStridedSlice S8x64x160x320 ![0, 0, 6, 0] (V (Proc.devRef .tc main_v0)) slices_S8x64x168x328_S8x64x160x320_0_0_6_0) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v195 := (show after W4 V (Proc.devRef .tc main_v195) = (Host.divf (Host.reduceAdd (mulf (extractStridedSlice S8x64x160x320 ![0, 0, 6, 2] (V (Proc.devRef .tc main_v0)) slices_S8x64x168x328_S8x64x160x320_0_0_6_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v200 := (show after W4 V (Proc.devRef .tc main_v200) = (Host.divf (Host.reduceAdd (mulf (extractStridedSlice S8x64x160x320 ![0, 0, 6, 3] (V (Proc.devRef .tc main_v0)) slices_S8x64x168x328_S8x64x160x320_0_0_6_3) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v205 := (show after W4 V (Proc.devRef .tc main_v205) = (Host.divf (Host.reduceAdd (mulf (extractStridedSlice S8x64x160x320 ![0, 0, 6, 4] (V (Proc.devRef .tc main_v0)) slices_S8x64x168x328_S8x64x160x320_0_0_6_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v210 := (show after W4 V (Proc.devRef .tc main_v210) = (Host.divf (Host.reduceAdd (mulf (extractStridedSlice S8x64x160x320 ![0, 0, 6, 5] (V (Proc.devRef .tc main_v0)) slices_S8x64x168x328_S8x64x160x320_0_0_6_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v213 := (show after W4 V (Proc.devRef .tc main_v213) = (Host.reduceAdd (mulf (extractStridedSlice S8x64x160x320 ![0, 0, 6, 6] (V (Proc.devRef .tc main_v0)) slices_S8x64x168x328_S8x64x160x320_0_0_6_6) (V (Proc.devRef .tc main_arg1))) (constant S_ .f32 0x00000000#32) reducesTo_S8x64x160x320_S8x160x320_d1 h_S_) by simp only [after_cons, after_nil]; rfl).trans
    (by rw [h.v0, h.arg1] <;> rfl)

set_option maxRecDepth 8192 in
set_option maxHeartbeats 8000000 in
/-- Segment 5 takes what is held before it to what is held after it: a buffer it does not write keeps its contents, and a
    buffer it writes holds its operations' term of the contents found, which is the stated one by unfolding. -/
theorem step5 (V : Valuation τ sig (Elt F)) (X Y : FVec F S8x64x160x320 .f32) (h : Inv5 V X Y) :
    Inv6 (after W5 V) X Y where
  arg0 := (show after W5 V (Proc.devRef .tc main_arg0) = V (Proc.devRef .tc main_arg0) by simp only [after_cons, after_nil]; rfl).trans h.arg0
  arg1 := (show after W5 V (Proc.devRef .tc main_arg1) = V (Proc.devRef .tc main_arg1) by simp only [after_cons, after_nil]; rfl).trans h.arg1
  v0 := (show after W5 V (Proc.devRef .tc main_v0) = V (Proc.devRef .tc main_v0) by simp only [after_cons, after_nil]; rfl).trans h.v0
  v5 := (show after W5 V (Proc.devRef .tc main_v5) = V (Proc.devRef .tc main_v5) by simp only [after_cons, after_nil]; rfl).trans h.v5
  v10 := (show after W5 V (Proc.devRef .tc main_v10) = V (Proc.devRef .tc main_v10) by simp only [after_cons, after_nil]; rfl).trans h.v10
  v15 := (show after W5 V (Proc.devRef .tc main_v15) = V (Proc.devRef .tc main_v15) by simp only [after_cons, after_nil]; rfl).trans h.v15
  v20 := (show after W5 V (Proc.devRef .tc main_v20) = V (Proc.devRef .tc main_v20) by simp only [after_cons, after_nil]; rfl).trans h.v20
  v25 := (show after W5 V (Proc.devRef .tc main_v25) = V (Proc.devRef .tc main_v25) by simp only [after_cons, after_nil]; rfl).trans h.v25
  v30 := (show after W5 V (Proc.devRef .tc main_v30) = V (Proc.devRef .tc main_v30) by simp only [after_cons, after_nil]; rfl).trans h.v30
  v35 := (show after W5 V (Proc.devRef .tc main_v35) = V (Proc.devRef .tc main_v35) by simp only [after_cons, after_nil]; rfl).trans h.v35
  v40 := (show after W5 V (Proc.devRef .tc main_v40) = V (Proc.devRef .tc main_v40) by simp only [after_cons, after_nil]; rfl).trans h.v40
  v45 := (show after W5 V (Proc.devRef .tc main_v45) = V (Proc.devRef .tc main_v45) by simp only [after_cons, after_nil]; rfl).trans h.v45
  v50 := (show after W5 V (Proc.devRef .tc main_v50) = V (Proc.devRef .tc main_v50) by simp only [after_cons, after_nil]; rfl).trans h.v50
  v55 := (show after W5 V (Proc.devRef .tc main_v55) = V (Proc.devRef .tc main_v55) by simp only [after_cons, after_nil]; rfl).trans h.v55
  v60 := (show after W5 V (Proc.devRef .tc main_v60) = V (Proc.devRef .tc main_v60) by simp only [after_cons, after_nil]; rfl).trans h.v60
  v65 := (show after W5 V (Proc.devRef .tc main_v65) = V (Proc.devRef .tc main_v65) by simp only [after_cons, after_nil]; rfl).trans h.v65
  v70 := (show after W5 V (Proc.devRef .tc main_v70) = V (Proc.devRef .tc main_v70) by simp only [after_cons, after_nil]; rfl).trans h.v70
  v75 := (show after W5 V (Proc.devRef .tc main_v75) = V (Proc.devRef .tc main_v75) by simp only [after_cons, after_nil]; rfl).trans h.v75
  v80 := (show after W5 V (Proc.devRef .tc main_v80) = V (Proc.devRef .tc main_v80) by simp only [after_cons, after_nil]; rfl).trans h.v80
  v85 := (show after W5 V (Proc.devRef .tc main_v85) = V (Proc.devRef .tc main_v85) by simp only [after_cons, after_nil]; rfl).trans h.v85
  v90 := (show after W5 V (Proc.devRef .tc main_v90) = V (Proc.devRef .tc main_v90) by simp only [after_cons, after_nil]; rfl).trans h.v90
  v95 := (show after W5 V (Proc.devRef .tc main_v95) = V (Proc.devRef .tc main_v95) by simp only [after_cons, after_nil]; rfl).trans h.v95
  v100 := (show after W5 V (Proc.devRef .tc main_v100) = V (Proc.devRef .tc main_v100) by simp only [after_cons, after_nil]; rfl).trans h.v100
  v105 := (show after W5 V (Proc.devRef .tc main_v105) = V (Proc.devRef .tc main_v105) by simp only [after_cons, after_nil]; rfl).trans h.v105
  v110 := (show after W5 V (Proc.devRef .tc main_v110) = V (Proc.devRef .tc main_v110) by simp only [after_cons, after_nil]; rfl).trans h.v110
  v115 := (show after W5 V (Proc.devRef .tc main_v115) = V (Proc.devRef .tc main_v115) by simp only [after_cons, after_nil]; rfl).trans h.v115
  v120 := (show after W5 V (Proc.devRef .tc main_v120) = V (Proc.devRef .tc main_v120) by simp only [after_cons, after_nil]; rfl).trans h.v120
  v125 := (show after W5 V (Proc.devRef .tc main_v125) = V (Proc.devRef .tc main_v125) by simp only [after_cons, after_nil]; rfl).trans h.v125
  v130 := (show after W5 V (Proc.devRef .tc main_v130) = V (Proc.devRef .tc main_v130) by simp only [after_cons, after_nil]; rfl).trans h.v130
  v135 := (show after W5 V (Proc.devRef .tc main_v135) = V (Proc.devRef .tc main_v135) by simp only [after_cons, after_nil]; rfl).trans h.v135
  v140 := (show after W5 V (Proc.devRef .tc main_v140) = V (Proc.devRef .tc main_v140) by simp only [after_cons, after_nil]; rfl).trans h.v140
  v145 := (show after W5 V (Proc.devRef .tc main_v145) = V (Proc.devRef .tc main_v145) by simp only [after_cons, after_nil]; rfl).trans h.v145
  v150 := (show after W5 V (Proc.devRef .tc main_v150) = V (Proc.devRef .tc main_v150) by simp only [after_cons, after_nil]; rfl).trans h.v150
  v155 := (show after W5 V (Proc.devRef .tc main_v155) = V (Proc.devRef .tc main_v155) by simp only [after_cons, after_nil]; rfl).trans h.v155
  v160 := (show after W5 V (Proc.devRef .tc main_v160) = V (Proc.devRef .tc main_v160) by simp only [after_cons, after_nil]; rfl).trans h.v160
  v165 := (show after W5 V (Proc.devRef .tc main_v165) = V (Proc.devRef .tc main_v165) by simp only [after_cons, after_nil]; rfl).trans h.v165
  v170 := (show after W5 V (Proc.devRef .tc main_v170) = V (Proc.devRef .tc main_v170) by simp only [after_cons, after_nil]; rfl).trans h.v170
  v175 := (show after W5 V (Proc.devRef .tc main_v175) = V (Proc.devRef .tc main_v175) by simp only [after_cons, after_nil]; rfl).trans h.v175
  v180 := (show after W5 V (Proc.devRef .tc main_v180) = V (Proc.devRef .tc main_v180) by simp only [after_cons, after_nil]; rfl).trans h.v180
  v185 := (show after W5 V (Proc.devRef .tc main_v185) = V (Proc.devRef .tc main_v185) by simp only [after_cons, after_nil]; rfl).trans h.v185
  v190 := (show after W5 V (Proc.devRef .tc main_v190) = V (Proc.devRef .tc main_v190) by simp only [after_cons, after_nil]; rfl).trans h.v190
  v195 := (show after W5 V (Proc.devRef .tc main_v195) = V (Proc.devRef .tc main_v195) by simp only [after_cons, after_nil]; rfl).trans h.v195
  v200 := (show after W5 V (Proc.devRef .tc main_v200) = V (Proc.devRef .tc main_v200) by simp only [after_cons, after_nil]; rfl).trans h.v200
  v205 := (show after W5 V (Proc.devRef .tc main_v205) = V (Proc.devRef .tc main_v205) by simp only [after_cons, after_nil]; rfl).trans h.v205
  v210 := (show after W5 V (Proc.devRef .tc main_v210) = V (Proc.devRef .tc main_v210) by simp only [after_cons, after_nil]; rfl).trans h.v210
  v215 := (show after W5 V (Proc.devRef .tc main_v215) = (Host.divf (V (Proc.devRef .tc main_v213)) (broadcastInDim S8x160x320 ![] bcast_S_S8x160x320 (constant S_ .f32 0x42800000#32))) by simp only [after_cons, after_nil]; rfl).trans
    (by rw [h.v213] <;> rfl)
  v220 := (show after W5 V (Proc.devRef .tc main_v220) = (Host.divf (Host.reduceAdd (mulf (extractStridedSlice S8x64x160x320 ![0, 0, 6, 8] (V (Proc.devRef .tc main_v0)) slices_S8x64x168x328_S8x64x160x320_0_0_6_8) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v225 := (show after W5 V (Proc.devRef .tc main_v225) = (Host.divf (Host.reduceAdd (mulf (extractStridedSlice S8x64x160x320 ![0, 0, 7, 1] (V (Proc.devRef .tc main_v0)) slices_S8x64x168x328_S8x64x160x320_0_0_7_1) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v230 := (show after W5 V (Proc.devRef .tc main_v230) = (Host.divf (Host.reduceAdd (mulf (extractStridedSlice S8x64x160x320 ![0, 0, 7, 3] (V (Proc.devRef .tc main_v0)) slices_S8x64x168x328_S8x64x160x320_0_0_7_3) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v235 := (show after W5 V (Proc.devRef .tc main_v235) = (Host.divf (Host.reduceAdd (mulf (extractStridedSlice S8x64x160x320 ![0, 0, 7, 5] (V (Proc.devRef .tc main_v0)) slices_S8x64x168x328_S8x64x160x320_0_0_7_5) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v240 := (show after W5 V (Proc.devRef .tc main_v240) = (Host.divf (Host.reduceAdd (mulf (extractStridedSlice S8x64x160x320 ![0, 0, 7, 7] (V (Proc.devRef .tc main_v0)) slices_S8x64x168x328_S8x64x160x320_0_0_7_7) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v245 := (show after W5 V (Proc.devRef .tc main_v245) = (Host.divf (Host.reduceAdd (mulf (extractStridedSlice S8x64x160x320 ![0, 0, 8, 0] (V (Proc.devRef .tc main_v0)) slices_S8x64x168x328_S8x64x160x320_0_0_8_0) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v250 := (show after W5 V (Proc.devRef .tc main_v250) = (Host.divf (Host.reduceAdd (mulf (extractStridedSlice S8x64x160x320 ![0, 0, 8, 2] (V (Proc.devRef .tc main_v0)) slices_S8x64x168x328_S8x64x160x320_0_0_8_2) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v255 := (show after W5 V (Proc.devRef .tc main_v255) = (Host.divf (Host.reduceAdd (mulf (extractStridedSlice S8x64x160x320 ![0, 0, 8, 4] (V (Proc.devRef .tc main_v0)) slices_S8x64x168x328_S8x64x160x320_0_0_8_4) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v256 := (show after W5 V (Proc.devRef .tc main_v256) = (extractStridedSlice S8x64x160x320 ![0, 0, 8, 6] (V (Proc.devRef .tc main_v0)) slices_S8x64x168x328_S8x64x160x320_0_0_8_6) by simp only [after_cons, after_nil]; rfl).trans
    (by rw [h.v0] <;> rfl)

set_option maxRecDepth 8192 in
set_option maxHeartbeats 8000000 in
/-- Segment 6 takes what is held before it to what is held after it: a buffer it does not write keeps its contents, and a
    buffer it writes holds its operations' term of the contents found, which is the stated one by unfolding. -/
theorem step6 (V : Valuation τ sig (Elt F)) (X Y : FVec F S8x64x160x320 .f32) (h : Inv6 V X Y) :
    Inv7 (after W6 V) X Y where
  arg0 := (show after W6 V (Proc.devRef .tc main_arg0) = V (Proc.devRef .tc main_arg0) by simp only [after_cons, after_nil]; rfl).trans h.arg0
  arg1 := (show after W6 V (Proc.devRef .tc main_arg1) = V (Proc.devRef .tc main_arg1) by simp only [after_cons, after_nil]; rfl).trans h.arg1
  v240 := (show after W6 V (Proc.devRef .tc main_v240) = V (Proc.devRef .tc main_v240) by simp only [after_cons, after_nil]; rfl).trans h.v240
  v245 := (show after W6 V (Proc.devRef .tc main_v245) = V (Proc.devRef .tc main_v245) by simp only [after_cons, after_nil]; rfl).trans h.v245
  v250 := (show after W6 V (Proc.devRef .tc main_v250) = V (Proc.devRef .tc main_v250) by simp only [after_cons, after_nil]; rfl).trans h.v250
  v255 := (show after W6 V (Proc.devRef .tc main_v255) = V (Proc.devRef .tc main_v255) by simp only [after_cons, after_nil]; rfl).trans h.v255
  v260 := (show after W6 V (Proc.devRef .tc main_v260) = (Host.divf (Host.reduceAdd (mulf (V (Proc.devRef .tc main_v256)) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v256, h.arg1] <;> rfl)
  v265 := (show after W6 V (Proc.devRef .tc main_v265) = (Host.divf (Host.reduceAdd (mulf (extractStridedSlice S8x64x160x320 ![0, 0, 8, 8] (V (Proc.devRef .tc main_v0)) slices_S8x64x168x328_S8x64x160x320_0_0_8_8) (V (Proc.devRef .tc main_arg1))) (constant S_ .f32 0x00000000#32) reducesTo_S8x64x160x320_S8x160x320_d1 h_S_) (broadcastInDim S8x160x320 ![] bcast_S_S8x160x320 (constant S_ .f32 0x42800000#32))) by simp only [after_cons, after_nil]; rfl).trans
    (by rw [h.v0, h.arg1] <;> rfl)
  v266 := (show after W6 V (Proc.devRef .tc main_v266) = (broadcastInDim S8x1x160x320 ![0, 2, 3] bcast_S8x160x320_S8x1x160x320_0_2_3 (V (Proc.devRef .tc main_v5))) by simp only [after_cons, after_nil]; rfl).trans
    (by rw [h.v5] <;> rfl)
  v267 := (show after W6 V (Proc.devRef .tc main_v267) = (broadcastInDim S8x1x160x320 ![0, 2, 3] bcast_S8x160x320_S8x1x160x320_0_2_3 (V (Proc.devRef .tc main_v10))) by simp only [after_cons, after_nil]; rfl).trans
    (by rw [h.v10] <;> rfl)
  v268 := (show after W6 V (Proc.devRef .tc main_v268) = (broadcastInDim S8x1x160x320 ![0, 2, 3] bcast_S8x160x320_S8x1x160x320_0_2_3 (V (Proc.devRef .tc main_v15))) by simp only [after_cons, after_nil]; rfl).trans
    (by rw [h.v15] <;> rfl)
  v269 := (show after W6 V (Proc.devRef .tc main_v269) = (broadcastInDim S8x1x160x320 ![0, 2, 3] bcast_S8x160x320_S8x1x160x320_0_2_3 (V (Proc.devRef .tc main_v20))) by simp only [after_cons, after_nil]; rfl).trans
    (by rw [h.v20] <;> rfl)
  v270 := (show after W6 V (Proc.devRef .tc main_v270) = (broadcastInDim S8x1x160x320 ![0, 2, 3] bcast_S8x160x320_S8x1x160x320_0_2_3 (V (Proc.devRef .tc main_v25))) by simp only [after_cons, after_nil]; rfl).trans
    (by rw [h.v25] <;> rfl)
  v271 := (show after W6 V (Proc.devRef .tc main_v271) = (broadcastInDim S8x1x160x320 ![0, 2, 3] bcast_S8x160x320_S8x1x160x320_0_2_3 (V (Proc.devRef .tc main_v30))) by simp only [after_cons, after_nil]; rfl).trans
    (by rw [h.v30] <;> rfl)
  v272 := (show after W6 V (Proc.devRef .tc main_v272) = (broadcastInDim S8x1x160x320 ![0, 2, 3] bcast_S8x160x320_S8x1x160x320_0_2_3 (V (Proc.devRef .tc main_v35))) by simp only [after_cons, after_nil]; rfl).trans
    (by rw [h.v35] <;> rfl)
  v273 := (show after W6 V (Proc.devRef .tc main_v273) = (broadcastInDim S8x1x160x320 ![0, 2, 3] bcast_S8x160x320_S8x1x160x320_0_2_3 (V (Proc.devRef .tc main_v40))) by simp only [after_cons, after_nil]; rfl).trans
    (by rw [h.v40] <;> rfl)
  v274 := (show after W6 V (Proc.devRef .tc main_v274) = (broadcastInDim S8x1x160x320 ![0, 2, 3] bcast_S8x160x320_S8x1x160x320_0_2_3 (V (Proc.devRef .tc main_v45))) by simp only [after_cons, after_nil]; rfl).trans
    (by rw [h.v45] <;> rfl)
  v275 := (show after W6 V (Proc.devRef .tc main_v275) = (broadcastInDim S8x1x160x320 ![0, 2, 3] bcast_S8x160x320_S8x1x160x320_0_2_3 (V (Proc.devRef .tc main_v50))) by simp only [after_cons, after_nil]; rfl).trans
    (by rw [h.v50] <;> rfl)
  v276 := (show after W6 V (Proc.devRef .tc main_v276) = (broadcastInDim S8x1x160x320 ![0, 2, 3] bcast_S8x160x320_S8x1x160x320_0_2_3 (V (Proc.devRef .tc main_v55))) by simp only [after_cons, after_nil]; rfl).trans
    (by rw [h.v55] <;> rfl)
  v277 := (show after W6 V (Proc.devRef .tc main_v277) = (broadcastInDim S8x1x160x320 ![0, 2, 3] bcast_S8x160x320_S8x1x160x320_0_2_3 (V (Proc.devRef .tc main_v60))) by simp only [after_cons, after_nil]; rfl).trans
    (by rw [h.v60] <;> rfl)
  v278 := (show after W6 V (Proc.devRef .tc main_v278) = (broadcastInDim S8x1x160x320 ![0, 2, 3] bcast_S8x160x320_S8x1x160x320_0_2_3 (V (Proc.devRef .tc main_v65))) by simp only [after_cons, after_nil]; rfl).trans
    (by rw [h.v65] <;> rfl)
  v279 := (show after W6 V (Proc.devRef .tc main_v279) = (broadcastInDim S8x1x160x320 ![0, 2, 3] bcast_S8x160x320_S8x1x160x320_0_2_3 (V (Proc.devRef .tc main_v70))) by simp only [after_cons, after_nil]; rfl).trans
    (by rw [h.v70] <;> rfl)
  v280 := (show after W6 V (Proc.devRef .tc main_v280) = (broadcastInDim S8x1x160x320 ![0, 2, 3] bcast_S8x160x320_S8x1x160x320_0_2_3 (V (Proc.devRef .tc main_v75))) by simp only [after_cons, after_nil]; rfl).trans
    (by rw [h.v75] <;> rfl)
  v281 := (show after W6 V (Proc.devRef .tc main_v281) = (broadcastInDim S8x1x160x320 ![0, 2, 3] bcast_S8x160x320_S8x1x160x320_0_2_3 (V (Proc.devRef .tc main_v80))) by simp only [after_cons, after_nil]; rfl).trans
    (by rw [h.v80] <;> rfl)
  v282 := (show after W6 V (Proc.devRef .tc main_v282) = (broadcastInDim S8x1x160x320 ![0, 2, 3] bcast_S8x160x320_S8x1x160x320_0_2_3 (V (Proc.devRef .tc main_v85))) by simp only [after_cons, after_nil]; rfl).trans
    (by rw [h.v85] <;> rfl)
  v283 := (show after W6 V (Proc.devRef .tc main_v283) = (broadcastInDim S8x1x160x320 ![0, 2, 3] bcast_S8x160x320_S8x1x160x320_0_2_3 (V (Proc.devRef .tc main_v90))) by simp only [after_cons, after_nil]; rfl).trans
    (by rw [h.v90] <;> rfl)
  v284 := (show after W6 V (Proc.devRef .tc main_v284) = (broadcastInDim S8x1x160x320 ![0, 2, 3] bcast_S8x160x320_S8x1x160x320_0_2_3 (V (Proc.devRef .tc main_v95))) by simp only [after_cons, after_nil]; rfl).trans
    (by rw [h.v95] <;> rfl)
  v285 := (show after W6 V (Proc.devRef .tc main_v285) = (broadcastInDim S8x1x160x320 ![0, 2, 3] bcast_S8x160x320_S8x1x160x320_0_2_3 (V (Proc.devRef .tc main_v100))) by simp only [after_cons, after_nil]; rfl).trans
    (by rw [h.v100] <;> rfl)
  v286 := (show after W6 V (Proc.devRef .tc main_v286) = (broadcastInDim S8x1x160x320 ![0, 2, 3] bcast_S8x160x320_S8x1x160x320_0_2_3 (V (Proc.devRef .tc main_v105))) by simp only [after_cons, after_nil]; rfl).trans
    (by rw [h.v105] <;> rfl)
  v287 := (show after W6 V (Proc.devRef .tc main_v287) = (broadcastInDim S8x1x160x320 ![0, 2, 3] bcast_S8x160x320_S8x1x160x320_0_2_3 (V (Proc.devRef .tc main_v110))) by simp only [after_cons, after_nil]; rfl).trans
    (by rw [h.v110] <;> rfl)
  v288 := (show after W6 V (Proc.devRef .tc main_v288) = (broadcastInDim S8x1x160x320 ![0, 2, 3] bcast_S8x160x320_S8x1x160x320_0_2_3 (V (Proc.devRef .tc main_v115))) by simp only [after_cons, after_nil]; rfl).trans
    (by rw [h.v115] <;> rfl)
  v289 := (show after W6 V (Proc.devRef .tc main_v289) = (broadcastInDim S8x1x160x320 ![0, 2, 3] bcast_S8x160x320_S8x1x160x320_0_2_3 (V (Proc.devRef .tc main_v120))) by simp only [after_cons, after_nil]; rfl).trans
    (by rw [h.v120] <;> rfl)
  v290 := (show after W6 V (Proc.devRef .tc main_v290) = (broadcastInDim S8x1x160x320 ![0, 2, 3] bcast_S8x160x320_S8x1x160x320_0_2_3 (V (Proc.devRef .tc main_v125))) by simp only [after_cons, after_nil]; rfl).trans
    (by rw [h.v125] <;> rfl)
  v291 := (show after W6 V (Proc.devRef .tc main_v291) = (broadcastInDim S8x1x160x320 ![0, 2, 3] bcast_S8x160x320_S8x1x160x320_0_2_3 (V (Proc.devRef .tc main_v130))) by simp only [after_cons, after_nil]; rfl).trans
    (by rw [h.v130] <;> rfl)
  v292 := (show after W6 V (Proc.devRef .tc main_v292) = (broadcastInDim S8x1x160x320 ![0, 2, 3] bcast_S8x160x320_S8x1x160x320_0_2_3 (V (Proc.devRef .tc main_v135))) by simp only [after_cons, after_nil]; rfl).trans
    (by rw [h.v135] <;> rfl)
  v293 := (show after W6 V (Proc.devRef .tc main_v293) = (broadcastInDim S8x1x160x320 ![0, 2, 3] bcast_S8x160x320_S8x1x160x320_0_2_3 (V (Proc.devRef .tc main_v140))) by simp only [after_cons, after_nil]; rfl).trans
    (by rw [h.v140] <;> rfl)
  v294 := (show after W6 V (Proc.devRef .tc main_v294) = (broadcastInDim S8x1x160x320 ![0, 2, 3] bcast_S8x160x320_S8x1x160x320_0_2_3 (V (Proc.devRef .tc main_v145))) by simp only [after_cons, after_nil]; rfl).trans
    (by rw [h.v145] <;> rfl)
  v295 := (show after W6 V (Proc.devRef .tc main_v295) = (broadcastInDim S8x1x160x320 ![0, 2, 3] bcast_S8x160x320_S8x1x160x320_0_2_3 (V (Proc.devRef .tc main_v150))) by simp only [after_cons, after_nil]; rfl).trans
    (by rw [h.v150] <;> rfl)
  v296 := (show after W6 V (Proc.devRef .tc main_v296) = (broadcastInDim S8x1x160x320 ![0, 2, 3] bcast_S8x160x320_S8x1x160x320_0_2_3 (V (Proc.devRef .tc main_v155))) by simp only [after_cons, after_nil]; rfl).trans
    (by rw [h.v155] <;> rfl)
  v297 := (show after W6 V (Proc.devRef .tc main_v297) = (broadcastInDim S8x1x160x320 ![0, 2, 3] bcast_S8x160x320_S8x1x160x320_0_2_3 (V (Proc.devRef .tc main_v160))) by simp only [after_cons, after_nil]; rfl).trans
    (by rw [h.v160] <;> rfl)
  v298 := (show after W6 V (Proc.devRef .tc main_v298) = (broadcastInDim S8x1x160x320 ![0, 2, 3] bcast_S8x160x320_S8x1x160x320_0_2_3 (V (Proc.devRef .tc main_v165))) by simp only [after_cons, after_nil]; rfl).trans
    (by rw [h.v165] <;> rfl)
  v299 := (show after W6 V (Proc.devRef .tc main_v299) = (broadcastInDim S8x1x160x320 ![0, 2, 3] bcast_S8x160x320_S8x1x160x320_0_2_3 (V (Proc.devRef .tc main_v170))) by simp only [after_cons, after_nil]; rfl).trans
    (by rw [h.v170] <;> rfl)
  v300 := (show after W6 V (Proc.devRef .tc main_v300) = (broadcastInDim S8x1x160x320 ![0, 2, 3] bcast_S8x160x320_S8x1x160x320_0_2_3 (V (Proc.devRef .tc main_v175))) by simp only [after_cons, after_nil]; rfl).trans
    (by rw [h.v175] <;> rfl)
  v301 := (show after W6 V (Proc.devRef .tc main_v301) = (broadcastInDim S8x1x160x320 ![0, 2, 3] bcast_S8x160x320_S8x1x160x320_0_2_3 (V (Proc.devRef .tc main_v180))) by simp only [after_cons, after_nil]; rfl).trans
    (by rw [h.v180] <;> rfl)
  v302 := (show after W6 V (Proc.devRef .tc main_v302) = (broadcastInDim S8x1x160x320 ![0, 2, 3] bcast_S8x160x320_S8x1x160x320_0_2_3 (V (Proc.devRef .tc main_v185))) by simp only [after_cons, after_nil]; rfl).trans
    (by rw [h.v185] <;> rfl)
  v303 := (show after W6 V (Proc.devRef .tc main_v303) = (broadcastInDim S8x1x160x320 ![0, 2, 3] bcast_S8x160x320_S8x1x160x320_0_2_3 (V (Proc.devRef .tc main_v190))) by simp only [after_cons, after_nil]; rfl).trans
    (by rw [h.v190] <;> rfl)
  v304 := (show after W6 V (Proc.devRef .tc main_v304) = (broadcastInDim S8x1x160x320 ![0, 2, 3] bcast_S8x160x320_S8x1x160x320_0_2_3 (V (Proc.devRef .tc main_v195))) by simp only [after_cons, after_nil]; rfl).trans
    (by rw [h.v195] <;> rfl)
  v305 := (show after W6 V (Proc.devRef .tc main_v305) = (broadcastInDim S8x1x160x320 ![0, 2, 3] bcast_S8x160x320_S8x1x160x320_0_2_3 (V (Proc.devRef .tc main_v200))) by simp only [after_cons, after_nil]; rfl).trans
    (by rw [h.v200] <;> rfl)
  v306 := (show after W6 V (Proc.devRef .tc main_v306) = (broadcastInDim S8x1x160x320 ![0, 2, 3] bcast_S8x160x320_S8x1x160x320_0_2_3 (V (Proc.devRef .tc main_v205))) by simp only [after_cons, after_nil]; rfl).trans
    (by rw [h.v205] <;> rfl)
  v307 := (show after W6 V (Proc.devRef .tc main_v307) = (broadcastInDim S8x1x160x320 ![0, 2, 3] bcast_S8x160x320_S8x1x160x320_0_2_3 (V (Proc.devRef .tc main_v210))) by simp only [after_cons, after_nil]; rfl).trans
    (by rw [h.v210] <;> rfl)
  v308 := (show after W6 V (Proc.devRef .tc main_v308) = (broadcastInDim S8x1x160x320 ![0, 2, 3] bcast_S8x160x320_S8x1x160x320_0_2_3 (V (Proc.devRef .tc main_v215))) by simp only [after_cons, after_nil]; rfl).trans
    (by rw [h.v215] <;> rfl)
  v309 := (show after W6 V (Proc.devRef .tc main_v309) = (broadcastInDim S8x1x160x320 ![0, 2, 3] bcast_S8x160x320_S8x1x160x320_0_2_3 (V (Proc.devRef .tc main_v220))) by simp only [after_cons, after_nil]; rfl).trans
    (by rw [h.v220] <;> rfl)
  v310 := (show after W6 V (Proc.devRef .tc main_v310) = (broadcastInDim S8x1x160x320 ![0, 2, 3] bcast_S8x160x320_S8x1x160x320_0_2_3 (V (Proc.devRef .tc main_v225))) by simp only [after_cons, after_nil]; rfl).trans
    (by rw [h.v225] <;> rfl)
  v311 := (show after W6 V (Proc.devRef .tc main_v311) = (broadcastInDim S8x1x160x320 ![0, 2, 3] bcast_S8x160x320_S8x1x160x320_0_2_3 (V (Proc.devRef .tc main_v230))) by simp only [after_cons, after_nil]; rfl).trans
    (by rw [h.v230] <;> rfl)
  v312 := (show after W6 V (Proc.devRef .tc main_v312) = (broadcastInDim S8x1x160x320 ![0, 2, 3] bcast_S8x160x320_S8x1x160x320_0_2_3 (V (Proc.devRef .tc main_v235))) by simp only [after_cons, after_nil]; rfl).trans
    (by rw [h.v235] <;> rfl)

set_option maxRecDepth 8192 in
set_option maxHeartbeats 8000000 in
/-- Segment 7 takes what is held before it to what is held after it: a buffer it does not write keeps its contents, and a
    buffer it writes holds its operations' term of the contents found, which is the stated one by unfolding. -/
theorem step7 (V : Valuation τ sig (Elt F)) (X Y : FVec F S8x64x160x320 .f32) (h : Inv7 V X Y) :
    Inv8 (after W7a V) X Y where
  arg0 := (show after W7a V (Proc.devRef .tc main_arg0) = V (Proc.devRef .tc main_arg0) by simp only [after_cons, after_nil]; rfl).trans h.arg0
  arg1 := (show after W7a V (Proc.devRef .tc main_arg1) = V (Proc.devRef .tc main_arg1) by simp only [after_cons, after_nil]; rfl).trans h.arg1
  v266 := (show after W7a V (Proc.devRef .tc main_v266) = V (Proc.devRef .tc main_v266) by simp only [after_cons, after_nil]; rfl).trans h.v266
  v267 := (show after W7a V (Proc.devRef .tc main_v267) = V (Proc.devRef .tc main_v267) by simp only [after_cons, after_nil]; rfl).trans h.v267
  v268 := (show after W7a V (Proc.devRef .tc main_v268) = V (Proc.devRef .tc main_v268) by simp only [after_cons, after_nil]; rfl).trans h.v268
  v269 := (show after W7a V (Proc.devRef .tc main_v269) = V (Proc.devRef .tc main_v269) by simp only [after_cons, after_nil]; rfl).trans h.v269
  v270 := (show after W7a V (Proc.devRef .tc main_v270) = V (Proc.devRef .tc main_v270) by simp only [after_cons, after_nil]; rfl).trans h.v270
  v271 := (show after W7a V (Proc.devRef .tc main_v271) = V (Proc.devRef .tc main_v271) by simp only [after_cons, after_nil]; rfl).trans h.v271
  v272 := (show after W7a V (Proc.devRef .tc main_v272) = V (Proc.devRef .tc main_v272) by simp only [after_cons, after_nil]; rfl).trans h.v272
  v273 := (show after W7a V (Proc.devRef .tc main_v273) = V (Proc.devRef .tc main_v273) by simp only [after_cons, after_nil]; rfl).trans h.v273
  v274 := (show after W7a V (Proc.devRef .tc main_v274) = V (Proc.devRef .tc main_v274) by simp only [after_cons, after_nil]; rfl).trans h.v274
  v275 := (show after W7a V (Proc.devRef .tc main_v275) = V (Proc.devRef .tc main_v275) by simp only [after_cons, after_nil]; rfl).trans h.v275
  v276 := (show after W7a V (Proc.devRef .tc main_v276) = V (Proc.devRef .tc main_v276) by simp only [after_cons, after_nil]; rfl).trans h.v276
  v277 := (show after W7a V (Proc.devRef .tc main_v277) = V (Proc.devRef .tc main_v277) by simp only [after_cons, after_nil]; rfl).trans h.v277
  v278 := (show after W7a V (Proc.devRef .tc main_v278) = V (Proc.devRef .tc main_v278) by simp only [after_cons, after_nil]; rfl).trans h.v278
  v279 := (show after W7a V (Proc.devRef .tc main_v279) = V (Proc.devRef .tc main_v279) by simp only [after_cons, after_nil]; rfl).trans h.v279
  v280 := (show after W7a V (Proc.devRef .tc main_v280) = V (Proc.devRef .tc main_v280) by simp only [after_cons, after_nil]; rfl).trans h.v280
  v281 := (show after W7a V (Proc.devRef .tc main_v281) = V (Proc.devRef .tc main_v281) by simp only [after_cons, after_nil]; rfl).trans h.v281
  v282 := (show after W7a V (Proc.devRef .tc main_v282) = V (Proc.devRef .tc main_v282) by simp only [after_cons, after_nil]; rfl).trans h.v282
  v283 := (show after W7a V (Proc.devRef .tc main_v283) = V (Proc.devRef .tc main_v283) by simp only [after_cons, after_nil]; rfl).trans h.v283
  v284 := (show after W7a V (Proc.devRef .tc main_v284) = V (Proc.devRef .tc main_v284) by simp only [after_cons, after_nil]; rfl).trans h.v284
  v285 := (show after W7a V (Proc.devRef .tc main_v285) = V (Proc.devRef .tc main_v285) by simp only [after_cons, after_nil]; rfl).trans h.v285
  v286 := (show after W7a V (Proc.devRef .tc main_v286) = V (Proc.devRef .tc main_v286) by simp only [after_cons, after_nil]; rfl).trans h.v286
  v287 := (show after W7a V (Proc.devRef .tc main_v287) = V (Proc.devRef .tc main_v287) by simp only [after_cons, after_nil]; rfl).trans h.v287
  v288 := (show after W7a V (Proc.devRef .tc main_v288) = V (Proc.devRef .tc main_v288) by simp only [after_cons, after_nil]; rfl).trans h.v288
  v289 := (show after W7a V (Proc.devRef .tc main_v289) = V (Proc.devRef .tc main_v289) by simp only [after_cons, after_nil]; rfl).trans h.v289
  v290 := (show after W7a V (Proc.devRef .tc main_v290) = V (Proc.devRef .tc main_v290) by simp only [after_cons, after_nil]; rfl).trans h.v290
  v291 := (show after W7a V (Proc.devRef .tc main_v291) = V (Proc.devRef .tc main_v291) by simp only [after_cons, after_nil]; rfl).trans h.v291
  v292 := (show after W7a V (Proc.devRef .tc main_v292) = V (Proc.devRef .tc main_v292) by simp only [after_cons, after_nil]; rfl).trans h.v292
  v293 := (show after W7a V (Proc.devRef .tc main_v293) = V (Proc.devRef .tc main_v293) by simp only [after_cons, after_nil]; rfl).trans h.v293
  v294 := (show after W7a V (Proc.devRef .tc main_v294) = V (Proc.devRef .tc main_v294) by simp only [after_cons, after_nil]; rfl).trans h.v294
  v295 := (show after W7a V (Proc.devRef .tc main_v295) = V (Proc.devRef .tc main_v295) by simp only [after_cons, after_nil]; rfl).trans h.v295
  v296 := (show after W7a V (Proc.devRef .tc main_v296) = V (Proc.devRef .tc main_v296) by simp only [after_cons, after_nil]; rfl).trans h.v296
  v297 := (show after W7a V (Proc.devRef .tc main_v297) = V (Proc.devRef .tc main_v297) by simp only [after_cons, after_nil]; rfl).trans h.v297
  v298 := (show after W7a V (Proc.devRef .tc main_v298) = V (Proc.devRef .tc main_v298) by simp only [after_cons, after_nil]; rfl).trans h.v298
  v299 := (show after W7a V (Proc.devRef .tc main_v299) = V (Proc.devRef .tc main_v299) by simp only [after_cons, after_nil]; rfl).trans h.v299
  v300 := (show after W7a V (Proc.devRef .tc main_v300) = V (Proc.devRef .tc main_v300) by simp only [after_cons, after_nil]; rfl).trans h.v300
  v301 := (show after W7a V (Proc.devRef .tc main_v301) = V (Proc.devRef .tc main_v301) by simp only [after_cons, after_nil]; rfl).trans h.v301
  v302 := (show after W7a V (Proc.devRef .tc main_v302) = V (Proc.devRef .tc main_v302) by simp only [after_cons, after_nil]; rfl).trans h.v302
  v303 := (show after W7a V (Proc.devRef .tc main_v303) = V (Proc.devRef .tc main_v303) by simp only [after_cons, after_nil]; rfl).trans h.v303
  v304 := (show after W7a V (Proc.devRef .tc main_v304) = V (Proc.devRef .tc main_v304) by simp only [after_cons, after_nil]; rfl).trans h.v304
  v305 := (show after W7a V (Proc.devRef .tc main_v305) = V (Proc.devRef .tc main_v305) by simp only [after_cons, after_nil]; rfl).trans h.v305
  v306 := (show after W7a V (Proc.devRef .tc main_v306) = V (Proc.devRef .tc main_v306) by simp only [after_cons, after_nil]; rfl).trans h.v306
  v307 := (show after W7a V (Proc.devRef .tc main_v307) = V (Proc.devRef .tc main_v307) by simp only [after_cons, after_nil]; rfl).trans h.v307
  v308 := (show after W7a V (Proc.devRef .tc main_v308) = V (Proc.devRef .tc main_v308) by simp only [after_cons, after_nil]; rfl).trans h.v308
  v309 := (show after W7a V (Proc.devRef .tc main_v309) = V (Proc.devRef .tc main_v309) by simp only [after_cons, after_nil]; rfl).trans h.v309
  v310 := (show after W7a V (Proc.devRef .tc main_v310) = V (Proc.devRef .tc main_v310) by simp only [after_cons, after_nil]; rfl).trans h.v310
  v311 := (show after W7a V (Proc.devRef .tc main_v311) = V (Proc.devRef .tc main_v311) by simp only [after_cons, after_nil]; rfl).trans h.v311
  v312 := (show after W7a V (Proc.devRef .tc main_v312) = V (Proc.devRef .tc main_v312) by simp only [after_cons, after_nil]; rfl).trans h.v312
  v313 := (show after W7a V (Proc.devRef .tc main_v313) = (broadcastInDim S8x1x160x320 ![0, 2, 3] bcast_S8x160x320_S8x1x160x320_0_2_3 (V (Proc.devRef .tc main_v240))) by simp only [after_cons, after_nil]; rfl).trans
    (by rw [h.v240] <;> rfl)
  v314 := (show after W7a V (Proc.devRef .tc main_v314) = (broadcastInDim S8x1x160x320 ![0, 2, 3] bcast_S8x160x320_S8x1x160x320_0_2_3 (V (Proc.devRef .tc main_v245))) by simp only [after_cons, after_nil]; rfl).trans
    (by rw [h.v245] <;> rfl)
  v315 := (show after W7a V (Proc.devRef .tc main_v315) = (broadcastInDim S8x1x160x320 ![0, 2, 3] bcast_S8x160x320_S8x1x160x320_0_2_3 (V (Proc.devRef .tc main_v250))) by simp only [after_cons, after_nil]; rfl).trans
    (by rw [h.v250] <;> rfl)
  v316 := (show after W7a V (Proc.devRef .tc main_v316) = (broadcastInDim S8x1x160x320 ![0, 2, 3] bcast_S8x160x320_S8x1x160x320_0_2_3 (V (Proc.devRef .tc main_v255))) by simp only [after_cons, after_nil]; rfl).trans
    (by rw [h.v255] <;> rfl)
  v317 := (show after W7a V (Proc.devRef .tc main_v317) = (broadcastInDim S8x1x160x320 ![0, 2, 3] bcast_S8x160x320_S8x1x160x320_0_2_3 (V (Proc.devRef .tc main_v260))) by simp only [after_cons, after_nil]; rfl).trans
    (by rw [h.v260] <;> rfl)
  v318 := (show after W7a V (Proc.devRef .tc main_v318) = (broadcastInDim S8x1x160x320 ![0, 2, 3] bcast_S8x160x320_S8x1x160x320_0_2_3 (V (Proc.devRef .tc main_v265))) by simp only [after_cons, after_nil]; rfl).trans
    (by rw [h.v265] <;> rfl)

set_option maxRecDepth 8192 in
set_option maxHeartbeats 8000000 in
/-- Segment 8 takes what is held before it to what is held after it: a buffer it does not write keeps its contents, and a
    buffer it writes holds its operations' term of the contents found, which is the stated one by unfolding. -/
theorem step8 (V : Valuation τ sig (Elt F)) (X Y : FVec F S8x64x160x320 .f32) (h : Inv8 V X Y) :
    Inv9 (after W7b V) X Y where
  arg0 := (show after W7b V (Proc.devRef .tc main_arg0) = V (Proc.devRef .tc main_arg0) by simp only [after_cons, after_nil]; rfl).trans h.arg0
  arg1 := (show after W7b V (Proc.devRef .tc main_arg1) = V (Proc.devRef .tc main_arg1) by simp only [after_cons, after_nil]; rfl).trans h.arg1
  v319 := (show after W7b V (Proc.devRef .tc main_v319) = (concatenate S8x16x160x320 1 [⟨S8x1x160x320, (V (Proc.devRef .tc main_v266))⟩, ⟨S8x1x160x320, (V (Proc.devRef .tc main_v267))⟩, ⟨S8x1x160x320, (V (Proc.devRef .tc main_v268))⟩, ⟨S8x1x160x320, (V (Proc.devRef .tc main_v269))⟩, ⟨S8x1x160x320, (V (Proc.devRef .tc main_v270))⟩, ⟨S8x1x160x320, (V (Proc.devRef .tc main_v271))⟩, ⟨S8x1x160x320, (V (Proc.devRef .tc main_v272))⟩, ⟨S8x1x160x320, (V (Proc.devRef .tc main_v273))⟩, ⟨S8x1x160x320, (V (Proc.devRef .tc main_v274))⟩, ⟨S8x1x160x320, (V (Proc.devRef .tc main_v275))⟩, ⟨S8x1x160x320, (V (Proc.devRef .tc main_v276))⟩, ⟨S8x1x160x320, (V (Proc.devRef .tc main_v277))⟩, ⟨S8x1x160x320, (V (Proc.devRef .tc main_v278))⟩, ⟨S8x1x160x320, (V (Proc.devRef .tc main_v279))⟩, ⟨S8x1x160x320, (V (Proc.devRef .tc main_v280))⟩, ⟨S8x1x160x320, (V (Proc.devRef .tc main_v281))⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1) by simp only [after_cons, after_nil]; rfl).trans
    (by rw [h.v266, h.v267, h.v268, h.v269, h.v270, h.v271, h.v272, h.v273, h.v274, h.v275, h.v276, h.v277, h.v278, h.v279, h.v280, h.v281] <;> rfl)
  v320 := (show after W7b V (Proc.devRef .tc main_v320) = (concatenate S8x16x160x320 1 [⟨S8x1x160x320, (V (Proc.devRef .tc main_v282))⟩, ⟨S8x1x160x320, (V (Proc.devRef .tc main_v283))⟩, ⟨S8x1x160x320, (V (Proc.devRef .tc main_v284))⟩, ⟨S8x1x160x320, (V (Proc.devRef .tc main_v285))⟩, ⟨S8x1x160x320, (V (Proc.devRef .tc main_v286))⟩, ⟨S8x1x160x320, (V (Proc.devRef .tc main_v287))⟩, ⟨S8x1x160x320, (V (Proc.devRef .tc main_v288))⟩, ⟨S8x1x160x320, (V (Proc.devRef .tc main_v289))⟩, ⟨S8x1x160x320, (V (Proc.devRef .tc main_v290))⟩, ⟨S8x1x160x320, (V (Proc.devRef .tc main_v291))⟩, ⟨S8x1x160x320, (V (Proc.devRef .tc main_v292))⟩, ⟨S8x1x160x320, (V (Proc.devRef .tc main_v293))⟩, ⟨S8x1x160x320, (V (Proc.devRef .tc main_v294))⟩, ⟨S8x1x160x320, (V (Proc.devRef .tc main_v295))⟩, ⟨S8x1x160x320, (V (Proc.devRef .tc main_v296))⟩, ⟨S8x1x160x320, (V (Proc.devRef .tc main_v297))⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1) by simp only [after_cons, after_nil]; rfl).trans
    (by rw [h.v282, h.v283, h.v284, h.v285, h.v286, h.v287, h.v288, h.v289, h.v290, h.v291, h.v292, h.v293, h.v294, h.v295, h.v296, h.v297] <;> rfl)
  v321 := (show after W7b V (Proc.devRef .tc main_v321) = (concatenate S8x16x160x320 1 [⟨S8x1x160x320, (V (Proc.devRef .tc main_v298))⟩, ⟨S8x1x160x320, (V (Proc.devRef .tc main_v299))⟩, ⟨S8x1x160x320, (V (Proc.devRef .tc main_v300))⟩, ⟨S8x1x160x320, (V (Proc.devRef .tc main_v301))⟩, ⟨S8x1x160x320, (V (Proc.devRef .tc main_v302))⟩, ⟨S8x1x160x320, (V (Proc.devRef .tc main_v303))⟩, ⟨S8x1x160x320, (V (Proc.devRef .tc main_v304))⟩, ⟨S8x1x160x320, (V (Proc.devRef .tc main_v305))⟩, ⟨S8x1x160x320, (V (Proc.devRef .tc main_v306))⟩, ⟨S8x1x160x320, (V (Proc.devRef .tc main_v307))⟩, ⟨S8x1x160x320, (V (Proc.devRef .tc main_v308))⟩, ⟨S8x1x160x320, (V (Proc.devRef .tc main_v309))⟩, ⟨S8x1x160x320, (V (Proc.devRef .tc main_v310))⟩, ⟨S8x1x160x320, (V (Proc.devRef .tc main_v311))⟩, ⟨S8x1x160x320, (V (Proc.devRef .tc main_v312))⟩, ⟨S8x1x160x320, (V (Proc.devRef .tc main_v313))⟩] concatenates_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x1x160x320_S8x16x160x320_d1) by simp only [after_cons, after_nil]; rfl).trans
    (by rw [h.v298, h.v299, h.v300, h.v301, h.v302, h.v303, h.v304, h.v305, h.v306, h.v307, h.v308, h.v309, h.v310, h.v311, h.v312, h.v313] <;> rfl)
  v322 := (show after W7b V (Proc.devRef .tc main_v322) = (concatenate S8x5x160x320 1 [⟨S8x1x160x320, (V (Proc.devRef .tc main_v314))⟩, ⟨S8x1x160x320, (V (Proc.devRef .tc main_v315))⟩, ⟨S8x1x160x320, (V (Proc.devRef .tc main_v316))⟩, ⟨S8x1x160x320, (V (Proc.devRef .tc main_v317))⟩, ⟨S8x1x160x320, (V (Proc.devRef .tc main_v318))⟩] concatenates_S8x1x160x320_S8x1x160x320_S8x1x160x320_S8x1x160x320_S8x1x160x320_S8x5x160x320_d1) by simp only [after_cons, after_nil]; rfl).trans
    (by rw [h.v314, h.v315, h.v316, h.v317, h.v318] <;> rfl)

set_option maxRecDepth 8192 in
set_option maxHeartbeats 8000000 in
/-- Segment 9 takes what is held before it to what is held after it: a buffer it does not write keeps its contents, and a
    buffer it writes holds its operations' term of the contents found, which is the stated one by unfolding. -/
theorem step9 (V : Valuation τ sig (Elt F)) (X Y : FVec F S8x64x160x320 .f32) (h : Inv9 V X Y) :
    Inv10 (after W7c V) X Y where
  arg0 := (show after W7c V (Proc.devRef .tc main_arg0) = V (Proc.devRef .tc main_arg0) by simp only [after_cons, after_nil]; rfl).trans h.arg0
  arg1 := (show after W7c V (Proc.devRef .tc main_arg1) = V (Proc.devRef .tc main_arg1) by simp only [after_cons, after_nil]; rfl).trans h.arg1
  v323 := (show after W7c V (Proc.devRef .tc main_v323) = (concatenate S8x53x160x320 1 [⟨S8x16x160x320, (V (Proc.devRef .tc main_v319))⟩, ⟨S8x16x160x320, (V (Proc.devRef .tc main_v320))⟩, ⟨S8x16x160x320, (V (Proc.devRef .tc main_v321))⟩, ⟨S8x5x160x320, (V (Proc.devRef .tc main_v322))⟩] concatenates_S8x16x160x320_S8x16x160x320_S8x16x160x320_S8x5x160x320_S8x53x160x320_d1) by simp only [after_cons, after_nil]; rfl).trans
    (by rw [h.v319, h.v320, h.v321, h.v322] <;> rfl)

/-! ## The whole fold -/

/-- After all operations the result buffer holds `RefTerm.stack` of what the arguments held, and the arguments are unchanged. -/
theorem fold_all (V : Valuation τ sig (Elt F)) :
    Inv10 (after allOps V) (V (Proc.devRef .tc main_arg0)) (V (Proc.devRef .tc main_arg1)) := by
  have e : after (allOps : List (HloOp τ sig (Elt F))) V
      = after W7c (after W7b (after W7a (after W6 (after W5 (after W4 (after W3 (after W2 (after W1 (after W0 V))))))))) := by
    unfold allOps
    rw [W7_split]
    simp only [after_append]
  rw [e]
  exact step9 _ _ _ (step8 _ _ _ (step7 _ _ _ (step6 _ _ _ (step5 _ _ _ (step4 _ _ _ (step3 _ _ _ (step2 _ _ _ (step1 _ _ _ (step0 V _ _ ⟨rfl, rfl⟩)))))))))

/-- On every device, for any float values, from any memory with zero counters: every weakly fair execution of the
    program terminates with the result buffer at `RefTerm.stack` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v323)
          = Cert.ReferenceIdeal.RefTerm.stack (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v323).trans (fold_all (launchContents m c)).v323,
        (h c main_arg0).trans (fold_all (launchContents m c)).arg0,
        (h c main_arg1).trans (fold_all (launchContents m c)).arg1⟩)
    (run_fold m ρ)

end Cert.ReferenceIdeal.RefRun

end
-- ==== Proof.RefValue.lean ====
/-
  The reference's result read at an index.

  The result joins the 53 displacement maps along the channel axis in groups of 16, 16, 16 and 5; read at `(n, j, r, s)`
  it is map `j` at `(n, r, s)` (`stack_apply`, through the group that holds `j`). Map `j` at `(n, r, s)` is the initial zero
  plus the sum over the 64 channels of the padded first argument at `(n, c, dy j + r, dx j + s)` times the second at
  `(n, c, r, s)`, divided by 64 (`quot_apply`); the host's padding read at an index is the zero-padded read (`padded_apply`).
  Together: the mean of `Shift.mean`.
-/
import proofs.«170128_j88175678587309_1_alg».proof.Proof.RefTerm
import proofs.«170128_j88175678587309_1_alg».proof.Proof.Mean
import proofs.«170128_j88175678587309_1_alg».proof.Proof.Gen.ReferenceIdeal
import Idealize.ShloMosaic.Lib.Pipeline.Value
import Idealize.ShloMosaic.Lib.KernelVsHost
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx Cert.Shift
open Cert.ReferenceIdeal.RefTerm

/-- The padding's value: the integer zero converted, as the host spells it. -/
abbrev hostBorder : EReal := (sitofp (F := Ideal) .f32 (constantI S_ 32 0#32)) (Shape.Idx.first h_S_)

/-- The host's padding of the first argument, read at an index: the zero-padded read. -/
theorem padded_apply (X : FVec Ideal S8x64x160x320 .f32) (n : Fin 8) (c : Fin 64) (u : Fin 168) (v : Fin 328) :
    padded X (ix4 n c u v) = pad2 hostBorder (fun r s => X (ix4 n c r s)) u.val v.val := by
  unfold padded
  by_cases h : (4 ≤ u.val ∧ u.val < 164) ∧ (4 ≤ v.val ∧ v.val < 324)
  · rw [pad2_inside hostBorder (fun r s => X (ix4 n c r s)) h.1 h.2 ⟨u.val - 4, by omega⟩ ⟨v.val - 4, by omega⟩ rfl rfl]
    refine pad_apply_of_inside _ _ _ X _ _ h_S_ (ix4 n c u v) (ix4 n c ⟨u.val - 4, by omega⟩ ⟨v.val - 4, by omega⟩) (fun a => ?_)
    match a with
    | ⟨0, _⟩ => show n.val = 0 + n.val * (0 + 1); omega
    | ⟨1, _⟩ => show c.val = 0 + c.val * (0 + 1); omega
    | ⟨2, _⟩ => show u.val = 4 + (u.val - 4) * (0 + 1); omega
    | ⟨3, _⟩ => show v.val = 4 + (v.val - 4) * (0 + 1); omega
  · rw [pad2_outside _ _ h]
    by_cases hu : 4 ≤ u.val ∧ u.val < 164
    · have hv : ¬(4 ≤ v.val ∧ v.val < 324) := fun hv => h ⟨hu, hv⟩
      refine pad_apply_of_not_inside _ _ _ X _ _ h_S_ (ix4 n c u v) 3 (fun hin => hv ?_)
      have h1 : 4 ≤ v.val := hin.1
      have h2 : (v.val - 4) / (0 + 1) < 320 := hin.2.2
      rw [Nat.div_one] at h2
      omega
    · refine pad_apply_of_not_inside _ _ _ X _ _ h_S_ (ix4 n c u v) 2 (fun hin => hu ?_)
      have h1 : 4 ≤ u.val := hin.1
      have h2 : (u.val - 4) / (0 + 1) < 160 := hin.2.2
      rw [Nat.div_one] at h2
      omega

/-- Displacement `j`'s map read at `(n, r, s)`. -/
theorem quot_apply (j : ℕ) (X Y : FVec Ideal S8x64x160x320 .f32) (n : Fin 8) (r : Fin 160) (s : Fin 320) :
    quot j X Y (ix3 n r s)
      = Ideal.div (Ideal.ofBits .f32 0x00000000#32 + ∑ c : Fin 64, term hostBorder X Y n j r s c.val)
          (Ideal.ofBits .f32 0x42800000#32) := by
  unfold quot
  show Ideal.div (Host.reduceAdd (F := Ideal)
      (mulf (extractStridedSlice S8x64x160x320 ![0, 0, dy j, dx j] (padded X) (slices_ok _ _ (dy_le j) (dx_le j))) Y)
      (constant S_ .f32 0x00000000#32) reducesTo_S8x64x160x320_S8x160x320_d1 h_S_ (ix3 n r s))
    (broadcastInDim S8x160x320 ![] bcast_S_S8x160x320 (constant (F := Ideal) S_ .f32 0x42800000#32) (ix3 n r s)) = _
  have eb : broadcastInDim S8x160x320 ![] bcast_S_S8x160x320 (constant (F := Ideal) S_ .f32 0x42800000#32) (ix3 n r s)
      = Ideal.ofBits .f32 0x42800000#32 :=
    (broadcastInDim_apply _ bcast_S_S8x160x320 _ (ix3 n r s) ix0 (fun a => a.elim0)).trans rfl
  rw [eb]
  refine congrArg (Ideal.div · _) ?_
  simp only [Host.reduceAdd, Ideal.hostReduceAdd_def]
  rw [Ideal.hostReduceAdd_single reducesTo_S8x64x160x320_S8x160x320_d1 (by decide)]
  refine congrArg₂ (· + ·) rfl ?_
  show (∑ c : Fin 64, _) = _
  refine Finset.sum_congr rfl fun c _ => ?_
  have e : ((by decide : S8x64x160x320.Reduces [1] S8x160x320).lift (ix3 n r s) c : S8x64x160x320.Idx) = ix4 n c r s :=
    funext fun a => Fin.ext (by match a with | ⟨0, _⟩ => rfl | ⟨1, _⟩ => rfl | ⟨2, _⟩ => rfl | ⟨3, _⟩ => rfl)
  rw [e]
  unfold term
  rw [dif_pos c.isLt]
  show extractStridedSlice S8x64x160x320 ![0, 0, dy j, dx j] (padded X) (slices_ok _ _ (dy_le j) (dx_le j)) (ix4 n c r s) * Y (ix4 n c r s) = _
  have ep : extractStridedSlice S8x64x160x320 ![0, 0, dy j, dx j] (padded X) (slices_ok _ _ (dy_le j) (dx_le j)) (ix4 n c r s)
      = padded X (ix4 n c ⟨dy j + r.val, by have := dy_le j; have := r.isLt; omega⟩ ⟨dx j + s.val, by have := dx_le j; have := s.isLt; omega⟩) :=
    extractStridedSlice_apply ![0, 0, dy j, dx j] (padded X) _ (ix4 n c r s) _ (fun a => match a with
      | ⟨0, _⟩ => by show n.val = 0 + n.val; omega
      | ⟨1, _⟩ => by show c.val = 0 + c.val; omega
      | ⟨2, _⟩ => by show dy j + r.val = dy j + r.val; rfl
      | ⟨3, _⟩ => by show dx j + s.val = dx j + s.val; rfl)
  rw [ep, padded_apply]

/-- Displacement `j`'s map with its unit channel axis, read at an index. -/
theorem row_apply (j : ℕ) (X Y : FVec Ideal S8x64x160x320 .f32) (i : S8x1x160x320.Idx) :
    row j X Y i = quot j X Y (ix3 (i 0) (i 2) (i 3)) := by
  unfold row
  exact broadcastInDim_apply _ bcast_S8x160x320_S8x1x160x320_0_2_3 _ i (ix3 (i 0) (i 2) (i 3)) (fun a => match a with
    | ⟨0, _⟩ => by show (i 0).val = if (8 : ℕ) = 1 then 0 else (i 0).val; rw [if_neg (by decide)]
    | ⟨1, _⟩ => by show (i 2).val = if (160 : ℕ) = 1 then 0 else (i 2).val; rw [if_neg (by decide)]
    | ⟨2, _⟩ => by show (i 3).val = if (320 : ℕ) = 1 then 0 else (i 3).val; rw [if_neg (by decide)])

/-- A group of sixteen maps read at an index: the map its channel coordinate names. -/
theorem group16_apply (base : ℕ) (X Y : FVec Ideal S8x64x160x320 .f32) (i : S8x16x160x320.Idx) :
    group16 base X Y i = quot (base + (i 1).val) X Y (ix3 (i 0) (i 2) (i 3)) := by
  unfold group16
  refine (concatenate_ofFn_unit_apply (t := S8x16x160x320) (s₁ := S8x1x160x320) 1 (fun k : Fin 16 => row (base + k.val) X Y) _ rfl rfl i
    (i 1) rfl (ix4 (i 0) 0 (i 2) (i 3)) (fun b => ?_)).trans (row_apply _ X Y _)
  match b with
  | ⟨0, _⟩ => exact fun _ => rfl
  | ⟨1, _⟩ => exact fun h => absurd rfl h
  | ⟨2, _⟩ => exact fun _ => rfl
  | ⟨3, _⟩ => exact fun _ => rfl

/-- The group of five likewise. -/
theorem group5_apply (base : ℕ) (X Y : FVec Ideal S8x64x160x320 .f32) (i : S8x5x160x320.Idx) :
    group5 base X Y i = quot (base + (i 1).val) X Y (ix3 (i 0) (i 2) (i 3)) := by
  unfold group5
  refine (concatenate_ofFn_unit_apply (t := S8x5x160x320) (s₁ := S8x1x160x320) 1 (fun k : Fin 5 => row (base + k.val) X Y) _ rfl rfl i
    (i 1) rfl (ix4 (i 0) 0 (i 2) (i 3)) (fun b => ?_)).trans (row_apply _ X Y _)
  match b with
  | ⟨0, _⟩ => exact fun _ => rfl
  | ⟨1, _⟩ => exact fun h => absurd rfl h
  | ⟨2, _⟩ => exact fun _ => rfl
  | ⟨3, _⟩ => exact fun _ => rfl

/-- The reference's result read at `(n, j, r, s)` is map `j` at `(n, r, s)`. -/
theorem stack_apply (X Y : FVec Ideal S8x64x160x320 .f32) (i : S8x53x160x320.Idx) :
    stack X Y i = quot (i 1).val X Y (ix3 (i 0) (i 2) (i 3)) := by
  have hi1 : (i 1).val < 53 := (i 1).isLt
  unfold stack
  by_cases h16 : (i 1).val < 16
  · refine (concatenate_apply_piece 1 _ _ i 0 (by show (0 : ℕ) < 4; omega) S8x16x160x320 (group16 0 X Y) rfl rfl 0 rfl
      (ix4 (i 0) ⟨(i 1).val, h16⟩ (i 2) (i 3)) (fun b => ?_) (by show 0 + (i 1).val = (i 1).val; omega)).trans ?_
    · match b with
      | ⟨0, _⟩ => exact fun _ => rfl
      | ⟨1, _⟩ => exact fun h => absurd rfl h
      | ⟨2, _⟩ => exact fun _ => rfl
      | ⟨3, _⟩ => exact fun _ => rfl
    · rw [group16_apply]; show quot (0 + (i 1).val) X Y _ = _; rw [Nat.zero_add]
  · by_cases h32 : (i 1).val < 32
    · refine (concatenate_apply_piece 1 _ _ i 1 (by show (1 : ℕ) < 4; omega) S8x16x160x320 (group16 16 X Y) rfl rfl 16 rfl
        (ix4 (i 0) ⟨(i 1).val - 16, by omega⟩ (i 2) (i 3)) (fun b => ?_) (by show 16 + ((i 1).val - 16) = (i 1).val; omega)).trans ?_
      · match b with
        | ⟨0, _⟩ => exact fun _ => rfl
        | ⟨1, _⟩ => exact fun h => absurd rfl h
        | ⟨2, _⟩ => exact fun _ => rfl
        | ⟨3, _⟩ => exact fun _ => rfl
      · rw [group16_apply]; show quot (16 + ((i 1).val - 16)) X Y _ = _; rw [show 16 + ((i 1).val - 16) = (i 1).val from by omega]
    · by_cases h48 : (i 1).val < 48
      · refine (concatenate_apply_piece 1 _ _ i 2 (by show (2 : ℕ) < 4; omega) S8x16x160x320 (group16 32 X Y) rfl rfl 32 rfl
          (ix4 (i 0) ⟨(i 1).val - 32, by omega⟩ (i 2) (i 3)) (fun b => ?_) (by show 32 + ((i 1).val - 32) = (i 1).val; omega)).trans ?_
        · match b with
          | ⟨0, _⟩ => exact fun _ => rfl
          | ⟨1, _⟩ => exact fun h => absurd rfl h
          | ⟨2, _⟩ => exact fun _ => rfl
          | ⟨3, _⟩ => exact fun _ => rfl
        · rw [group16_apply]; show quot (32 + ((i 1).val - 32)) X Y _ = _; rw [show 32 + ((i 1).val - 32) = (i 1).val from by omega]
      · refine (concatenate_apply_piece 1 _ _ i 3 (by show (3 : ℕ) < 4; omega) S8x5x160x320 (group5 48 X Y) rfl rfl 48 rfl
          (ix4 (i 0) ⟨(i 1).val - 48, by omega⟩ (i 2) (i 3)) (fun b => ?_) (by show 48 + ((i 1).val - 48) = (i 1).val; omega)).trans ?_
        · match b with
          | ⟨0, _⟩ => exact fun _ => rfl
          | ⟨1, _⟩ => exact fun h => absurd rfl h
          | ⟨2, _⟩ => exact fun _ => rfl
          | ⟨3, _⟩ => exact fun _ => rfl
        · rw [group5_apply]; show quot (48 + ((i 1).val - 48)) X Y _ = _; rw [show 48 + ((i 1).val - 48) = (i 1).val from by omega]

/-- The reference's result is the mean. -/
theorem stack_eq_mean (X Y : FVec Ideal S8x64x160x320 .f32) : stack X Y = mean hostBorder X Y := by
  funext i
  exact (stack_apply X Y i).trans ((quot_apply (i 1).val X Y (i 0) (i 2) (i 3)).trans rfl)

end Cert.ReferenceIdeal.RefValue

end
-- ==== Proof.lean ====
/-
  The proof of `Cert.Claim`: a cost volume over 53 displacements, tiled over the channels, against its one-pass mean.

  Both idealized programs compute, at batch entry `n`, displacement `j` and pixel `(r, s)`, the mean over the 64 channels
  `c` of  pad(in1)[n, c, dy j + r, dx j + s] · in2[n, c, r, s]  (`Shift.mean`; `pad` a border of four zeros around the
  last two axes). The kernel sums the channels sixteen at a time into a running total kept in the output block over
  four grid points and multiplies the total by 2⁻⁶ after the last (Proof/KernelCases.lean: one body run in each of its
  three control cases; Proof/KernelAcc.lean: the running total by induction on the grid point, and the array the last
  tiles write back). The reference pads, slices, multiplies, sums all 64 channels and divides by 64, once per displacement,
  and joins the 53 maps (Proof/RefRun.lean: its run, window by window; Proof/RefValue.lean: the joined maps read at an
  index). Over the extended reals a sum may be taken in stretches, and dividing by 64 is multiplying by 1/64, whatever the
  entries (Proof/Shift.lean, Proof/Mean.lean): the precondition is not used.
  The frames of the two kernels are the generated ones; the reference's frame is its run with the result dropped; the
  idealization rewrote nothing, so `preserves` is trivial.
-/
import proofs.«170128_j88175678587309_1_alg».proof.Defs
import proofs.«170128_j88175678587309_1_alg».proof.Proof.Gen.Kernel
import proofs.«170128_j88175678587309_1_alg».proof.Proof.Gen.Kernel.Frame
import proofs.«170128_j88175678587309_1_alg».proof.Proof.Gen.KernelIdeal
import proofs.«170128_j88175678587309_1_alg».proof.Proof.Gen.KernelIdeal.Frame
import proofs.«170128_j88175678587309_1_alg».proof.Proof.Gen.ReferenceIdeal
import proofs.«170128_j88175678587309_1_alg».proof.Proof.Gen.Pre_finite_inputs
import proofs.«170128_j88175678587309_1_alg».proof.Proof.KernelAcc
import proofs.«170128_j88175678587309_1_alg».proof.Proof.RefRun
import proofs.«170128_j88175678587309_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- At `Ideal` the kernel's result array ends at the mean of its argument arrays (the running total over the tiles, scaled),
    and the reference's at the joined maps of arguments that agree — the same mean, entry by entry. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefValue.stack_eq_mean]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
